-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x256 : Shape := ⟨2, ![12288, 256]⟩
abbrev S12288x3 : Shape := ⟨2, ![12288, 3]⟩
abbrev S3 : Shape := ⟨1, ![3]⟩
abbrev S259x64 : Shape := ⟨2, ![259, 64]⟩
abbrev S64 : Shape := ⟨1, ![64]⟩
abbrev S259x256 : Shape := ⟨2, ![259, 256]⟩
abbrev S256 : Shape := ⟨1, ![256]⟩
abbrev S_ : Shape := ⟨0, ![]⟩

class Facts : Prop where
  bcast_S_S12288x256 : S_.BroadcastsInDim S12288x256 (![] : Fin 0 → Fin S12288x256.rank)
  reducesTo_S12288x256_S_d0_1 : S12288x256.ReducesTo [0, 1] S_
  h_S_ : 0 < S_.numel
  bcast_S_S3 : S_.BroadcastsInDim S3 (![] : Fin 0 → Fin S3.rank)
  reducesTo_S3_S_d0 : S3.ReducesTo [0] S_
  bcast_S_S259x64 : S_.BroadcastsInDim S259x64 (![] : Fin 0 → Fin S259x64.rank)
  reducesTo_S259x64_S_d0_1 : S259x64.ReducesTo [0, 1] S_
  bcast_S_S64 : S_.BroadcastsInDim S64 (![] : Fin 0 → Fin S64.rank)
  reducesTo_S64_S_d0 : S64.ReducesTo [0] S_
  bcast_S_S259x256 : S_.BroadcastsInDim S259x256 (![] : Fin 0 → Fin S259x256.rank)
  reducesTo_S259x256_S_d0_1 : S259x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S259x64 .f32) (main_arg6 : FVec F S64 .f32) (main_arg7 : FVec F S259x256 .f32) (main_arg8 : FVec F S256 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S259x64 .f32 := Host.absf main_arg5
  let main_cst_6 : FVec F S_ .f32 := constant S_ .f32 0x7F800000#32
  let main_v20 : FVec F S259x64 .f32 := broadcastInDim S259x64 ![] bcast_S_S259x64 main_cst_6
  let main_v21 : IVec S259x64 1 := cmpf .olt main_v19 main_v20
  let main_c_7 : IVec S_ 1 := constantI S_ 1 1#1
  let main_v22 : IVec S_ 1 := (fun x v => Host.reduce IntOp.andi x v reducesTo_S259x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S259x256 .f32 := Host.absf main_arg7
  let main_cst_10 : FVec F S_ .f32 := constant S_ .f32 0x7F800000#32
  let main_v30 : FVec F S259x256 .f32 := broadcastInDim S259x256 ![] bcast_S_S259x256 main_cst_10
  let main_v31 : IVec S259x256 1 := cmpf .olt main_v29 main_v30
  let main_c_11 : IVec S_ 1 := constantI S_ 1 1#1
  let main_v32 : IVec S_ 1 := (fun x v => Host.reduce IntOp.andi x v reducesTo_S259x256_S_d0_1 h_S_) main_v31 main_c_11
  let main_v33 : IVec S_ 1 := andi main_v28 main_v32
  fn_part2 (F := F) main_arg8 main_v33

def fn {F : FTy → Type} [FloatOps F] (main_arg0 : FVec F S12288x256 .f32) (main_arg1 : IVec S12288x3 32) (main_arg2 : FVec F S3 .f32) (main_arg3 : FVec F S259x64 .f32) (main_arg4 : FVec F S64 .f32) (main_arg5 : FVec F S259x64 .f32) (main_arg6 : FVec F S64 .f32) (main_arg7 : FVec F S259x256 .f32) (main_arg8 : FVec F S256 .f32) : IVec S_ 1 :=
  let main_v0 : FVec F S12288x256 .f32 := Host.absf main_arg0
  let main_cst : FVec F S_ .f32 := constant S_ .f32 0x7F800000#32
  let main_v1 : FVec F S12288x256 .f32 := broadcastInDim S12288x256 ![] bcast_S_S12288x256 main_cst
  let main_v2 : IVec S12288x256 1 := cmpf .olt main_v0 main_v1
  let main_c : IVec S_ 1 := constantI S_ 1 1#1
  let main_v3 : IVec S_ 1 := (fun x v => Host.reduce IntOp.andi x v reducesTo_S12288x256_S_d0_1 h_S_) main_v2 main_c
  let main_v4 : FVec F S3 .f32 := Host.absf main_arg2
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S259x64 .f32 := Host.absf main_arg3
  let main_cst_2 : FVec F S_ .f32 := constant S_ .f32 0x7F800000#32
  let main_v10 : FVec F S259x64 .f32 := broadcastInDim S259x64 ![] bcast_S_S259x64 main_cst_2
  let main_v11 : IVec S259x64 1 := cmpf .olt main_v9 main_v10
  let main_c_3 : IVec S_ 1 := constantI S_ 1 1#1
  let main_v12 : IVec S_ 1 := (fun x v => Host.reduce IntOp.andi x v reducesTo_S259x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S12288x256 : Shape := ⟨2, ![12288, 256]⟩
abbrev S12288x3 : Shape := ⟨2, ![12288, 3]⟩
abbrev S3 : Shape := ⟨1, ![3]⟩
abbrev S259x64 : Shape := ⟨2, ![259, 64]⟩
abbrev S64 : Shape := ⟨1, ![64]⟩
abbrev S259x256 : Shape := ⟨2, ![259, 256]⟩
abbrev S256 : Shape := ⟨1, ![256]⟩
abbrev S_ : Shape := ⟨0, ![]⟩
abbrev S1x3 : Shape := ⟨2, ![1, 3]⟩
abbrev S256x64 : Shape := ⟨2, ![256, 64]⟩
abbrev S3x64 : Shape := ⟨2, ![3, 64]⟩
abbrev S256x256 : Shape := ⟨2, ![256, 256]⟩
abbrev S3x256 : Shape := ⟨2, ![3, 256]⟩
abbrev S1x64 : Shape := ⟨2, ![1, 64]⟩
abbrev S1x256 : Shape := ⟨2, ![1, 256]⟩
abbrev S12288x64 : Shape := ⟨2, ![12288, 64]⟩
abbrev S1024x256 : Shape := ⟨2, ![1024, 256]⟩
abbrev S1024x3 : Shape := ⟨2, ![1024, 3]⟩
abbrev S1024x64 : Shape := ⟨2, ![1024, 64]⟩
abbrev S1024 : Shape := ⟨1, ![1024]⟩
abbrev S1024x1 : Shape := ⟨2, ![1024, 1]⟩
abbrev S64x1024 : Shape := ⟨2, ![64, 1024]⟩
abbrev S1024x1024 : Shape := ⟨2, ![1024, 1024]⟩

abbrev nBuf : Space → Nat
  | .hbm => 43
  | .vmem => 32
  | .smem => 0
  | _ => 0

abbrev bufTy : (tb : Table) → Fin (tcTables nBuf tb) → BufTy
  | .hbm, ⟨0, _⟩ => ⟨S12288x256, .f32⟩
  | .hbm, ⟨1, _⟩ => ⟨S12288x3, .i32⟩
  | .hbm, ⟨2, _⟩ => ⟨S3, .f32⟩
  | .hbm, ⟨3, _⟩ => ⟨S259x64, .f32⟩
  | .hbm, ⟨4, _⟩ => ⟨S64, .f32⟩
  | .hbm, ⟨5, _⟩ => ⟨S259x64, .f32⟩
  | .hbm, ⟨6, _⟩ => ⟨S64, .f32⟩
  | .hbm, ⟨7, _⟩ => ⟨S259x256, .f32⟩
  | .hbm, ⟨8, _⟩ => ⟨S256, .f32⟩
  | .hbm, ⟨9, _⟩ => ⟨S_, .f32⟩
  | .hbm, ⟨10, _⟩ => ⟨S3, .f32⟩
  | .hbm, ⟨11, _⟩ => ⟨S3, .f32⟩
  | .hbm, ⟨12, _⟩ => ⟨S12288x3, .f32⟩
  | .hbm, ⟨13, _⟩ => ⟨S1x3, .f32⟩
  | .hbm, ⟨14, _⟩ => ⟨S12288x3, .f32⟩
  | .hbm, ⟨15, _⟩ => ⟨S12288x3, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S12288x3, .f32⟩
  | .hbm, ⟨20, _⟩ => ⟨S12288x3, .f32⟩
  | .hbm, ⟨21, _⟩ => ⟨S_, .f32⟩
  | .hbm, ⟨22, _⟩ => ⟨S12288x3, .f32⟩
  | .hbm, ⟨23, _⟩ => ⟨S12288x3, .f32⟩
  | .hbm, ⟨24, _⟩ => ⟨S256x64, .f32⟩
  | .hbm, ⟨25, _⟩ => ⟨S3x64, .f32⟩
  | .hbm, ⟨26, _⟩ => ⟨S256x64, .f32⟩
  | .hbm, ⟨27, _⟩ => ⟨S3x64, .f32⟩
  | .hbm, ⟨28, _⟩ => ⟨S256x256, .f32⟩
  | .hbm, ⟨29, _⟩ => ⟨S3x256, .f32⟩
  | .hbm, ⟨30, _⟩ => ⟨S256x64, .bf16⟩
  | .hbm, ⟨31, _⟩ => ⟨S3x64, .bf16⟩
  | .hbm, ⟨32, _⟩ => ⟨S256x64, .bf16⟩
  | .hbm, ⟨33, _⟩ => ⟨S3x64, .bf16⟩
  | .hbm, ⟨34, _⟩ => ⟨S256x256, .bf16⟩
  | .hbm, ⟨35, _⟩ => ⟨S3x256, .bf16⟩
  | .hbm, ⟨36, _⟩ => ⟨S1x64, .f32⟩
  | .hbm, ⟨37, _⟩ => ⟨S1x64, .f32⟩
  | .hbm, ⟨38, _⟩ => ⟨S1x256, .f32⟩
  | .hbm, ⟨39, _⟩ => ⟨S12288x64, .bf16⟩
  | .hbm, ⟨40, _⟩ => ⟨S12288x64, .bf16⟩
  | .hbm, ⟨41, _⟩ => ⟨S12288x256, .bf16⟩
  | .hbm, ⟨42, _⟩ => ⟨S12288x256, .f32⟩
  | .local _ .vmem, ⟨0, _⟩ => ⟨S1024x256, .f32⟩
  | .local _ .vmem, ⟨1, _⟩ => ⟨S1024x256, .f32⟩
  | .local _ .vmem, ⟨2, _⟩ => ⟨S1024x3, .f32⟩
  | .local _ .vmem, ⟨3, _⟩ => ⟨S1024x3, .f32⟩
  | .local _ .vmem, ⟨4, _⟩ => ⟨S256x64, .bf16⟩
  | .local _ .vmem, ⟨5, _⟩ => ⟨S3x64, .bf16⟩
  | .local _ .vmem, ⟨6, _⟩ => ⟨S1x64, .f32⟩
  | .local _ .vmem, ⟨7, _⟩ => ⟨S256x64, .bf16⟩
  | .local _ .vmem, ⟨8, _⟩ => ⟨S3x64, .bf16⟩
  | .local _ .vmem, ⟨9, _⟩ => ⟨S1x64, .f32⟩
  | .local _ .vmem, ⟨10, _⟩ => ⟨S256x256, .bf16⟩
  | .local _ .vmem, ⟨11, _⟩ => ⟨S3x256, .bf16⟩
  | .local _ .vmem, ⟨12, _⟩ => ⟨S1x256, .f32⟩
  | .local _ .vmem, ⟨13, _⟩ => ⟨S1024x64, .bf16⟩
  | .local _ .vmem, ⟨14, _⟩ => ⟨S1024x64, .bf16⟩
  | .local _ .vmem, ⟨15, _⟩ => ⟨S1024x64, .bf16⟩
  | .local _ .vmem, ⟨16, _⟩ => ⟨S1024x64, .bf16⟩
  | .local _ .vmem, ⟨17, _⟩ => ⟨S1024x256, .bf16⟩
  | .local _ .vmem, ⟨18, _⟩ => ⟨S1024x256, .bf16⟩
  | .local _ .vmem, ⟨19, _⟩ => ⟨S1024x64, .bf16⟩
  | .local _ .vmem, ⟨20, _⟩ => ⟨S1024x64, .bf16⟩
  | .local _ .vmem, ⟨21, _⟩ => ⟨S1024x64, .bf16⟩
  | .local _ .vmem, ⟨22, _⟩ => ⟨S1024x64, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x1, .f32⟩
  | .local _ .vmem, ⟨30, _⟩ => ⟨S1024x1, .f32⟩
  | .local _ .vmem, ⟨31, _⟩ => ⟨S1024x256, .f32⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v22_2 : Ref sig .tc := ⟨.hbm, 41, rfl⟩
abbrev main_v23 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_scratch0 : Ref sig .tc := ⟨.vmem, 29, rfl⟩
abbrev cc1_scratch1 : Ref sig .tc := ⟨.vmem, 30, rfl⟩
abbrev cc1_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨2, ![12, 12], ![false, false]⟩

def k1_cond2 (i : grid1.Coords) : BitVec 1 :=
  let arg1 : BitVec 32 := BitVec.ofNat 32 (i 1).val
  let c11_i32 : BitVec 32 := 11#32
  let v46 : BitVec 1 := Scalar.cmpi .eq arg1 c11_i32
  let v47 : BitVec 32 := Scalar.extui v46
  let c0_i32_24 : BitVec 32 := 0#32
  let v48 : BitVec 1 := Scalar.cmpi .ne v47 c0_i32_24
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S3 : S_.BroadcastsInDim S3 (![] : Fin 0 → Fin S3.rank)
  bcast_S3_S1x3_1 : S3.BroadcastsInDim S1x3 (![1] : Fin 1 → Fin S1x3.rank)
  bcast_S1x3_S12288x3_0_1 : S1x3.BroadcastsInDim S12288x3 (![0, 1] : Fin 2 → Fin S12288x3.rank)
  bcast_S_S12288x3 : S_.BroadcastsInDim S12288x3 (![] : Fin 0 → Fin S12288x3.rank)
  slices_S259x64_S256x64_0_0 : S259x64.Slices ![0, 0] S256x64
  slices_S259x64_S3x64_256_0 : S259x64.Slices ![256, 0] S3x64
  slices_S259x256_S256x256_0_0 : S259x256.Slices ![0, 0] S256x256
  slices_S259x256_S3x256_256_0 : S259x256.Slices ![256, 0] S3x256
  bitsLt_bf16_f32 : FTy.bits .bf16 < FTy.bits .f32
  shapeCasts_S64_S1x64 : S64.ShapeCasts S1x64
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  shapeCasts_S1024x64_S1024x64 : S1024x64.ShapeCasts S1024x64
  transposes_S1024x64_p1_0_S64x1024 : S1024x64.Transposes [1, 0] S64x1024
  reduces_S1024x1024_S1024 : S1024x1024.Reduces [1] S1024
  broadcasts_S1024x1_S1024x1024 : S1024x1.Broadcasts S1024x1024
  dot_S1024x256_S256x64_S1024x64_1_0_0_1_n_n_wf : DotDims.WF S1024x256 S256x64 S1024x64 [1] [0] [0] [1] [] []
  dot_S1024x3_S3x64_S1024x64_1_0_0_1_n_n_wf : DotDims.WF S1024x3 S3x64 S1024x64 [1] [0] [0] [1] [] []
  dot_S1024x256_S256x256_S1024x256_1_0_0_1_n_n_wf : DotDims.WF S1024x256 S256x256 S1024x256 [1] [0] [0] [1] [] []
  dot_S1024x3_S3x256_S1024x256_1_0_0_1_n_n_wf : DotDims.WF S1024x3 S3x256 S1024x256 [1] [0] [0] [1] [] []
  dot_S1024x64_S64x1024_S1024x1024_1_0_0_1_n_n_wf : DotDims.WF S1024x64 S64x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S12288x256.size a
  hwx0_0 : ∀ i : grid0.Coords, EltTy.bits .f32 = 32 ∨ (Rect.block (s := S12288x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S12288x3.size a
  hwx0_1 : ∀ i : grid0.Coords, EltTy.bits .f32 = 32 ∨ (Rect.block (s := S12288x3) S1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .bf16 = 32 ∨ (Rect.block (s := S256x64) S256x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .bf16 = 32 ∨ (Rect.block (s := S3x64) S3x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64.size a ≤ S3x64.size a
  hwx0_6 : ∀ i : grid0.Coords, EltTy.bits .bf16 = 32 ∨ (Rect.block (s := S3x64) S3x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .bf16 = 32 ∨ (Rect.block (s := S3x256) S3x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x64.size a ≤ S12288x64.size a
  hwx0_11 : ∀ i : grid0.Coords, EltTy.bits .bf16 = 32 ∨ (Rect.block (s := S12288x64) S1024x64.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x64.size a ≤ S12288x64.size a
  hwx0_12 : ∀ i : grid0.Coords, EltTy.bits .bf16 = 32 ∨ (Rect.block (s := S12288x64) S1024x64.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S12288x256.size a
  hwx0_13 : ∀ i : grid0.Coords, EltTy.bits .bf16 = 32 ∨ (Rect.block (s := S12288x256) S1024x256.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S12288x64.size a
  hwx1_0 : ∀ i : grid1.Coords, EltTy.bits .bf16 = 32 ∨ (Rect.block (s := S12288x64) S1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S12288x64.size a
  hwx1_1 : ∀ i : grid1.Coords, EltTy.bits .bf16 = 32 ∨ (Rect.block (s := S12288x64) S1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S12288x256.size a
  hwx1_2 : ∀ i : grid1.Coords, EltTy.bits .bf16 = 32 ∨ (Rect.block (s := S12288x256) S1024x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S12288x256.size a
  hwx1_3 : ∀ i : grid1.Coords, EltTy.bits .f32 = 32 ∨ (Rect.block (s := S12288x256) S1024x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S12288x256.size a
  hwx1_4 : ∀ i : grid1.Coords, EltTy.bits .f32 = 32 ∨ (Rect.block (s := S12288x256) S1024x256.size (cc1_transform_4 i) (hinb1_4 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x3_S3x256_S1024x256_1_0_0_1_n_n : DotDims S1024x3 S3x256 S1024x256 where
  lhsContracting := [1]
  rhsContracting := [0]
  lhsNonContracting := [0]
  rhsNonContracting := [1]
  lhsBatch := []
  rhsBatch := []
  wf := dot_S1024x3_S3x256_S1024x256_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S3x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22_0) S1024x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_1) S1024x64.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v22_2) S1024x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v22_0) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22_1) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22_2) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1024x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S12288x256 : Shape := ⟨2, ![12288, 256]⟩
abbrev S12288x3 : Shape := ⟨2, ![12288, 3]⟩
abbrev S3 : Shape := ⟨1, ![3]⟩
abbrev S259x64 : Shape := ⟨2, ![259, 64]⟩
abbrev S64 : Shape := ⟨1, ![64]⟩
abbrev S259x256 : Shape := ⟨2, ![259, 256]⟩
abbrev S256 : Shape := ⟨1, ![256]⟩
abbrev S_ : Shape := ⟨0, ![]⟩
abbrev S12288 : Shape := ⟨1, ![12288]⟩
abbrev S12288x1 : Shape := ⟨2, ![12288, 1]⟩
abbrev S1x3 : Shape := ⟨2, ![1, 3]⟩
abbrev S12288x259 : Shape := ⟨2, ![12288, 259]⟩
abbrev S12288x64 : Shape := ⟨2, ![12288, 64]⟩
abbrev S1x64 : Shape := ⟨2, ![1, 64]⟩
abbrev S1x256 : Shape := ⟨2, ![1, 256]⟩
abbrev S64x12288 : Shape := ⟨2, ![64, 12288]⟩
abbrev S12288x12288 : Shape := ⟨2, ![12288, 12288]⟩

abbrev nBuf : Space → Nat
  | .hbm => 77
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S12288x3, .i32⟩
  | .hbm, ⟨2, _⟩ => ⟨S3, .f32⟩
  | .hbm, ⟨3, _⟩ => ⟨S259x64, .f32⟩
  | .hbm, ⟨4, _⟩ => ⟨S64, .f32⟩
  | .hbm, ⟨5, _⟩ => ⟨S259x64, .f32⟩
  | .hbm, ⟨6, _⟩ => ⟨S64, .f32⟩
  | .hbm, ⟨7, _⟩ => ⟨S259x256, .f32⟩
  | .hbm, ⟨8, _⟩ => ⟨S256, .f32⟩
  | .hbm, ⟨9, _⟩ => ⟨S12288x256, .f32⟩
  | .hbm, ⟨10, _⟩ => ⟨S_, .f32⟩
  | .hbm, ⟨11, _⟩ => ⟨S12288, .f32⟩
  | .hbm, ⟨12, _⟩ => ⟨S12288x1, .f32⟩
  | .hbm, ⟨13, _⟩ => ⟨S12288x1, .f32⟩
  | .hbm, ⟨14, _⟩ => ⟨S_, .f32⟩
  | .hbm, ⟨15, _⟩ => ⟨S12288x1, .f32⟩
  | .hbm, ⟨16, _⟩ => ⟨S12288x1, .f32⟩
  | .hbm, ⟨17, _⟩ => ⟨S12288x256, .f32⟩
  | .hbm, ⟨18, _⟩ => ⟨S12288x256, .f32⟩
  | .hbm, ⟨19, _⟩ => ⟨S_, .f32⟩
  | .hbm, ⟨20, _⟩ => ⟨S3, .f32⟩
  | .hbm, ⟨21, _⟩ => ⟨S3, .f32⟩
  | .hbm, ⟨22, _⟩ => ⟨S12288x3, .f32⟩
  | .hbm, ⟨23, _⟩ => ⟨S1x3, .f32⟩
  | .hbm, ⟨24, _⟩ => ⟨S12288x3, .f32⟩
  | .hbm, ⟨25, _⟩ => ⟨S12288x3, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S12288x3, .f32⟩
  | .hbm, ⟨30, _⟩ => ⟨S12288x3, .f32⟩
  | .hbm, ⟨31, _⟩ => ⟨S_, .f32⟩
  | .hbm, ⟨32, _⟩ => ⟨S12288x3, .f32⟩
  | .hbm, ⟨33, _⟩ => ⟨S12288x3, .f32⟩
  | .hbm, ⟨34, _⟩ => ⟨S12288x259, .f32⟩
  | .hbm, ⟨35, _⟩ => ⟨S12288x64, .f32⟩
  | .hbm, ⟨36, _⟩ => ⟨S1x64, .f32⟩
  | .hbm, ⟨37, _⟩ => ⟨S12288x64, .f32⟩
  | .hbm, ⟨38, _⟩ => ⟨S12288x64, .f32⟩
  | .hbm, ⟨39, _⟩ => ⟨S12288x64, .f32⟩
  | .hbm, ⟨40, _⟩ => ⟨S1x64, .f32⟩
  | .hbm, ⟨41, _⟩ => ⟨S12288x64, .f32⟩
  | .hbm, ⟨42, _⟩ => ⟨S12288x64, .f32⟩
  | .hbm, ⟨43, _⟩ => ⟨S12288x256, .f32⟩
  | .hbm, ⟨44, _⟩ => ⟨S1x256, .f32⟩
  | .hbm, ⟨45, _⟩ => ⟨S12288x256, .f32⟩
  | .hbm, ⟨46, _⟩ => ⟨S12288x256, .f32⟩
  | .hbm, ⟨47, _⟩ => ⟨S64x12288, .f32⟩
  | .hbm, ⟨48, _⟩ => ⟨S12288x12288, .f32⟩
  | .hbm, ⟨49, _⟩ => ⟨S_, .f32⟩
  | .hbm, ⟨50, _⟩ => ⟨S_, .f32⟩
  | .hbm, ⟨51, _⟩ => ⟨S12288x12288, .f32⟩
  | .hbm, ⟨52, _⟩ => ⟨S12288x12288, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S12288x12288, .f32⟩
  | .hbm, ⟨57, _⟩ => ⟨S12288x12288, .f32⟩
  | .hbm, ⟨58, _⟩ => ⟨S_, .f32⟩
  | .hbm, ⟨59, _⟩ => ⟨S12288x12288, .f32⟩
  | .hbm, ⟨60, _⟩ => ⟨S12288x12288, .f32⟩
  | .hbm, ⟨61, _⟩ => ⟨S_, .f32⟩
  | .hbm, ⟨62, _⟩ => ⟨S12288, .f32⟩
  | .hbm, ⟨63, _⟩ => ⟨S12288x1, .f32⟩
  | .hbm, ⟨64, _⟩ => ⟨S12288x12288, .f32⟩
  | .hbm, ⟨65, _⟩ => ⟨S12288x12288, .f32⟩
  | .hbm, ⟨66, _⟩ => ⟨S12288x12288, .f32⟩
  | .hbm, ⟨67, _⟩ => ⟨S_, .f32⟩
  | .hbm, ⟨68, _⟩ => ⟨S12288, .f32⟩
  | .hbm, ⟨69, _⟩ => ⟨S12288x1, .f32⟩
  | .hbm, ⟨70, _⟩ => ⟨S_, .f32⟩
  | .hbm, ⟨71, _⟩ => ⟨S12288x1, .f32⟩
  | .hbm, ⟨72, _⟩ => ⟨S12288x1, .f32⟩
  | .hbm, ⟨73, _⟩ => ⟨S12288x12288, .f32⟩
  | .hbm, ⟨74, _⟩ => ⟨S12288x12288, .f32⟩
  | .hbm, ⟨75, _⟩ => ⟨S12288x256, .f32⟩
  | .hbm, ⟨76, _⟩ => ⟨S12288x256, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_7 : Ref sig .tc := ⟨.hbm, 67, rfl⟩
abbrev main_v36 : Ref sig .tc := ⟨.hbm, 68, rfl⟩
abbrev main_v37 : Ref sig .tc := ⟨.hbm, 69, rfl⟩
abbrev main_cst_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩

abbrev nD : Nat := 1
abbrev τ : Topo := Topo.v7x

variable {F : FTy → Type} [FloatOps F]

class Facts₀ : Prop where
  reducesTo_S12288x256_S12288_d1 : S12288x256.ReducesTo [1] S12288
  h_S_ : 0 < S_.numel
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S12288x1_S12288x256_0_1 : S12288x1.BroadcastsInDim S12288x256 (![0, 1] : Fin 2 → Fin S12288x256.rank)
  bcast_S_S3 : S_.BroadcastsInDim S3 (![] : Fin 0 → Fin S3.rank)
  bcast_S3_S1x3_1 : S3.BroadcastsInDim S1x3 (![1] : Fin 1 → Fin S1x3.rank)
  bcast_S1x3_S12288x3_0_1 : S1x3.BroadcastsInDim S12288x3 (![0, 1] : Fin 2 → Fin S12288x3.rank)
  bcast_S_S12288x3 : S_.BroadcastsInDim S12288x3 (![] : Fin 0 → Fin S12288x3.rank)
  concatenates_S12288x256_S12288x3_S12288x259_d1 : Shape.Concatenates [S12288x256, S12288x3] S12288x259 1
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  transposes_S12288x64_S64x12288_1_0 : S12288x64.Transposes [1, 0] S64x12288
  bcast_S_S12288x12288 : S_.BroadcastsInDim S12288x12288 (![] : Fin 0 → Fin S12288x12288.rank)
  reducesTo_S12288x12288_S12288_d1 : S12288x12288.ReducesTo [1] S12288
  bcast_S12288x1_S12288x12288_0_1 : S12288x1.BroadcastsInDim S12288x12288 (![0, 1] : Fin 2 → Fin S12288x12288.rank)
  dot_S12288x259_S259x64_S12288x64_1_0_0_1_n_n_wf : DotDims.WF S12288x259 S259x64 S12288x64 [1] [0] [0] [1] [] []
  dot_S12288x259_S259x256_S12288x256_1_0_0_1_n_n_wf : DotDims.WF S12288x259 S259x256 S12288x256 [1] [0] [0] [1] [] []
  dot_S12288x64_S64x12288_S12288x12288_1_0_0_1_n_n_wf : DotDims.WF S12288x64 S64x12288 S12288x12288 [1] [0] [0] [1] [] []
  dot_S12288x12288_S12288x256_S12288x256_1_0_0_1_n_n_wf : DotDims.WF S12288x12288 S12288x256 S12288x256 [1] [0] [0] [1] [] []

variable [Facts₀]

def dot_S12288x259_S259x64_S12288x64_1_0_0_1_n_n : DotDims S12288x259 S259x64 S12288x64 where
  lhsContracting := [1]
  rhsContracting := [0]
  lhsNonContracting := [0]
  rhsNonContracting := [1]
  lhsBatch := []
  rhsBatch := []
  wf := dot_S12288x259_S259x64_S12288x64_1_0_0_1_n_n_wf
def dot_S12288x259_S259x256_S12288x256_1_0_0_1_n_n : DotDims S12288x259 S259x256 S12288x256 where
  lhsContracting := [1]
  rhsContracting := [0]
  lhsNonContracting := [0]
  rhsNonContracting := [1]
  lhsBatch := []
  rhsBatch := []
  wf := dot_S12288x259_S259x256_S12288x256_1_0_0_1_n_n_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf
def dot_S12288x12288_S12288x256_S12288x256_1_0_0_1_n_n : DotDims S12288x12288 S12288x256 S12288x256 where
  lhsContracting := [1]
  rhsContracting := [0]
  lhsNonContracting := [0]
  rhsNonContracting := [1]
  lhsBatch := []
  rhsBatch := []
  wf := dot_S12288x12288_S12288x256_S12288x256_1_0_0_1_n_n_wf

class Facts : Prop extends Facts₀ where

variable [Facts]
-- ==== Proof.RunBoth.lean ====
/-
  The program's run through its host operations and its two regions, for any proof data of the two regions:
  every argument ends as launched, and the result's buffer ends holding the second region's output array after
  all its write-backs.
-/
import proofs.«174622_j3590592660316_1_alg».proof.Proof.Gen.KernelIdeal.Regions
import Idealize.ShloMosaic.Lib.Pipeline.RegionsLoop
import Idealize.ShloMosaic.Lib.Pipeline.FrameSuffix
import Idealize.ShloMosaic.Lib.Pipeline.Kit

noncomputable section

namespace Cert.KernelIdeal.RunBoth

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A core's unscoped buffers read at the TensorCore's references: what a region's proof data take as the contents
    the region is entered from. -/
abbrev Env : Type := (c : Dev nD) → (b : Ref sig .tc) → Buf (Elt F) ((c : Thread nD τ).loc b)

variable (m : (ℓ : Loc nD τ sig) → Buf (Elt F) ℓ) (ρ : Dev nD → PrngReg)

/-! ## The two regions' proof data, taken as given -/

variable (dat0 : Env (F := F) → (c : Dev nD) → Dat τ (Elt F) Unit ℕ (UR sig nD τ) ℕ cfg0 c)
variable (dat1 : Env (F := F) → (c : Dev nD) → Dat τ (Elt F) Unit ℕ (UR sig nD τ) ℕ cfg1 c)

/-! ## The buffers' contents around the regions -/

/-- What region 0 is entered from: the launch contents after the three host stretches. -/
abbrev Vin0 : Env (F := F) := fun c b => V3 m c b

/-- What region 0 leaves in a buffer: each of its arrays after all its write-backs, any other buffer as entered. -/
def outs4 (r : Ref sig .tc) (c : Dev nD) : Buf (Elt F) ((c : Thread nD τ).loc r) :=
  Pipeline.withArrays spec0 c (V3 m c) (fun w => (dat0 (Vin0 m) c).arrAt w cfg0.N) r

/-- The contents after region 0: its three output arrays at what it leaves, every other buffer as entered. -/
abbrev W4 (c : Dev nD) : Valuation τ sig (Elt F) := V4 m (fun _ => outs4 m dat0) c

/-- What region 1 is entered from. -/
abbrev Vin1 : Env (F := F) := fun c b => W4 m dat0 c b

/-- What region 1 leaves in a buffer. -/
def outs5 (r : Ref sig .tc) (c : Dev nD) : Buf (Elt F) ((c : Thread nD τ).loc r) :=
  Pipeline.withArrays spec1 c (W4 m dat0 c) (fun w => (dat1 (Vin1 m dat0) c).arrAt w cfg1.N) r

/-- What the two regions leave, as one family. -/
def outs : Outs (F := F) := fun J => if J = 4 then outs4 m dat0 else outs5 m dat0 dat1

/-- The contents after region 1, at the return. -/
abbrev W5 (c : Dev nD) : Valuation τ sig (Elt F) := V5 m (outs m dat0 dat1) c

theorem V4_outs (c : Dev nD) : V4 m (outs m dat0 dat1) c = W4 m dat0 c := rfl

/-! ## What the proof data are assumed to satisfy -/

variable
  (A_eq0 : ∀ (V : Env (F := F)) (c : Dev nD) (w : Fin cfg0.W), (dat0 V c).A w = V c (Pipeline.arrRef spec0 w))
  (q_eq0 : ∀ (V : Env (F := F)) (c : Dev nD) (w : Fin cfg0.W), (dat0 V c).q w = fullShare)
  (owed_eq0 : ∀ (V : Env (F := F)) (c : Dev nD) (t : Fin (cfg0.N + 1)), (dat0 V c).owed t = 0)
  (rec_eq0 : ∀ (V : Env (F := F)) (c : Dev nD), (dat0 V c).recorded 0 = Set.univ)
  (body0 : ∀ (V : Env (F := F)) (c : Dev nD), BodyObligationLoose (dat0 V c) (defs₀ (F := F)) Variants.none () Set.univ)
  (Phi0_entry : ∀ (V : Env (F := F)) (c : Dev nD), (Pipeline.ΦA (U := UR sig nD τ) (Val := Elt F) spec0 c : sProp (MT nD τ sig Unit (Elt F) ℕ (UR sig nD τ) ℕ)) ⊢ (dat0 V c).Φ 0)
  (Phi0_exit : ∀ (V : Env (F := F)) (c : Dev nD), (dat0 V c).Φ (Fin.last cfg0.N) ⊢ (Pipeline.ΦA (U := UR sig nD τ) (Val := Elt F) spec0 c : sProp (MT nD τ sig Unit (Elt F) ℕ (UR sig nD τ) ℕ)))
  (A_eq1 : ∀ (V : Env (F := F)) (c : Dev nD) (w : Fin cfg1.W), (dat1 V c).A w = V c (Pipeline.arrRef spec1 w))
  (q_eq1 : ∀ (V : Env (F := F)) (c : Dev nD) (w : Fin cfg1.W), (dat1 V c).q w = fullShare)
  (owed_eq1 : ∀ (V : Env (F := F)) (c : Dev nD) (t : Fin (cfg1.N + 1)), (dat1 V c).owed t = 0)
  (rec_eq1 : ∀ (V : Env (F := F)) (c : Dev nD), (dat1 V c).recorded 0 = Set.univ)
  (body1 : ∀ (V : Env (F := F)) (c : Dev nD), BodyObligationLoose (dat1 V c) (defs₀ (F := F)) Variants.none () Set.univ)
  (Phi1_entry : ∀ (V : Env (F := F)) (c : Dev nD), (Pipeline.ΦA (U := UR sig nD τ) (Val := Elt F) spec1 c : sProp (MT nD τ sig Unit (Elt F) ℕ (UR sig nD τ) ℕ)) ⊢ (dat1 V c).Φ 0)
  (Phi1_exit : ∀ (V : Env (F := F)) (c : Dev nD), (dat1 V c).Φ (Fin.last cfg1.N) ⊢ (Pipeline.ΦA (U := UR sig nD τ) (Val := Elt F) spec1 c : sProp (MT nD τ sig Unit (Elt F) ℕ (UR sig nD τ) ℕ)))

/-! ## The contents after region 0 -/

/-- Off region 0's three output arrays the contents after it are those it was entered from. -/
theorem W4_of (c : Dev nD) (r : Ref sig .tc) (h : r ∉ ([main_v22_0, main_v22_1, main_v22_2] : List (Ref sig .tc))) :
    W4 m dat0 c r = V3 m c r := V4_of m _ c r h

theorem W4_v22_0 (c : Dev nD) : W4 m dat0 c main_v22_0 = (dat0 (Vin0 m) c).arrAt 11 cfg0.N := by
  simp only [W4, V4, Function.update_of_ne (StableHlo.devRef_ne_of_ne (by decide) : (Proc.devRef .tc main_v22_0 : DevRef τ sig) ≠ Proc.devRef .tc main_v22_1),
    Function.update_of_ne (StableHlo.devRef_ne_of_ne (by decide) : (Proc.devRef .tc main_v22_0 : DevRef τ sig) ≠ Proc.devRef .tc main_v22_2), Function.update_self]
  exact Pipeline.withArrays_arr spec0 launch0.win.arr_inj c _ _ 11
theorem W4_v22_1 (c : Dev nD) : W4 m dat0 c main_v22_1 = (dat0 (Vin0 m) c).arrAt 12 cfg0.N := by
  simp only [W4, V4, Function.update_of_ne (StableHlo.devRef_ne_of_ne (by decide) : (Proc.devRef .tc main_v22_1 : DevRef τ sig) ≠ Proc.devRef .tc main_v22_2), Function.update_self]
  exact Pipeline.withArrays_arr spec0 launch0.win.arr_inj c _ _ 12
theorem W4_v22_2 (c : Dev nD) : W4 m dat0 c main_v22_2 = (dat0 (Vin0 m) c).arrAt 13 cfg0.N := by
  simp only [W4, V4, Function.update_self]
  exact Pipeline.withArrays_arr spec0 launch0.win.arr_inj c _ _ 13

include A_eq0 in
/-- An input array of region 0 holds after it what it held before. -/
theorem hF0_in (c : Dev nD) (w : Fin cfg0.W) (hin : (cfg0.win w).isOut = false)
    (hne : Pipeline.arrRef spec0 w ∉ ([main_v22_0, main_v22_1, main_v22_2] : List (Ref sig .tc))) :
    (dat0 (Vin0 m) c).arrAt w cfg0.N = Vin1 m dat0 c (Pipeline.arrRef spec0 w) :=
  ((dat0 (Vin0 m) c).arrAt_in w hin _).trans ((A_eq0 (Vin0 m) c w).trans (W4_of m dat0 c _ hne).symm)

include A_eq0 in
/-- Each of region 0's arrays holds after it what its write-backs leave. -/
theorem hF0 (c : Dev nD) (w : Fin 14) : (dat0 (Vin0 m) c).arrAt w cfg0.N = Vin1 m dat0 c (Pipeline.arrRef spec0 w) := by
  match w with
  | 0 => exact hF0_in m dat0 A_eq0 c 0 rfl (by decide)
  | 1 => exact hF0_in m dat0 A_eq0 c 1 rfl (by decide)
  | 2 => exact hF0_in m dat0 A_eq0 c 2 rfl (by decide)
  | 3 => exact hF0_in m dat0 A_eq0 c 3 rfl (by decide)
  | 4 => exact hF0_in m dat0 A_eq0 c 4 rfl (by decide)
  | 5 => exact hF0_in m dat0 A_eq0 c 5 rfl (by decide)
  | 6 => exact hF0_in m dat0 A_eq0 c 6 rfl (by decide)
  | 7 => exact hF0_in m dat0 A_eq0 c 7 rfl (by decide)
  | 8 => exact hF0_in m dat0 A_eq0 c 8 rfl (by decide)
  | 9 => exact hF0_in m dat0 A_eq0 c 9 rfl (by decide)
  | 10 => exact hF0_in m dat0 A_eq0 c 10 rfl (by decide)
  | 11 => exact (W4_v22_0 m dat0 c).symm
  | 12 => exact (W4_v22_1 m dat0 c).symm
  | 13 => exact (W4_v22_2 m dat0 c).symm
  | ⟨_ + 14, h⟩ => exact absurd h (Nat.not_lt.2 (Nat.le_add_left _ _))

/-- Every buffer that is none of region 0's arrays holds after it what it held before. -/
theorem hrest0 (c : Dev nD) (b : Ref sig .tc) (hb : b ∉ Finset.univ.image (Pipeline.arrRef spec0)) :
    Vin1 m dat0 c b = Vin0 m c b :=
  W4_of m dat0 c b (by
    intro hm
    simp only [List.mem_cons, List.not_mem_nil, or_false] at hm
    rcases hm with rfl | rfl | rfl
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩))

/-! ## The contents after region 1 -/

/-- Off region 1's output array the contents at the return are those region 1 was entered from. -/
theorem W5_of (c : Dev nD) (r : Ref sig .tc) (h : r ∉ ([main_v23] : List (Ref sig .tc))) :
    W5 m dat0 dat1 c r = W4 m dat0 c r := V5_of m _ c r h

/-- THE RESULT's buffer at the return: region 1's output array after all its write-backs. -/
theorem W5_v23 (c : Dev nD) : W5 m dat0 dat1 c main_v23 = (dat1 (Vin1 m dat0) c).arrAt 4 cfg1.N := by
  simp only [W5, V5, Function.update_self]
  show outs5 m dat0 dat1 main_v23 c = _
  exact Pipeline.withArrays_arr spec1 launch1.win.arr_inj c _ _ 4

include A_eq1 in
theorem hF1_in (c : Dev nD) (w : Fin cfg1.W) (hin : (cfg1.win w).isOut = false)
    (hne : Pipeline.arrRef spec1 w ∉ ([main_v23] : List (Ref sig .tc))) :
    (dat1 (Vin1 m dat0) c).arrAt w cfg1.N = W5 m dat0 dat1 c (Pipeline.arrRef spec1 w) :=
  ((dat1 (Vin1 m dat0) c).arrAt_in w hin _).trans ((A_eq1 (Vin1 m dat0) c w).trans (W5_of m dat0 dat1 c _ hne).symm)

include A_eq1 in
theorem hF1 (c : Dev nD) (w : Fin 5) : (dat1 (Vin1 m dat0) c).arrAt w cfg1.N = W5 m dat0 dat1 c (Pipeline.arrRef spec1 w) := by
  match w with
  | 0 => exact hF1_in m dat0 dat1 A_eq1 c 0 rfl (by decide)
  | 1 => exact hF1_in m dat0 dat1 A_eq1 c 1 rfl (by decide)
  | 2 => exact hF1_in m dat0 dat1 A_eq1 c 2 rfl (by decide)
  | 3 => exact hF1_in m dat0 dat1 A_eq1 c 3 rfl (by decide)
  | 4 => exact (W5_v23 m dat0 dat1 c).symm
  | ⟨_ + 5, h⟩ => exact absurd h (Nat.not_lt.2 (Nat.le_add_left _ _))

theorem hrest1 (c : Dev nD) (b : Ref sig .tc) (hb : b ∉ Finset.univ.image (Pipeline.arrRef spec1)) :
    W5 m dat0 dat1 c b = Vin1 m dat0 c b :=
  W5_of m dat0 dat1 c b (by
    intro hm
    simp only [List.mem_cons, List.not_mem_nil, or_false] at hm
    subst hm
    exact hb (Finset.mem_image.mpr ⟨4, Finset.mem_univ _, rfl⟩))

/-! ## The proof data family and the thread state -/

/-- A core owing nothing, with nothing known of its recorded pairs, owes what proof data owing nothing say. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (by rw [hr]; exact Set.mem_univ x)
  iexact HO

/-- And back. -/
theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- Both pipelines' proof data, each at the contents its region is entered from: a literal match on the pipeline. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m dat0) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the contents at the return, the generator register at some state. -/
abbrev Tₙ (c : Dev nD) : sProp 𝕄 := iprop(StableHlo.held (c : Thread nD τ) (Pipeline.ucRefs τ sig) (W5 m dat0 dat1 c) ∗ ∃ r, prngReg c r)

/-! ## The regions as segments -/

include A_eq0 q_eq0 owed_eq0 rec_eq0 body0 Phi0_entry Phi0_exit in
set_option backward.isDefEq.respectTransparency.types false in
/-- REGION 0 over the thread state: entered from every unscoped buffer at the contents after the host stretches, left with
    its three output arrays at what their write-backs leave. -/
def reg0 : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := body0 (Vin0 m) c
  hwaits := Pipeline.hwaits_of_owed_zero _ _ _ _ L lv 0 fun c t => owed_eq0 (Vin0 m) c t
  pre c := iprop(StableHlo.held (c : Thread nD τ) (Pipeline.ucRefs τ sig) (V3 m c) ∗ R c)
  post c := iprop(StableHlo.held (c : Thread nD τ) (Pipeline.ucRefs τ sig) (W4 m dat0 c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => q_eq0 (Vin0 m) c w) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat0 (Vin0 m) c) 0 (owed_eq0 _ c 0) (rec_eq0 _ c)); iexact HO
    isplitl [Hp]; · iexact Hp
    iexact Hrest
  hin c := by
    refine BIBase.Entails.trans ?_ (Phi0_entry (Vin0 m) c)
    unfold Pipeline.ΦA
    iintro ⟨Hp, -, Hr⟩
    isplitl [Hr]; · iexact Hr
    iexact Hp
  hout c := by
    rw [Pipeline.ownSems0_none]
    refine BIBase.Entails.trans (Phi0_exit (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m dat0 dat1) ((pdats m dat0 dat1 0 c).share_full fun w => q_eq0 (Vin0 m) c w)
      (Vin0 m c) (Vin1 m dat0 c) ((pdats m dat0 dat1 0 c).arrAt · cfg0.N) (hF0 m dat0 A_eq0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (dat0 (Vin0 m) c) (Fin.last cfg0.N) (owed_eq0 _ c _)); iexact HO

include A_eq1 q_eq1 owed_eq1 rec_eq1 body1 Phi1_entry Phi1_exit in
set_option backward.isDefEq.respectTransparency.types false in
/-- REGION 1 over the thread state: entered from the contents region 0 leaves, left with its output array at what its
    write-backs leave (what the launch reads at the return). -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := body1 (Vin1 m dat0) c
  hwaits := Pipeline.hwaits_of_owed_zero _ _ _ _ L lv 1 fun c t => owed_eq1 (Vin1 m dat0) c t
  pre c := iprop(StableHlo.held (c : Thread nD τ) (Pipeline.ucRefs τ sig) (W4 m dat0 c) ∗ R c)
  post c := iprop(Tₙ m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => q_eq1 (Vin1 m dat0) c w) (Vin1 m dat0 c) fun w => A_eq1 (Vin1 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat1 (Vin1 m dat0) c) 0 (owed_eq1 _ c 0) (rec_eq1 _ c)); iexact HO
    isplitl [Hp]; · iexact Hp
    iexact Hrest
  hin c := by
    refine BIBase.Entails.trans ?_ (Phi1_entry (Vin1 m dat0) c)
    unfold Pipeline.ΦA
    iintro ⟨Hp, -, Hr⟩
    isplitl [Hr]; · iexact Hr
    iexact Hp
  hout c := by
    rw [Pipeline.ownSems0_none]
    refine BIBase.Entails.trans (Phi1_exit (Vin1 m dat0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m dat0 dat1) ((pdats m dat0 dat1 1 c).share_full fun w => q_eq1 (Vin1 m dat0) c w)
      (Vin1 m dat0 c) (fun b => W5 m dat0 dat1 c b) ((pdats m dat0 dat1 1 c).arrAt · cfg1.N) (hF1 m dat0 dat1 A_eq1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_elim (dat1 (Vin1 m dat0) c) (Fin.last cfg1.N) (owed_eq1 _ c _)); iexact HO

/-! ## @main as segments, and the launch -/

/-- @main's five items in order: the three host stretches (each a segment of host operations, the rest riding along), then the two regions. -/
abbrev runSegs : List (Pipeline.Seg (pcfgs (F := F)) adm (pdats m dat0 dat1) () defs₀ 𝒱₀ L lv) :=
  [ .host (seg0 m 𝒱₀ L lv fun _ => R),
    .host (seg1 m 𝒱₀ L lv fun _ => R),
    .host (seg2 m 𝒱₀ L lv fun _ => R),
    .region (reg0 m dat0 dat1 A_eq0 q_eq0 owed_eq0 rec_eq0 body0 Phi0_entry Phi0_exit),
    .region (reg1 m dat0 dat1 A_eq1 q_eq1 owed_eq1 rec_eq1 body1 Phi1_entry Phi1_exit) ]

include A_eq0 q_eq0 owed_eq0 rec_eq0 body0 Phi0_entry Phi0_exit A_eq1 q_eq1 owed_eq1 rec_eq1 body1 Phi1_entry Phi1_exit in
set_option backward.isDefEq.respectTransparency.types false in
/-- THE RUN WITH THE RESULT'S VALUE. From any memory with zero counters every weakly fair execution of @main terminates,
    nothing faulting; the result's buffer ends holding region 1's output array after all its write-backs, the proof data
    of region 1 being taken at the contents region 0 leaves; and every argument ends as launched. -/
theorem run_value : θ_run defs (onTc (τ := τ) (main (F := F))) ⟨m, fun _ => 0, ρ⟩ (fun r => ∀ c : Dev nD,
      r.2.mem ((c.tc : Thread nD τ).loc main_v23) = (dat1 (Vin1 m dat0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m dat0 dat1) () cellOf_inj emb₁ defs₀ 𝒱₀ L lv m ρ main
    (runSegs m dat0 dat1 A_eq0 q_eq0 owed_eq0 rec_eq0 body0 Phi0_entry Phi0_exit A_eq1 q_eq1 owed_eq1 rec_eq1 body1 Phi1_entry Phi1_exit)
    (fun c Q => by
      rewrite [main_chain c, Pipeline.Seg.run_eq_chain,
        show (runSegs m dat0 dat1 A_eq0 q_eq0 owed_eq0 rec_eq0 body0 Phi0_entry Phi0_exit A_eq1 q_eq1 owed_eq1 rec_eq1 body1 Phi1_entry Phi1_exit).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m dat0 dat1)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m dat0 dat1 c) s')
      isplitl [Hh] <;> iassumption)
    (hQ := fun s h c =>
      ⟨(h c _ (mem_uc main_v23 (by decide))).trans (W5_v23 m dat0 dat1 c),
       (h c _ (mem_uc main_arg0 (by decide))).trans (V5_main_arg0 m _ c),
       (h c _ (mem_uc main_arg1 (by decide))).trans (V5_main_arg1 m _ c),
       (h c _ (mem_uc main_arg2 (by decide))).trans (V5_main_arg2 m _ c),
       (h c _ (mem_uc main_arg3 (by decide))).trans (V5_main_arg3 m _ c),
       (h c _ (mem_uc main_arg4 (by decide))).trans (V5_main_arg4 m _ c),
       (h c _ (mem_uc main_arg5 (by decide))).trans (V5_main_arg5 m _ c),
       (h c _ (mem_uc main_arg6 (by decide))).trans (V5_main_arg6 m _ c),
       (h c _ (mem_uc main_arg7 (by decide))).trans (V5_main_arg7 m _ c),
       (h c _ (mem_uc main_arg8 (by decide))).trans (V5_main_arg8 m _ c)⟩)

include A_eq0 q_eq0 owed_eq0 rec_eq0 body0 Phi0_entry Phi0_exit A_eq1 q_eq1 owed_eq1 rec_eq1 body1 Phi1_entry Phi1_exit in
/-- THE FRAME: the run, keeping only that every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2)
    (run_value m ρ dat0 dat1 A_eq0 q_eq0 owed_eq0 rec_eq0 body0 Phi0_entry Phi0_exit A_eq1 q_eq1 owed_eq1 rec_eq1 body1 Phi1_entry Phi1_exit)

/-! ## What the value side reads of the contents region 1 is entered from -/

/-- Off region 0's three output arrays, region 1 is entered from what region 0 was entered from. -/
theorem Vin1_of (c : Dev nD) (r : Ref sig .tc) (h : r ∉ ([main_v22_0, main_v22_1, main_v22_2] : List (Ref sig .tc))) :
    Vin1 m dat0 c r = Vin0 m c r := W4_of m dat0 c r h
/-- At each of the three, from what region 0's write-backs leave there. -/
theorem Vin1_v22_0 (c : Dev nD) : Vin1 m dat0 c main_v22_0 = (dat0 (Vin0 m) c).arrAt 11 cfg0.N := W4_v22_0 m dat0 c
theorem Vin1_v22_1 (c : Dev nD) : Vin1 m dat0 c main_v22_1 = (dat0 (Vin0 m) c).arrAt 12 cfg0.N := W4_v22_1 m dat0 c
theorem Vin1_v22_2 (c : Dev nD) : Vin1 m dat0 c main_v22_2 = (dat0 (Vin0 m) c).arrAt 13 cfg0.N := W4_v22_2 m dat0 c

end Cert.KernelIdeal.RunBoth

end
-- ==== Proof.Region0.lean ====
import proofs.«174622_j3590592660316_1_alg».proof.Proof.Gen.KernelIdeal.Launch
import proofs.«174622_j3590592660316_1_alg».proof.Proof.Gen.KernelIdeal.Skeleton
import proofs.«174622_j3590592660316_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: proof data and body obligation

The first kernel region of the program runs over a grid of 12 row tiles. At each tile it normalizes a
block of 1024 feature rows to unit length, and forms three projections of it,
`normalized features · W + coordinates · Wc + bias`, rounded to bf16: two of width 64 and one of width 256.
It has eleven input windows (the feature rows, the coordinate rows, and three triples weight / coordinate
weight / bias whose block never moves) and three output windows, each stored whole exactly once per tile.

This module states, at ANY contents `V` of the core's unscoped buffers when the region is entered:
each window's block at a tile, what the body leaves in each output window's buffer as a pure function of the
input blocks, the body's triple, the pipeline's proof data, and the body obligation at every tile.
-/

-- membership in a rectangle of these extents recurses once per coordinate of the long axes
set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's unscoped buffer contents when the region is entered
variable (V : (c : Dev nD) → (b : Ref sig .tc) → Buf (Elt F) ((c : Thread nD τ).loc b))

/-! ## The windows' blocks -/

/-- Window `w`'s block at tile `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every tile, fetched there or not, for any proof data
whose array is `V`'s and whose body leaves the block in place: where the window is not fetched its block index has not
moved (the weight windows are fetched at the first tile only, and their index is constant). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its buffer -/

abbrev r0_0 : Rect S1024x256 := Rect.unit (s := S1024x256) ![0, 0] S1024x256.size inb_S1024x256_S1024x256_0_0
abbrev r0_1 : Rect S1024x3 := Rect.unit (s := S1024x3) ![0, 0] S1024x3.size inb_S1024x3_S1024x3_0_0
abbrev r0_2 : Rect S256x64 := Rect.unit (s := S256x64) ![0, 0] S256x64.size inb_S256x64_S256x64_0_0
abbrev r0_3 : Rect S3x64 := Rect.unit (s := S3x64) ![0, 0] S3x64.size inb_S3x64_S3x64_0_0
abbrev r0_4 : Rect S1x64 := Rect.unit (s := S1x64) ![0, 0] S1x64.size inb_S1x64_S1x64_0_0
abbrev r0_5 : Rect S256x256 := Rect.unit (s := S256x256) ![0, 0] S256x256.size inb_S256x256_S256x256_0_0
abbrev r0_6 : Rect S3x256 := Rect.unit (s := S3x256) ![0, 0] S3x256.size inb_S3x256_S3x256_0_0
abbrev r0_7 : Rect S1x256 := Rect.unit (s := S1x256) ![0, 0] S1x256.size inb_S1x256_S1x256_0_0
abbrev r0_8 : Rect S1024x64 := Rect.unit (s := S1024x64) ![0, 0] S1024x64.size inb_S1024x64_S1024x64_0_0

/-! ## What the body leaves in each output window's buffer

Each output buffer is stored whole exactly once, so its contents after the body are that store's payload, a
pure function of the input blocks the body loaded. -/

/-- Window 11 after the body: the first width-64 projection of the normalized feature rows `x0` and the
    coordinate rows `x1`, with weights `x2`, coordinate weights `x3` and bias `x4`. -/
def out0_11 (x0 : Vec F S1024x256 .f32) (x1 : Vec F S1024x3 .f32) (x2 : Vec F S256x64 .bf16) (x3 : Vec F S3x64 .bf16) (x4 : Vec F S1x64 .f32) : Vec F S1024x64 .bf16 :=
  View.canon [⟨r0_8, k0_pay5 (View.ld x0 r0_0) (View.ld x1 r0_1) (View.ld x2 r0_2) (View.ld x3 r0_3) (View.ld x4 r0_4)⟩]

/-- Window 12 after the body: the second width-64 projection, with weights `x5`, coordinate weights `x6` and
    bias `x7`. -/
def out0_12 (x0 : Vec F S1024x256 .f32) (x1 : Vec F S1024x3 .f32) (x5 : Vec F S256x64 .bf16) (x6 : Vec F S3x64 .bf16) (x7 : Vec F S1x64 .f32) : Vec F S1024x64 .bf16 :=
  View.canon [⟨r0_8, k0_pay1 (k0_pay6 (View.ld x0 r0_0) (View.ld x1 r0_1) (View.ld x5 r0_2) (View.ld x6 r0_3)) (View.ld x7 r0_4)⟩]

/-- Window 13 after the body: the width-256 projection, with weights `x8`, coordinate weights `x9` and bias
    `x10`. -/
def out0_13 (x0 : Vec F S1024x256 .f32) (x1 : Vec F S1024x3 .f32) (x8 : Vec F S256x256 .bf16) (x9 : Vec F S3x256 .bf16) (x10 : Vec F S1x256 .f32) : Vec F S1024x256 .bf16 :=
  View.canon [⟨r0_0, k0_pay2 (k0_pay3 (View.ld x0 r0_0)) (k0_pay4 (View.ld x1 r0_1)) (View.ld x8 r0_5) (View.ld x9 r0_6) (View.ld x10 r0_7)⟩]

/-- A single store through the whole of a width-64 output buffer covers it (one block, checked by evaluation). -/
theorem cover0_11 (p0 : Vec F S1024x64 .bf16) (y : S1024x64.Idx) :
    ∃ pc ∈ ([⟨r0_8, p0⟩] : List (View.Piece (Elt F) S1024x64 .bf16)), y ∈ pc.1.set :=
  View.cover_of_tiled [⟨r0_8, p0⟩] S1024x64.size (by rfl) y

theorem cover0_12 (p0 : Vec F S1024x64 .bf16) (y : S1024x64.Idx) :
    ∃ pc ∈ ([⟨r0_8, p0⟩] : List (View.Piece (Elt F) S1024x64 .bf16)), y ∈ pc.1.set :=
  cover0_11 p0 y

/-- Likewise for the width-256 output buffer. -/
theorem cover0_13 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 4000000 in
/-- The kernel body on whole staging memrefs, the inputs' at contents `xW` and the outputs' at anything, runs to the
    continuation holding the inputs' as they were and each output's at `out0_W` of the inputs': the body is a
    straight line of whole-buffer loads and three whole-buffer stores. -/
theorem sound_kernel0 (c : Dev nD) (E : Set ℕ) (i : grid0.Coords) (arg1 : Memref sig .tc .vmem S1024x256 .f32) (harg1 : arg1.IsWhole) (arg2 : Memref sig .tc .vmem S1024x3 .f32) (harg2 : arg2.IsWhole) (arg3 : Memref sig .tc .vmem S256x64 .bf16) (harg3 : arg3.IsWhole) (arg4 : Memref sig .tc .vmem S3x64 .bf16) (harg4 : arg4.IsWhole) (arg5 : Memref sig .tc .vmem S1x64 .f32) (harg5 : arg5.IsWhole) (arg6 : Memref sig .tc .vmem S256x64 .bf16) (harg6 : arg6.IsWhole) (arg7 : Memref sig .tc .vmem S3x64 .bf16) (harg7 : arg7.IsWhole) (arg8 : Memref sig .tc .vmem S1x64 .f32) (harg8 : arg8.IsWhole) (arg9 : Memref sig .tc .vmem S256x256 .bf16) (harg9 : arg9.IsWhole) (arg10 : Memref sig .tc .vmem S3x256 .bf16) (harg10 : arg10.IsWhole) (arg11 : Memref sig .tc .vmem S1x256 .f32) (harg11 : arg11.IsWhole) (arg12 : Memref sig .tc .vmem S1024x64 .bf16) (harg12 : arg12.IsWhole) (arg13 : Memref sig .tc .vmem S1024x64 .bf16) (harg13 : arg13.IsWhole) (arg14 : Memref sig .tc .vmem S1024x256 .bf16) (harg14 : arg14.IsWhole)
    (x0 : Vec F S1024x256 .f32) (x1 : Vec F S1024x3 .f32) (x2 : Vec F S256x64 .bf16) (x3 : Vec F S3x64 .bf16) (x4 : Vec F S1x64 .f32) (x5 : Vec F S256x64 .bf16) (x6 : Vec F S3x64 .bf16) (x7 : Vec F S1x64 .f32) (x8 : Vec F S256x256 .bf16) (x9 : Vec F S3x256 .bf16) (x10 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4)
            ∗ owns (c : Thread nD τ) arg13 fullShare (out0_12 x0 x1 x5 x6 x7)
            ∗ owns (c : Thread nD τ) arg14 fullShare (out0_13 x0 x1 x8 x9 x10)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10 arg11 harg11 arg12 harg12 arg13 harg13 arg14 harg14) K := by
  sl_unfold [cc0_proj_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of the projection pipeline on core `c`: the arrays as the region finds them (`V`); after the body
    at tile `t` each input's buffer at its block and each output's at `out0_W` of the input blocks; the invariant is
    the untouched rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t)
    | ⟨12, _⟩ => out0_12 (iblk0 V c 0 t) (iblk0 V c 1 t) (iblk0 V c 5 t) (iblk0 V c 6 t) (iblk0 V c 7 t)
    | ⟨13, _⟩ => out0_13 (iblk0 V c 0 t) (iblk0 V c 1 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) := by dsimp only [dat0]
theorem after0_12 (c : Dev nD) (t : Fin cfg0.N) : (dat0 V c).after 12 t = out0_12 (iblk0 V c 0 t) (iblk0 V c 1 t) (iblk0 V c 5 t) (iblk0 V c 6 t) (iblk0 V c 7 t) := by dsimp only [dat0]
theorem after0_13 (c : Dev nD) (t : Fin cfg0.N) : (dat0 V c).after 13 t = out0_13 (iblk0 V c 0 t) (iblk0 V c 1 t) (iblk0 V c 8 t) (iblk0 V c 9 t) (iblk0 V c 10 t) := by dsimp only [dat0]

/-! Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 2000000 in
/-- The body at any tile: the inputs' memrefs hold their blocks (`before0_W`), so the body's triple applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Reg0

end
-- ==== Proof.Region1.lean ====
/-
  The attention region: one grid point as a step of the online weighting recurrence on the carried running
  maximum, running sum and accumulator; the invariant that carries the three between grid points; the region's
  proof data and its body obligation at every point.
-/
import proofs.«174622_j3590592660316_1_alg».proof.Proof.Gen.KernelIdeal.Launch
import proofs.«174622_j3590592660316_1_alg».proof.Proof.Gen.KernelIdeal.Skeleton
import proofs.«174622_j3590592660316_1_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The online-softmax recurrence of the attention region, as pure functions

One grid point (qi, ki) of the second region takes the query block `q`, the key block `k`, the value
block `v`, the feature block `x` and the carried triple (running maximum `m`, running sum `l`,
accumulator `a`), and produces the next triple; the output block is the normalized accumulator plus the
feature block. -/

/-- The carried triple a row of the grid (ki = 0) starts from: maximum -∞, sum 0, accumulator 0. -/
def init_m : Vec F S1024x1 .f32 := k1_pay4 (F := F)
def init_l : Vec F S1024x1 .f32 := k1_pay5 (F := F)
def init_acc : Vec F S1024x256 .f32 := k1_pay6 (F := F)

/-- The new running maximum: max (m, rowmax (clip (q kᵀ / 8))). -/
def step_m (q k : Vec F S1024x64 .bf16) (m : Vec F S1024x1 .f32) : Vec F S1024x1 .f32 :=
  k1_pay2 (k1_pay8 q k m)

/-- The new running sum: exp (m - m') * l + rowsum (exp (s - m')). -/
def step_l (q k : Vec F S1024x64 .bf16) (m l : Vec F S1024x1 .f32) : Vec F S1024x1 .f32 :=
  k1_pay11 q k m l

/-- The new accumulator: exp (m - m') * a + exp (s - m') v. -/
def step_acc (q k : Vec F S1024x64 .bf16) (v : Vec F S1024x256 .bf16) (m : Vec F S1024x1 .f32) (a : Vec F S1024x256 .f32) :
    Vec F S1024x256 .f32 :=
  k1_pay1 (k1_pay9 q k m) (k1_pay10 q k m) (k1_pay12 v) a

/-- The output block: a / (l + ε) + x. -/
def fin_out (a : Vec F S1024x256 .f32) (l : Vec F S1024x1 .f32) (x : Vec F S1024x256 .f32) : Vec F S1024x256 .f32 :=
  k1_pay3 a l x

/-- One grid point on the carried triple: the output block, then the new maximum, sum and accumulator. -/
def stepAll (q k : Vec F S1024x64 .bf16) (v : Vec F S1024x256 .bf16) (x : Vec F S1024x256 .f32)
    (s : Vec F S1024x1 .f32 × Vec F S1024x1 .f32 × Vec F S1024x256 .f32) :
    Vec F S1024x256 .f32 × Vec F S1024x1 .f32 × Vec F S1024x1 .f32 × Vec F S1024x256 .f32 :=
  (fin_out (step_acc q k v s.1 s.2.2) (step_l q k s.1 s.2.1) x, step_m q k s.1, step_l q k s.1 s.2.1, step_acc q k v s.1 s.2.2)

/-! ## The body's branch conditions, decided over the grid -/

/-- The first conditional (re-initialize the carried triple): the key coordinate is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

/-- The last conditional (write the output block): the key coordinate is 11. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-- The output window is never idle at an input; at the output it is idle exactly off the last key block, and
    there the pipeline does not write it back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## Whole-buffer stores and loads

Every store of the body writes a whole buffer and every load reads one, so a buffer reads back as the payload of
the last store into it, and a load after a store reads that payload. -/

theorem zero2 : (![0, 0] : Fin 2 → ℕ) = fun _ => 0 := by
  funext a; fin_cases a <;> rfl

/-- After a list of stores whose last one covers the whole buffer, the buffer reads as that store's payload. -/
theorem read_whole_last {sg : RefSig} {κ : Kind} {sp : Space} {S : Shape} {e : EltTy} (v : View sg κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-- A whole-buffer load after such a list of stores reads that payload. -/
theorem readCov_whole_last {sg : RefSig} {κ : Kind} {sp : Space} {S : Shape} {e : EltTy} (v : View sg κ sp S e)
    {off : Fin S.rank → ℕ} (hz : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon', View.canon_cons_unit_zero hz inb]
  exact View.ld_unit_zero hz inb w

/-- A whole-buffer load of a whole memref at read contents `X` reads `X`. -/
theorem readAt_whole_unread {sg : RefSig} {κ : Kind} {sp : Space} {S : Shape} {e : EltTy} {M : Memref sg κ sp S e}
    (h : M.IsWhole) {off : Fin S.rank → ℕ} (hz : off = fun _ => 0) (inb : ∀ a, off a + S.size a ≤ S.size a)
    (X : S.Idx → Elt F e) :
    M.view.readAt (Elt F) (Rect.unit off S.size inb).toLoadRect (h.unread X) = X := by
  show View.ld (M.view.read (Elt F) (h.unread X)) (Rect.unit off S.size inb) = X
  rw [h.read_unread, View.ld_unit_zero hz inb]

set_option maxHeartbeats 4000000 in
/-- The body at a point with key coordinate 0: the carried triple is re-initialized (whatever it held), then one step
    of the recurrence from the initial triple; the output block is handed back untouched. -/
theorem kernelRun1_A (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (q k : Vec F S1024x64 .bf16) (v : Vec F S1024x256 .bf16) (x : Vec F S1024x256 .f32)
    (xo : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare v
            ∗ owns (c : Thread nD τ) arg5 fullShare x ∗ owns (c : Thread nD τ) arg6 fullShare xo
            ∗ owns (c : Thread nD τ) arg7 fullShare (step_m q k init_m) ∗ owns (c : Thread nD τ) arg8 fullShare (step_l q k init_m init_l)
            ∗ owns (c : Thread nD τ) arg9 fullShare (step_acc q k v init_m init_acc)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_whole_last _ _ zero2 _ _ _).trans ?_
    unfold step_m init_m
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H8]
  · iexists _; isplitr
    swap; · iexact H8
    ipureintro
    refine (read_whole_last _ _ zero2 _ _ _).trans ?_
    unfold step_l init_m init_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  iexists _; isplitr
  swap; · iexact H9
  ipureintro
  refine (read_whole_last _ _ zero2 _ _ _).trans ?_
  unfold step_acc init_m init_acc
  sl_unfold_run_names
  simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]

set_option maxHeartbeats 4000000 in
/-- The body at a point with key coordinate strictly between 0 and 11: no re-initialization, no output store. The three
    carried buffers go from `(m, l, a)` to one step of the recurrence; the output block is handed back untouched. -/
theorem kernelRun1_B (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (q k : Vec F S1024x64 .bf16) (v : Vec F S1024x256 .bf16) (x : Vec F S1024x256 .f32)
    (m l : Vec F S1024x1 .f32) (a : Vec F S1024x256 .f32) (xo : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ owns (c : Thread nD τ) arg6 fullShare xo
        ∗ owns (c : Thread nD τ) arg7 fullShare m ∗ owns (c : Thread nD τ) arg8 fullShare l ∗ owns (c : Thread nD τ) arg9 fullShare a
        ∗ (iprop(owns (c : Thread nD τ) arg2 fullShare q ∗ owns (c : Thread nD τ) arg3 fullShare k ∗ owns (c : Thread nD τ) arg4 fullShare v
            ∗ owns (c : Thread nD τ) arg5 fullShare x ∗ owns (c : Thread nD τ) arg6 fullShare xo
            ∗ owns (c : Thread nD τ) arg7 fullShare (step_m q k m) ∗ owns (c : Thread nD τ) arg8 fullShare (step_l q k m l)
            ∗ owns (c : Thread nD τ) arg9 fullShare (step_acc q k v m a)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_whole_last _ _ zero2 _ _ _).trans ?_
    unfold step_m
    sl_unfold_run_names
    simp only [readAt_whole_unread harg2 zero2, readAt_whole_unread harg3 zero2, readAt_whole_unread harg4 zero2, readAt_whole_unread harg5 zero2, readAt_whole_unread harg7 zero2, readAt_whole_unread harg8 zero2, readAt_whole_unread harg9 zero2]
  isplitl [H8]
  · iexists _; isplitr
    swap; · iexact H8
    ipureintro
    refine (read_whole_last _ _ zero2 _ _ _).trans ?_
    unfold step_l
    simp only [readAt_whole_unread harg2 zero2, readAt_whole_unread harg3 zero2, readAt_whole_unread harg4 zero2, readAt_whole_unread harg5 zero2, readAt_whole_unread harg7 zero2, readAt_whole_unread harg8 zero2, readAt_whole_unread harg9 zero2]
  iexists _; isplitr
  swap; · iexact H9
  ipureintro
  refine (read_whole_last _ _ zero2 _ _ _).trans ?_
  unfold step_acc
  sl_unfold_run_names
  simp only [readAt_whole_unread harg2 zero2, readAt_whole_unread harg3 zero2, readAt_whole_unread harg4 zero2, readAt_whole_unread harg5 zero2, readAt_whole_unread harg7 zero2, readAt_whole_unread harg8 zero2, readAt_whole_unread harg9 zero2]

set_option maxHeartbeats 4000000 in
/-- The body at a point with key coordinate 11: one step of the recurrence, then the output block (whatever it held)
    is written from the new accumulator, the new sum and the feature block. -/
theorem kernelRun1_C (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (q k : Vec F S1024x64 .bf16) (v : Vec F S1024x256 .bf16) (x : Vec F S1024x256 .f32)
    (m l : Vec F S1024x1 .f32) (a : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ (∃ d, owns (c : Thread nD τ) arg6 fullShare d)
        ∗ owns (c : Thread nD τ) arg7 fullShare m ∗ owns (c : Thread nD τ) arg8 fullShare l ∗ owns (c : Thread nD τ) arg9 fullShare a
        ∗ (iprop(owns (c : Thread nD τ) arg2 fullShare q ∗ owns (c : Thread nD τ) arg3 fullShare k ∗ owns (c : Thread nD τ) arg4 fullShare v
            ∗ owns (c : Thread nD τ) arg5 fullShare x
            ∗ owns (c : Thread nD τ) arg6 fullShare (fin_out (step_acc q k v m a) (step_l q k m l) x)
            ∗ owns (c : Thread nD τ) arg7 fullShare (step_m q k m) ∗ owns (c : Thread nD τ) arg8 fullShare (step_l q k m l)
            ∗ owns (c : Thread nD τ) arg9 fullShare (step_acc q k v m a)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_whole_last _ _ zero2 _ _ _).trans ?_
    unfold fin_out step_acc step_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H7]
  · iexists _; isplitr
    swap; · iexact H7
    ipureintro
    refine (read_whole_last _ _ zero2 _ _ _).trans ?_
    unfold step_m
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H8]
  · iexists _; isplitr
    swap; · iexact H8
    ipureintro
    refine (read_whole_last _ _ zero2 _ _ _).trans ?_
    unfold step_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  iexists _; isplitr
  swap; · iexact H9
  ipureintro
  refine (read_whole_last _ _ zero2 _ _ _).trans ?_
  unfold step_acc
  sl_unfold_run_names
  simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The state after each point -/

/-- What the output staging block and the three carried buffers hold after the body at position `n`: one step of the
    recurrence on the blocks at `n`, from the initial triple when the key coordinate is 0, else from what position
    `n - 1` left. -/
def stateAt1 (c : Dev nD) : (n : ℕ) → n < cfg1.N →
    Vec F S1024x256 .f32 × Vec F S1024x1 .f32 × Vec F S1024x1 .f32 × Vec F S1024x256 .f32
  | 0, hn => stepAll (iblk1 V c 0 ⟨0, hn⟩) (iblk1 V c 1 ⟨0, hn⟩) (iblk1 V c 2 ⟨0, hn⟩) (iblk1 V c 3 ⟨0, hn⟩) (init_m, init_l, init_acc)
  | n + 1, hn =>
    if (n + 1) % 12 = 0 then
      stepAll (iblk1 V c 0 ⟨n + 1, hn⟩) (iblk1 V c 1 ⟨n + 1, hn⟩) (iblk1 V c 2 ⟨n + 1, hn⟩) (iblk1 V c 3 ⟨n + 1, hn⟩) (init_m, init_l, init_acc)
    else
      stepAll (iblk1 V c 0 ⟨n + 1, hn⟩) (iblk1 V c 1 ⟨n + 1, hn⟩) (iblk1 V c 2 ⟨n + 1, hn⟩) (iblk1 V c 3 ⟨n + 1, hn⟩) (stateAt1 c n (Nat.lt_of_succ_lt hn)).2

/-- At a point with key coordinate 0 the step starts from the initial triple. -/
theorem stateAt1_A (c : Dev nD) (t : Fin cfg1.N) (h0 : t.val % 12 = 0) :
    stateAt1 V c t.val t.isLt
      = stepAll (iblk1 V c 0 t) (iblk1 V c 1 t) (iblk1 V c 2 t) (iblk1 V c 3 t) (init_m, init_l, init_acc) := by
  obtain ⟨n, hn⟩ := t
  cases n with
  | zero => rfl
  | succ n => exact if_pos h0

/-- At a point with key coordinate strictly between 0 and 11 the step starts from what the point before left. -/
theorem stateAt1_B (c : Dev nD) (t : Fin cfg1.N) (h0 : ¬t.val % 12 = 0) (h1 : ¬t.val % 12 = 11) :
    stateAt1 V c t.val t.isLt
      = stepAll (iblk1 V c 0 t) (iblk1 V c 1 t) (iblk1 V c 2 t) (iblk1 V c 3 t)
          (stateAt1 V c (t.val - 1) (Nat.lt_of_le_of_lt (Nat.sub_le _ _) t.isLt)).2 := by
  obtain ⟨n, hn⟩ := t
  cases n with
  | zero => exact absurd (Nat.zero_mod _) h0
  | succ n => exact if_neg h0

/-- At a point with key coordinate 11 the same, and the output component is the block written back. -/
theorem stateAt1_C (c : Dev nD) (t : Fin cfg1.N) (h0 : ¬t.val % 12 = 0) (h1 : t.val % 12 = 11) :
    stateAt1 V c t.val t.isLt
      = stepAll (iblk1 V c 0 t) (iblk1 V c 1 t) (iblk1 V c 2 t) (iblk1 V c 3 t)
          (stateAt1 V c (t.val - 1) (Nat.lt_of_le_of_lt (Nat.sub_le _ _) t.isLt)).2 := by
  obtain ⟨n, hn⟩ := t
  cases n with
  | zero => exact absurd (Nat.zero_mod _) h0
  | succ n => exact if_neg h0

/-! ## The invariant carried between points -/

/-- The three buffers the body carries from one point to the next: running maximum, running sum, accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-- The core's other scoped buffers that this region stages nothing through (the first region's staging buffers), each
    whole at some contents: untouched by the body. -/
def rest19 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg11_0), ((c : Thread nD τ).loc cc0_stg11_0) ↦{fullShare} f)
    ∗ (∃ f : Buf (Elt F) ((c : Thread nD τ).loc cc0_stg11_1), ((c : Thread nD τ).loc cc0_stg11_1) ↦{fullShare} f)
    ∗ (∃ f : Buf (Elt F) ((c : Thread nD τ).loc cc0_stg12_0), ((c : Thread nD τ).loc cc0_stg12_0) ↦{fullShare} f)
    ∗ (∃ f : Buf (Elt F) ((c : Thread nD τ).loc cc0_stg12_1), ((c : Thread nD τ).loc cc0_stg12_1) ↦{fullShare} f)
    ∗ (∃ f : Buf (Elt F) ((c : Thread nD τ).loc cc0_stg13_0), ((c : Thread nD τ).loc cc0_stg13_0) ↦{fullShare} f)
    ∗ (∃ f : Buf (Elt F) ((c : Thread nD τ).loc cc0_stg13_1), ((c : Thread nD τ).loc cc0_stg13_1) ↦{fullShare} f))

/-- The invariant before position `n`: the other scoped buffers and the generator register at anything throughout;
    before the first point the three carried buffers hold anything, afterwards they hold the running maximum, sum
    and accumulator the point before left. -/
def PhiS (c : Dev nD) : (n : ℕ) → n ≤ cfg1.N → sProp 𝕄
  | 0, _ => iprop(rest19 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r))
  | n + 1, hn => iprop(rest19 (F := F) c ∗ owns (c : Thread nD τ) scM1_0 fullShare (stateAt1 V c n hn).2.1
      ∗ owns (c : Thread nD τ) scM1_1 fullShare (stateAt1 V c n hn).2.2.1
      ∗ owns (c : Thread nD τ) scM1_2 fullShare (stateAt1 V c n hn).2.2.2 ∗ (∃ r, prngReg c r))

theorem PhiS_zero (c : Dev nD) (n : ℕ) (h : n ≤ cfg1.N) (hz : n = 0) :
    PhiS V c n h = iprop(rest19 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  subst hz; rfl

theorem PhiS_succ (c : Dev nD) (n : ℕ) (hn : n < cfg1.N) :
    PhiS V c (n + 1) hn = iprop(rest19 (F := F) c ∗ owns (c : Thread nD τ) scM1_0 fullShare (stateAt1 V c n hn).2.1
      ∗ owns (c : Thread nD τ) scM1_1 fullShare (stateAt1 V c n hn).2.2.1
      ∗ owns (c : Thread nD τ) scM1_2 fullShare (stateAt1 V c n hn).2.2.2 ∗ (∃ r, prngReg c r)) := rfl

theorem PhiS_pos (c : Dev nD) (n : ℕ) (h : n ≤ cfg1.N) (hz : n ≠ 0) :
    PhiS V c n h = iprop(rest19 (F := F) c ∗ owns (c : Thread nD τ) scM1_0 fullShare (stateAt1 V c (n - 1) (by omega)).2.1
      ∗ owns (c : Thread nD τ) scM1_1 fullShare (stateAt1 V c (n - 1) (by omega)).2.2.1
      ∗ owns (c : Thread nD τ) scM1_2 fullShare (stateAt1 V c (n - 1) (by omega)).2.2.2 ∗ (∃ r, prngReg c r)) := by
  cases n with
  | zero => exact absurd rfl hz
  | succ n => rfl

/-- The scoped buffers no window of this region stages, with the generator register at some state, are the invariant
    before the first point, -/
theorem rest_entry (c : Dev nD) :
    (Pipeline.ΦA (U := UR sig nD τ) (Val := Elt F) spec1 c : sProp 𝕄) ⊢ PhiS V c 0 (Nat.zero_le _) := by
  unfold Pipeline.ΦA
  rw [scopedRest1_eq, PhiS_zero V c 0 _ rfl]
  simp only [owns_whole]
  unfold rest19
  iintro ⟨⟨R0, R1, R2, R3, R4, R5, R6, R7, R8, R9, R10, R11, R12, R13, R14, R15, R16, R17, R18, S0, S1, S2⟩, Hg⟩
  isplitl [R0 R1 R2 R3 R4 R5 R6 R7 R8 R9 R10 R11 R12 R13 R14 R15 R16 R17 R18]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact R18
  isplitl [S0]; · iexact S0
  isplitl [S1]; · iexact S1
  isplitl [S2]; · iexact S2
  iexact Hg

/-- and the invariant at any position gives both back, the carried contents forgotten. -/
theorem rest_exit (c : Dev nD) (n : ℕ) (h : n ≤ cfg1.N) :
    PhiS V c n h ⊢ (Pipeline.ΦA (U := UR sig nD τ) (Val := Elt F) spec1 c : sProp 𝕄) := by
  unfold Pipeline.ΦA
  rw [scopedRest1_eq]
  cases n with
  | zero =>
    rw [PhiS_zero V c 0 _ rfl]
    simp only [owns_whole]
    unfold rest19
    iintro ⟨⟨R0, R1, R2, R3, R4, R5, R6, R7, R8, R9, R10, R11, R12, R13, R14, R15, R16, R17, R18⟩, S0, S1, S2, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [S0]; · iexact S0
    isplitl [S1]; · iexact S1
    iexact S2
  | succ n =>
    rw [PhiS_succ]
    simp only [owns_whole]
    unfold rest19
    iintro ⟨⟨R0, R1, R2, R3, R4, R5, R6, R7, R8, R9, R10, R11, R12, R13, R14, R15, R16, R17, R18⟩, S0, S1, S2, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [S0]; · iexists _; iexact S0
    isplitl [S1]; · iexists _; iexact S1
    iexists _; iexact S2

/-! ## The pipeline's proof data -/

/-- The proof data of the attention region on core `c`: the arrays as the region finds them; after the body at point
    `t` each input's buffer at its block and the output's at the state's output component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stateAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stateAt1 V c t.val t.isLt).1 := by dsimp only [dat1]

/-- An input window's current staging buffer holds its block at every point, fetched there or not: where it is not
    fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the key coordinate says which of the three cases the
    point is in; the invariant hands the body the carried triple (anything before the first point, else what the
    point before left) and takes it back one step of the recurrence later; the output block is stored only when
    the key coordinate is 11 and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 144 := lt_of_lt_of_eq t.isLt (show cfg1.N = 144 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 12 = 0
  · have h1 : ¬t.val % 12 = 11 := by omega
    rw [Dat.leavesExact_idle (dat1 V c) 4 t (idleAt1_4 t (fun h => h1 ((hcond1_1 t).mp h))) (noFlush1_4 t (fun h => h1 ((hcond1_1 t).mp h)))]
    rw [stateAt1_A V c t h0]
    dsimp only [stepAll]
    by_cases hz : t.val = 0
    · rw [PhiS_castSucc V c t, PhiS_zero V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 12 = 11
    · rw [show (dat1 V c).leavesExact 4 t = owns (c : Thread nD τ) (st1_4 t) fullShare ((dat1 V c).after 4 t) from by
        unfold Dat.leavesExact; rw [liveAt1_4 t ((hcond1_1 t).mpr h1)], after1_4]
      rw [stateAt1_C V c t h0 h1]
      dsimp only [stepAll]
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [stateAt1_B V c t h0 h1]
      dsimp only [stepAll]
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The same as the loop uses it. -/
theorem body1 (c : Dev nD) : Pipeline.BodyObligationLoose (dat1 (F := F) V c) (defs₀ (F := F)) Variants.none () Set.univ :=
  (body_obligation1 V c).loose

theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) : (dat1 V c).recorded 0 = Set.univ := rfl

/-! ## Entering and leaving the region -/

/-- What the launch hands the region (the scoped rest and the generator register) is the invariant before the first
    point. -/
theorem Phi1_entry (c : Dev nD) :
    (Pipeline.ΦA (U := UR sig nD τ) (Val := Elt F) spec1 c : sProp 𝕄) ⊢ (dat1 V c).Φ 0 := by
  rw [show (dat1 V c).Φ 0 = PhiS V c 0 (Nat.zero_le _) from rfl]
  exact rest_entry V c

/-- The invariant after the last point gives it back, the carried contents forgotten. -/
theorem Phi1_exit (c : Dev nD) :
    (dat1 V c).Φ (Fin.last cfg1.N) ⊢ (Pipeline.ΦA (U := UR sig nD τ) (Val := Elt F) spec1 c : sProp 𝕄) := by
  rw [show (dat1 V c).Φ (Fin.last cfg1.N) = PhiS V c (Fin.last cfg1.N).val (Nat.le_of_lt_succ (Fin.last cfg1.N).isLt) from rfl]
  exact rest_exit V c _ _

end Region

end Cert.KernelIdeal.Reg1

end
-- ==== Proof.RunBothInst.lean ====
/-
  The run of both regions at the projection region's and the attention region's proof data.
-/
import proofs.«174622_j3590592660316_1_alg».proof.Proof.RunBoth
import proofs.«174622_j3590592660316_1_alg».proof.Proof.Region0
import proofs.«174622_j3590592660316_1_alg».proof.Proof.Region1

noncomputable section

namespace Cert.KernelIdeal.RunBothInst

open Cert.KernelIdeal Cert.KernelIdeal.Gen Cert.KernelIdeal.RunBoth
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- What region 0 is entered from: the launch contents after the three host stretches. -/
abbrev Ventry0 : Env (F := F) := Vin0 m
/-- What region 1 is entered from: the same with region 0's three output arrays at what region 0's write-backs leave,
    region 0's proof data being the projection kernel's. -/
abbrev Ventry1 : Env (F := F) := Vin1 m (fun V c => Reg0.dat0 V c)

/-- THE RUN WITH THE RESULT'S VALUE, at the two kernels' proof data: the result's buffer ends holding the attention
    kernel's output array after all its write-backs, that kernel being entered from what the projection kernel leaves;
    every argument ends as launched. -/
theorem run_value_inst : θ_run defs (onTc (τ := τ) (main (F := F))) ⟨m, fun _ => 0, ρ⟩ (fun r => ∀ c : Dev nD,
      r.2.mem ((c.tc : Thread nD τ).loc main_v23) = (Reg1.dat1 (Vin1 m (fun V c => Reg0.dat0 V c)) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m ρ (fun V c => Reg0.dat0 V c) (fun V c => Reg1.dat1 V c)
    Reg0.A_eq0 (fun _ _ _ => rfl) (fun _ _ _ => rfl) (fun _ _ => rfl)
    (fun V c => (Reg0.body_obligation0 V c).loose) (fun _ _ => .rfl) (fun _ _ => .rfl)
    Reg1.A_eq1 Reg1.q_eq1 Reg1.owed_eq1 Reg1.rec_eq1 Reg1.body1 Reg1.Phi1_entry Reg1.Phi1_exit

/-- THE FRAME: every argument ends as launched. -/
theorem frame_inst : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value_inst m ρ)

/-- Off the projection kernel's three output arrays, the attention kernel is entered from the contents after the host stretches. -/
theorem Ventry1_of (c : Dev nD) (r : Ref sig .tc) (h : r ∉ ([main_v22_0, main_v22_1, main_v22_2] : List (Ref sig .tc))) :
    Ventry1 m c r = Ventry0 m c r := Vin1_of m _ c r h
/-- At each of the three, from what the projection kernel's write-backs leave there. -/
theorem Ventry1_v22_0 (c : Dev nD) : Ventry1 m c main_v22_0 = (Reg0.dat0 (Ventry0 m) c).arrAt 11 cfg0.N := Vin1_v22_0 m _ c
theorem Ventry1_v22_1 (c : Dev nD) : Ventry1 m c main_v22_1 = (Reg0.dat0 (Ventry0 m) c).arrAt 12 cfg0.N := Vin1_v22_1 m _ c
theorem Ventry1_v22_2 (c : Dev nD) : Ventry1 m c main_v22_2 = (Reg0.dat0 (Ventry0 m) c).arrAt 13 cfg0.N := Vin1_v22_2 m _ c

end Cert.KernelIdeal.RunBothInst

end
-- ==== Proof.RunBothBits.lean ====
/-
  The program's run through its host operations and its two regions, for any proof data of the two regions:
  every argument ends as launched, and the result's buffer ends holding the second region's output array after
  all its write-backs.
-/
import proofs.«174622_j3590592660316_1_alg».proof.Proof.Gen.Kernel.Regions
import Idealize.ShloMosaic.Lib.Pipeline.RegionsLoop
import Idealize.ShloMosaic.Lib.Pipeline.FrameSuffix
import Idealize.ShloMosaic.Lib.Pipeline.Kit

noncomputable section

namespace Cert.Kernel.RunBoth

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A core's unscoped buffers read at the TensorCore's references: what a region's proof data take as the contents
    the region is entered from. -/
abbrev Env : Type := (c : Dev nD) → (b : Ref sig .tc) → Buf (Elt F) ((c : Thread nD τ).loc b)

variable (m : (ℓ : Loc nD τ sig) → Buf (Elt F) ℓ) (ρ : Dev nD → PrngReg)

/-! ## The two regions' proof data, taken as given -/

variable (dat0 : Env (F := F) → (c : Dev nD) → Dat τ (Elt F) Unit ℕ (UR sig nD τ) ℕ cfg0 c)
variable (dat1 : Env (F := F) → (c : Dev nD) → Dat τ (Elt F) Unit ℕ (UR sig nD τ) ℕ cfg1 c)

/-! ## The buffers' contents around the regions -/

/-- What region 0 is entered from: the launch contents after the three host stretches. -/
abbrev Vin0 : Env (F := F) := fun c b => V3 m c b

/-- What region 0 leaves in a buffer: each of its arrays after all its write-backs, any other buffer as entered. -/
def outs4 (r : Ref sig .tc) (c : Dev nD) : Buf (Elt F) ((c : Thread nD τ).loc r) :=
  Pipeline.withArrays spec0 c (V3 m c) (fun w => (dat0 (Vin0 m) c).arrAt w cfg0.N) r

/-- The contents after region 0: its three output arrays at what it leaves, every other buffer as entered. -/
abbrev W4 (c : Dev nD) : Valuation τ sig (Elt F) := V4 m (fun _ => outs4 m dat0) c

/-- What region 1 is entered from. -/
abbrev Vin1 : Env (F := F) := fun c b => W4 m dat0 c b

/-- What region 1 leaves in a buffer. -/
def outs5 (r : Ref sig .tc) (c : Dev nD) : Buf (Elt F) ((c : Thread nD τ).loc r) :=
  Pipeline.withArrays spec1 c (W4 m dat0 c) (fun w => (dat1 (Vin1 m dat0) c).arrAt w cfg1.N) r

/-- What the two regions leave, as one family. -/
def outs : Outs (F := F) := fun J => if J = 4 then outs4 m dat0 else outs5 m dat0 dat1

/-- The contents after region 1, at the return. -/
abbrev W5 (c : Dev nD) : Valuation τ sig (Elt F) := V5 m (outs m dat0 dat1) c

theorem V4_outs (c : Dev nD) : V4 m (outs m dat0 dat1) c = W4 m dat0 c := rfl

/-! ## What the proof data are assumed to satisfy -/

variable
  (A_eq0 : ∀ (V : Env (F := F)) (c : Dev nD) (w : Fin cfg0.W), (dat0 V c).A w = V c (Pipeline.arrRef spec0 w))
  (q_eq0 : ∀ (V : Env (F := F)) (c : Dev nD) (w : Fin cfg0.W), (dat0 V c).q w = fullShare)
  (owed_eq0 : ∀ (V : Env (F := F)) (c : Dev nD) (t : Fin (cfg0.N + 1)), (dat0 V c).owed t = 0)
  (rec_eq0 : ∀ (V : Env (F := F)) (c : Dev nD), (dat0 V c).recorded 0 = Set.univ)
  (body0 : ∀ (V : Env (F := F)) (c : Dev nD), BodyObligationLoose (dat0 V c) (defs₀ (F := F)) Variants.none () Set.univ)
  (Phi0_entry : ∀ (V : Env (F := F)) (c : Dev nD), (Pipeline.ΦA (U := UR sig nD τ) (Val := Elt F) spec0 c : sProp (MT nD τ sig Unit (Elt F) ℕ (UR sig nD τ) ℕ)) ⊢ (dat0 V c).Φ 0)
  (Phi0_exit : ∀ (V : Env (F := F)) (c : Dev nD), (dat0 V c).Φ (Fin.last cfg0.N) ⊢ (Pipeline.ΦA (U := UR sig nD τ) (Val := Elt F) spec0 c : sProp (MT nD τ sig Unit (Elt F) ℕ (UR sig nD τ) ℕ)))
  (A_eq1 : ∀ (V : Env (F := F)) (c : Dev nD) (w : Fin cfg1.W), (dat1 V c).A w = V c (Pipeline.arrRef spec1 w))
  (q_eq1 : ∀ (V : Env (F := F)) (c : Dev nD) (w : Fin cfg1.W), (dat1 V c).q w = fullShare)
  (owed_eq1 : ∀ (V : Env (F := F)) (c : Dev nD) (t : Fin (cfg1.N + 1)), (dat1 V c).owed t = 0)
  (rec_eq1 : ∀ (V : Env (F := F)) (c : Dev nD), (dat1 V c).recorded 0 = Set.univ)
  (body1 : ∀ (V : Env (F := F)) (c : Dev nD), BodyObligationLoose (dat1 V c) (defs₀ (F := F)) Variants.none () Set.univ)
  (Phi1_entry : ∀ (V : Env (F := F)) (c : Dev nD), (Pipeline.ΦA (U := UR sig nD τ) (Val := Elt F) spec1 c : sProp (MT nD τ sig Unit (Elt F) ℕ (UR sig nD τ) ℕ)) ⊢ (dat1 V c).Φ 0)
  (Phi1_exit : ∀ (V : Env (F := F)) (c : Dev nD), (dat1 V c).Φ (Fin.last cfg1.N) ⊢ (Pipeline.ΦA (U := UR sig nD τ) (Val := Elt F) spec1 c : sProp (MT nD τ sig Unit (Elt F) ℕ (UR sig nD τ) ℕ)))

/-! ## The contents after region 0 -/

/-- Off region 0's three output arrays the contents after it are those it was entered from. -/
theorem W4_of (c : Dev nD) (r : Ref sig .tc) (h : r ∉ ([main_v22_0, main_v22_1, main_v22_2] : List (Ref sig .tc))) :
    W4 m dat0 c r = V3 m c r := V4_of m _ c r h

theorem W4_v22_0 (c : Dev nD) : W4 m dat0 c main_v22_0 = (dat0 (Vin0 m) c).arrAt 11 cfg0.N := by
  simp only [W4, V4, Function.update_of_ne (StableHlo.devRef_ne_of_ne (by decide) : (Proc.devRef .tc main_v22_0 : DevRef τ sig) ≠ Proc.devRef .tc main_v22_1),
    Function.update_of_ne (StableHlo.devRef_ne_of_ne (by decide) : (Proc.devRef .tc main_v22_0 : DevRef τ sig) ≠ Proc.devRef .tc main_v22_2), Function.update_self]
  exact Pipeline.withArrays_arr spec0 launch0.win.arr_inj c _ _ 11
theorem W4_v22_1 (c : Dev nD) : W4 m dat0 c main_v22_1 = (dat0 (Vin0 m) c).arrAt 12 cfg0.N := by
  simp only [W4, V4, Function.update_of_ne (StableHlo.devRef_ne_of_ne (by decide) : (Proc.devRef .tc main_v22_1 : DevRef τ sig) ≠ Proc.devRef .tc main_v22_2), Function.update_self]
  exact Pipeline.withArrays_arr spec0 launch0.win.arr_inj c _ _ 12
theorem W4_v22_2 (c : Dev nD) : W4 m dat0 c main_v22_2 = (dat0 (Vin0 m) c).arrAt 13 cfg0.N := by
  simp only [W4, V4, Function.update_self]
  exact Pipeline.withArrays_arr spec0 launch0.win.arr_inj c _ _ 13

include A_eq0 in
/-- An input array of region 0 holds after it what it held before. -/
theorem hF0_in (c : Dev nD) (w : Fin cfg0.W) (hin : (cfg0.win w).isOut = false)
    (hne : Pipeline.arrRef spec0 w ∉ ([main_v22_0, main_v22_1, main_v22_2] : List (Ref sig .tc))) :
    (dat0 (Vin0 m) c).arrAt w cfg0.N = Vin1 m dat0 c (Pipeline.arrRef spec0 w) :=
  ((dat0 (Vin0 m) c).arrAt_in w hin _).trans ((A_eq0 (Vin0 m) c w).trans (W4_of m dat0 c _ hne).symm)

include A_eq0 in
/-- Each of region 0's arrays holds after it what its write-backs leave. -/
theorem hF0 (c : Dev nD) (w : Fin 14) : (dat0 (Vin0 m) c).arrAt w cfg0.N = Vin1 m dat0 c (Pipeline.arrRef spec0 w) := by
  match w with
  | 0 => exact hF0_in m dat0 A_eq0 c 0 rfl (by decide)
  | 1 => exact hF0_in m dat0 A_eq0 c 1 rfl (by decide)
  | 2 => exact hF0_in m dat0 A_eq0 c 2 rfl (by decide)
  | 3 => exact hF0_in m dat0 A_eq0 c 3 rfl (by decide)
  | 4 => exact hF0_in m dat0 A_eq0 c 4 rfl (by decide)
  | 5 => exact hF0_in m dat0 A_eq0 c 5 rfl (by decide)
  | 6 => exact hF0_in m dat0 A_eq0 c 6 rfl (by decide)
  | 7 => exact hF0_in m dat0 A_eq0 c 7 rfl (by decide)
  | 8 => exact hF0_in m dat0 A_eq0 c 8 rfl (by decide)
  | 9 => exact hF0_in m dat0 A_eq0 c 9 rfl (by decide)
  | 10 => exact hF0_in m dat0 A_eq0 c 10 rfl (by decide)
  | 11 => exact (W4_v22_0 m dat0 c).symm
  | 12 => exact (W4_v22_1 m dat0 c).symm
  | 13 => exact (W4_v22_2 m dat0 c).symm
  | ⟨_ + 14, h⟩ => exact absurd h (Nat.not_lt.2 (Nat.le_add_left _ _))

/-- Every buffer that is none of region 0's arrays holds after it what it held before. -/
theorem hrest0 (c : Dev nD) (b : Ref sig .tc) (hb : b ∉ Finset.univ.image (Pipeline.arrRef spec0)) :
    Vin1 m dat0 c b = Vin0 m c b :=
  W4_of m dat0 c b (by
    intro hm
    simp only [List.mem_cons, List.not_mem_nil, or_false] at hm
    rcases hm with rfl | rfl | rfl
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩))

/-! ## The contents after region 1 -/

/-- Off region 1's output array the contents at the return are those region 1 was entered from. -/
theorem W5_of (c : Dev nD) (r : Ref sig .tc) (h : r ∉ ([main_v23] : List (Ref sig .tc))) :
    W5 m dat0 dat1 c r = W4 m dat0 c r := V5_of m _ c r h

/-- THE RESULT's buffer at the return: region 1's output array after all its write-backs. -/
theorem W5_v23 (c : Dev nD) : W5 m dat0 dat1 c main_v23 = (dat1 (Vin1 m dat0) c).arrAt 4 cfg1.N := by
  simp only [W5, V5, Function.update_self]
  show outs5 m dat0 dat1 main_v23 c = _
  exact Pipeline.withArrays_arr spec1 launch1.win.arr_inj c _ _ 4

include A_eq1 in
theorem hF1_in (c : Dev nD) (w : Fin cfg1.W) (hin : (cfg1.win w).isOut = false)
    (hne : Pipeline.arrRef spec1 w ∉ ([main_v23] : List (Ref sig .tc))) :
    (dat1 (Vin1 m dat0) c).arrAt w cfg1.N = W5 m dat0 dat1 c (Pipeline.arrRef spec1 w) :=
  ((dat1 (Vin1 m dat0) c).arrAt_in w hin _).trans ((A_eq1 (Vin1 m dat0) c w).trans (W5_of m dat0 dat1 c _ hne).symm)

include A_eq1 in
theorem hF1 (c : Dev nD) (w : Fin 5) : (dat1 (Vin1 m dat0) c).arrAt w cfg1.N = W5 m dat0 dat1 c (Pipeline.arrRef spec1 w) := by
  match w with
  | 0 => exact hF1_in m dat0 dat1 A_eq1 c 0 rfl (by decide)
  | 1 => exact hF1_in m dat0 dat1 A_eq1 c 1 rfl (by decide)
  | 2 => exact hF1_in m dat0 dat1 A_eq1 c 2 rfl (by decide)
  | 3 => exact hF1_in m dat0 dat1 A_eq1 c 3 rfl (by decide)
  | 4 => exact (W5_v23 m dat0 dat1 c).symm
  | ⟨_ + 5, h⟩ => exact absurd h (Nat.not_lt.2 (Nat.le_add_left _ _))

theorem hrest1 (c : Dev nD) (b : Ref sig .tc) (hb : b ∉ Finset.univ.image (Pipeline.arrRef spec1)) :
    W5 m dat0 dat1 c b = Vin1 m dat0 c b :=
  W5_of m dat0 dat1 c b (by
    intro hm
    simp only [List.mem_cons, List.not_mem_nil, or_false] at hm
    subst hm
    exact hb (Finset.mem_image.mpr ⟨4, Finset.mem_univ _, rfl⟩))

/-! ## The proof data family and the thread state -/

/-- A core owing nothing, with nothing known of its recorded pairs, owes what proof data owing nothing say. -/
theorem owesAt_intro {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩; iexists W; isplitr
  · ipureintro; intro x _; exact Or.inl (by rw [hr]; exact Set.mem_univ x)
  iexact HO

/-- And back. -/
theorem owesAt_elim {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- Both pipelines' proof data, each at the contents its region is entered from: a literal match on the pipeline. -/
def pdats : (p : Fin 2) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m dat0) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owing: every unscoped buffer at the contents at the return, the generator register at some state. -/
abbrev Tₙ (c : Dev nD) : sProp 𝕄 := iprop(StableHlo.held (c : Thread nD τ) (Pipeline.ucRefs τ sig) (W5 m dat0 dat1 c) ∗ ∃ r, prngReg c r)

/-! ## The regions as segments -/

include A_eq0 q_eq0 owed_eq0 rec_eq0 body0 Phi0_entry Phi0_exit in
set_option backward.isDefEq.respectTransparency.types false in
/-- REGION 0 over the thread state: entered from every unscoped buffer at the contents after the host stretches, left with
    its three output arrays at what their write-backs leave. -/
def reg0 : Pipeline.RegionSeg (pcfgs (F := F)) adm (pdats m dat0 dat1) () defs₀ 𝒱₀ L lv 0 where
  win := launch0.win.to₀
  block_pos := launch0.block_pos
  stage_whole := launch0.stage_whole
  K := PEmpty
  osem k := k.elim
  ho := Pipeline.OwnSemFacts.none _
  hbody c := body0 (Vin0 m) c
  hwaits := Pipeline.hwaits_of_owed_zero _ _ _ _ L lv 0 fun c t => owed_eq0 (Vin0 m) c t
  pre c := iprop(StableHlo.held (c : Thread nD τ) (Pipeline.ucRefs τ sig) (V3 m c) ∗ R c)
  post c := iprop(StableHlo.held (c : Thread nD τ) (Pipeline.ucRefs τ sig) (W4 m dat0 c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m dat0 dat1) launch0.win launch0.arr_whole c
      ((pdats m dat0 dat1 0 c).share_full fun w => q_eq0 (Vin0 m) c w) (Vin0 m c) fun w => A_eq0 (Vin0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat0 (Vin0 m) c) 0 (owed_eq0 _ c 0) (rec_eq0 _ c)); iexact HO
    isplitl [Hp]; · iexact Hp
    iexact Hrest
  hin c := by
    refine BIBase.Entails.trans ?_ (Phi0_entry (Vin0 m) c)
    unfold Pipeline.ΦA
    iintro ⟨Hp, -, Hr⟩
    isplitl [Hr]; · iexact Hr
    iexact Hp
  hout c := by
    rw [Pipeline.ownSems0_none]
    refine BIBase.Entails.trans (Phi0_exit (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m dat0 dat1) ((pdats m dat0 dat1 0 c).share_full fun w => q_eq0 (Vin0 m) c w)
      (Vin0 m c) (Vin1 m dat0 c) ((pdats m dat0 dat1 0 c).arrAt · cfg0.N) (hF0 m dat0 A_eq0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (dat0 (Vin0 m) c) (Fin.last cfg0.N) (owed_eq0 _ c _)); iexact HO

include A_eq1 q_eq1 owed_eq1 rec_eq1 body1 Phi1_entry Phi1_exit in
set_option backward.isDefEq.respectTransparency.types false in
/-- REGION 1 over the thread state: entered from the contents region 0 leaves, left with its output array at what its
    write-backs leave (what the launch reads at the return). -/
def reg1 : Pipeline.RegionSeg (pcfgs (F := F)) adm (pdats m dat0 dat1) () defs₀ 𝒱₀ L lv 1 where
  win := launch1.win.to₀
  block_pos := launch1.block_pos
  stage_whole := launch1.stage_whole
  K := PEmpty
  osem k := k.elim
  ho := Pipeline.OwnSemFacts.none _
  hbody c := body1 (Vin1 m dat0) c
  hwaits := Pipeline.hwaits_of_owed_zero _ _ _ _ L lv 1 fun c t => owed_eq1 (Vin1 m dat0) c t
  pre c := iprop(StableHlo.held (c : Thread nD τ) (Pipeline.ucRefs τ sig) (W4 m dat0 c) ∗ R c)
  post c := iprop(Tₙ m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m dat0 c)
  hentry c := by
    rw [Pipeline.ownSems0_none]
    have hsplit := Pipeline.arrays_of_unscopedBufs (p := 1) (pcfgs (F := F)) adm (pdats m dat0 dat1) launch1.win launch1.arr_whole c
      ((pdats m dat0 dat1 1 c).share_full fun w => q_eq1 (Vin1 m dat0) c w) (Vin1 m dat0 c) fun w => A_eq1 (Vin1 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (dat1 (Vin1 m dat0) c) 0 (owed_eq1 _ c 0) (rec_eq1 _ c)); iexact HO
    isplitl [Hp]; · iexact Hp
    iexact Hrest
  hin c := by
    refine BIBase.Entails.trans ?_ (Phi1_entry (Vin1 m dat0) c)
    unfold Pipeline.ΦA
    iintro ⟨Hp, -, Hr⟩
    isplitl [Hr]; · iexact Hr
    iexact Hp
  hout c := by
    rw [Pipeline.ownSems0_none]
    refine BIBase.Entails.trans (Phi1_exit (Vin1 m dat0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m dat0 dat1) ((pdats m dat0 dat1 1 c).share_full fun w => q_eq1 (Vin1 m dat0) c w)
      (Vin1 m dat0 c) (fun b => W5 m dat0 dat1 c b) ((pdats m dat0 dat1 1 c).arrAt · cfg1.N) (hF1 m dat0 dat1 A_eq1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owesAt_elim (dat1 (Vin1 m dat0) c) (Fin.last cfg1.N) (owed_eq1 _ c _)); iexact HO

/-! ## @main as segments, and the launch -/

/-- @main's five items in order: the three host stretches (each a segment of host operations, the rest riding along), then the two regions. -/
abbrev runSegs : List (Pipeline.Seg (pcfgs (F := F)) adm (pdats m dat0 dat1) () defs₀ 𝒱₀ L lv) :=
  [ .host (seg0 m 𝒱₀ L lv fun _ => R),
    .host (seg1 m 𝒱₀ L lv fun _ => R),
    .host (seg2 m 𝒱₀ L lv fun _ => R),
    .region (reg0 m dat0 dat1 A_eq0 q_eq0 owed_eq0 rec_eq0 body0 Phi0_entry Phi0_exit),
    .region (reg1 m dat0 dat1 A_eq1 q_eq1 owed_eq1 rec_eq1 body1 Phi1_entry Phi1_exit) ]

include A_eq0 q_eq0 owed_eq0 rec_eq0 body0 Phi0_entry Phi0_exit A_eq1 q_eq1 owed_eq1 rec_eq1 body1 Phi1_entry Phi1_exit in
set_option backward.isDefEq.respectTransparency.types false in
/-- THE RUN WITH THE RESULT'S VALUE. From any memory with zero counters every weakly fair execution of @main terminates,
    nothing faulting; the result's buffer ends holding region 1's output array after all its write-backs, the proof data
    of region 1 being taken at the contents region 0 leaves; and every argument ends as launched. -/
theorem run_value : θ_run defs (onTc (τ := τ) (main (F := F))) ⟨m, fun _ => 0, ρ⟩ (fun r => ∀ c : Dev nD,
      r.2.mem ((c.tc : Thread nD τ).loc main_v23) = (dat1 (Vin1 m dat0) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m dat0 dat1) () cellOf_inj emb₁ defs₀ 𝒱₀ L lv m ρ main
    (runSegs m dat0 dat1 A_eq0 q_eq0 owed_eq0 rec_eq0 body0 Phi0_entry Phi0_exit A_eq1 q_eq1 owed_eq1 rec_eq1 body1 Phi1_entry Phi1_exit)
    (fun c Q => by
      rewrite [main_chain c, Pipeline.Seg.run_eq_chain,
        show (runSegs m dat0 dat1 A_eq0 q_eq0 owed_eq0 rec_eq0 body0 Phi0_entry Phi0_exit A_eq1 q_eq1 owed_eq1 rec_eq1 body1 Phi1_entry Phi1_exit).map Pipeline.Seg.prog = [
          StableHlo.seq hostOps0,
          StableHlo.seq hostOps0_1,
          StableHlo.seq hostOps0_2,
          Prog.lift (.customCall (Pipeline.entry 0) ()),
          Prog.lift (.customCall (Pipeline.entry 1) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m dat0 dat1)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W5 m dat0 dat1 c) s')
      isplitl [Hh] <;> iassumption)
    (hQ := fun s h c =>
      ⟨(h c _ (mem_uc main_v23 (by decide))).trans (W5_v23 m dat0 dat1 c),
       (h c _ (mem_uc main_arg0 (by decide))).trans (V5_main_arg0 m _ c),
       (h c _ (mem_uc main_arg1 (by decide))).trans (V5_main_arg1 m _ c),
       (h c _ (mem_uc main_arg2 (by decide))).trans (V5_main_arg2 m _ c),
       (h c _ (mem_uc main_arg3 (by decide))).trans (V5_main_arg3 m _ c),
       (h c _ (mem_uc main_arg4 (by decide))).trans (V5_main_arg4 m _ c),
       (h c _ (mem_uc main_arg5 (by decide))).trans (V5_main_arg5 m _ c),
       (h c _ (mem_uc main_arg6 (by decide))).trans (V5_main_arg6 m _ c),
       (h c _ (mem_uc main_arg7 (by decide))).trans (V5_main_arg7 m _ c),
       (h c _ (mem_uc main_arg8 (by decide))).trans (V5_main_arg8 m _ c)⟩)

include A_eq0 q_eq0 owed_eq0 rec_eq0 body0 Phi0_entry Phi0_exit A_eq1 q_eq1 owed_eq1 rec_eq1 body1 Phi1_entry Phi1_exit in
/-- THE FRAME: the run, keeping only that every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2)
    (run_value m ρ dat0 dat1 A_eq0 q_eq0 owed_eq0 rec_eq0 body0 Phi0_entry Phi0_exit A_eq1 q_eq1 owed_eq1 rec_eq1 body1 Phi1_entry Phi1_exit)

/-! ## What the value side reads of the contents region 1 is entered from -/

/-- Off region 0's three output arrays, region 1 is entered from what region 0 was entered from. -/
theorem Vin1_of (c : Dev nD) (r : Ref sig .tc) (h : r ∉ ([main_v22_0, main_v22_1, main_v22_2] : List (Ref sig .tc))) :
    Vin1 m dat0 c r = Vin0 m c r := W4_of m dat0 c r h
/-- At each of the three, from what region 0's write-backs leave there. -/
theorem Vin1_v22_0 (c : Dev nD) : Vin1 m dat0 c main_v22_0 = (dat0 (Vin0 m) c).arrAt 11 cfg0.N := W4_v22_0 m dat0 c
theorem Vin1_v22_1 (c : Dev nD) : Vin1 m dat0 c main_v22_1 = (dat0 (Vin0 m) c).arrAt 12 cfg0.N := W4_v22_1 m dat0 c
theorem Vin1_v22_2 (c : Dev nD) : Vin1 m dat0 c main_v22_2 = (dat0 (Vin0 m) c).arrAt 13 cfg0.N := W4_v22_2 m dat0 c

end Cert.Kernel.RunBoth

end
-- ==== Proof.Region0Bits.lean ====
import proofs.«174622_j3590592660316_1_alg».proof.Proof.Gen.Kernel.Launch
import proofs.«174622_j3590592660316_1_alg».proof.Proof.Gen.Kernel.Skeleton
import proofs.«174622_j3590592660316_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: proof data and body obligation

The first kernel region of the program runs over a grid of 12 row tiles. At each tile it normalizes a
block of 1024 feature rows to unit length, and forms three projections of it,
`normalized features · W + coordinates · Wc + bias`, rounded to bf16: two of width 64 and one of width 256.
It has eleven input windows (the feature rows, the coordinate rows, and three triples weight / coordinate
weight / bias whose block never moves) and three output windows, each stored whole exactly once per tile.

This module states, at ANY contents `V` of the core's unscoped buffers when the region is entered:
each window's block at a tile, what the body leaves in each output window's buffer as a pure function of the
input blocks, the body's triple, the pipeline's proof data, and the body obligation at every tile.
-/

-- membership in a rectangle of these extents recurses once per coordinate of the long axes
set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the core's unscoped buffer contents when the region is entered
variable (V : (c : Dev nD) → (b : Ref sig .tc) → Buf (Elt F) ((c : Thread nD τ).loc b))

/-! ## The windows' blocks -/

/-- Window `w`'s block at tile `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every tile, fetched there or not, for any proof data
whose array is `V`'s and whose body leaves the block in place: where the window is not fetched its block index has not
moved (the weight windows are fetched at the first tile only, and their index is constant). -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is through the whole of its buffer -/

abbrev r0_0 : Rect S1024x256 := Rect.unit (s := S1024x256) ![0, 0] S1024x256.size inb_S1024x256_S1024x256_0_0
abbrev r0_1 : Rect S1024x3 := Rect.unit (s := S1024x3) ![0, 0] S1024x3.size inb_S1024x3_S1024x3_0_0
abbrev r0_2 : Rect S256x64 := Rect.unit (s := S256x64) ![0, 0] S256x64.size inb_S256x64_S256x64_0_0
abbrev r0_3 : Rect S3x64 := Rect.unit (s := S3x64) ![0, 0] S3x64.size inb_S3x64_S3x64_0_0
abbrev r0_4 : Rect S1x64 := Rect.unit (s := S1x64) ![0, 0] S1x64.size inb_S1x64_S1x64_0_0
abbrev r0_5 : Rect S256x256 := Rect.unit (s := S256x256) ![0, 0] S256x256.size inb_S256x256_S256x256_0_0
abbrev r0_6 : Rect S3x256 := Rect.unit (s := S3x256) ![0, 0] S3x256.size inb_S3x256_S3x256_0_0
abbrev r0_7 : Rect S1x256 := Rect.unit (s := S1x256) ![0, 0] S1x256.size inb_S1x256_S1x256_0_0
abbrev r0_8 : Rect S1024x64 := Rect.unit (s := S1024x64) ![0, 0] S1024x64.size inb_S1024x64_S1024x64_0_0

/-! ## What the body leaves in each output window's buffer

Each output buffer is stored whole exactly once, so its contents after the body are that store's payload, a
pure function of the input blocks the body loaded. -/

/-- Window 11 after the body: the first width-64 projection of the normalized feature rows `x0` and the
    coordinate rows `x1`, with weights `x2`, coordinate weights `x3` and bias `x4`. -/
def out0_11 (x0 : Vec F S1024x256 .f32) (x1 : Vec F S1024x3 .f32) (x2 : Vec F S256x64 .bf16) (x3 : Vec F S3x64 .bf16) (x4 : Vec F S1x64 .f32) : Vec F S1024x64 .bf16 :=
  View.canon [⟨r0_8, k0_pay5 (View.ld x0 r0_0) (View.ld x1 r0_1) (View.ld x2 r0_2) (View.ld x3 r0_3) (View.ld x4 r0_4)⟩]

/-- Window 12 after the body: the second width-64 projection, with weights `x5`, coordinate weights `x6` and
    bias `x7`. -/
def out0_12 (x0 : Vec F S1024x256 .f32) (x1 : Vec F S1024x3 .f32) (x5 : Vec F S256x64 .bf16) (x6 : Vec F S3x64 .bf16) (x7 : Vec F S1x64 .f32) : Vec F S1024x64 .bf16 :=
  View.canon [⟨r0_8, k0_pay1 (k0_pay6 (View.ld x0 r0_0) (View.ld x1 r0_1) (View.ld x5 r0_2) (View.ld x6 r0_3)) (View.ld x7 r0_4)⟩]

/-- Window 13 after the body: the width-256 projection, with weights `x8`, coordinate weights `x9` and bias
    `x10`. -/
def out0_13 (x0 : Vec F S1024x256 .f32) (x1 : Vec F S1024x3 .f32) (x8 : Vec F S256x256 .bf16) (x9 : Vec F S3x256 .bf16) (x10 : Vec F S1x256 .f32) : Vec F S1024x256 .bf16 :=
  View.canon [⟨r0_0, k0_pay2 (k0_pay3 (View.ld x0 r0_0)) (k0_pay4 (View.ld x1 r0_1)) (View.ld x8 r0_5) (View.ld x9 r0_6) (View.ld x10 r0_7)⟩]

/-- A single store through the whole of a width-64 output buffer covers it (one block, checked by evaluation). -/
theorem cover0_11 (p0 : Vec F S1024x64 .bf16) (y : S1024x64.Idx) :
    ∃ pc ∈ ([⟨r0_8, p0⟩] : List (View.Piece (Elt F) S1024x64 .bf16)), y ∈ pc.1.set :=
  View.cover_of_tiled [⟨r0_8, p0⟩] S1024x64.size (by rfl) y

theorem cover0_12 (p0 : Vec F S1024x64 .bf16) (y : S1024x64.Idx) :
    ∃ pc ∈ ([⟨r0_8, p0⟩] : List (View.Piece (Elt F) S1024x64 .bf16)), y ∈ pc.1.set :=
  cover0_11 p0 y

/-- Likewise for the width-256 output buffer. -/
theorem cover0_13 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 4000000 in
/-- The kernel body on whole staging memrefs, the inputs' at contents `xW` and the outputs' at anything, runs to the
    continuation holding the inputs' as they were and each output's at `out0_W` of the inputs': the body is a
    straight line of whole-buffer loads and three whole-buffer stores. -/
theorem sound_kernel0 (c : Dev nD) (E : Set ℕ) (i : grid0.Coords) (arg1 : Memref sig .tc .vmem S1024x256 .f32) (harg1 : arg1.IsWhole) (arg2 : Memref sig .tc .vmem S1024x3 .f32) (harg2 : arg2.IsWhole) (arg3 : Memref sig .tc .vmem S256x64 .bf16) (harg3 : arg3.IsWhole) (arg4 : Memref sig .tc .vmem S3x64 .bf16) (harg4 : arg4.IsWhole) (arg5 : Memref sig .tc .vmem S1x64 .f32) (harg5 : arg5.IsWhole) (arg6 : Memref sig .tc .vmem S256x64 .bf16) (harg6 : arg6.IsWhole) (arg7 : Memref sig .tc .vmem S3x64 .bf16) (harg7 : arg7.IsWhole) (arg8 : Memref sig .tc .vmem S1x64 .f32) (harg8 : arg8.IsWhole) (arg9 : Memref sig .tc .vmem S256x256 .bf16) (harg9 : arg9.IsWhole) (arg10 : Memref sig .tc .vmem S3x256 .bf16) (harg10 : arg10.IsWhole) (arg11 : Memref sig .tc .vmem S1x256 .f32) (harg11 : arg11.IsWhole) (arg12 : Memref sig .tc .vmem S1024x64 .bf16) (harg12 : arg12.IsWhole) (arg13 : Memref sig .tc .vmem S1024x64 .bf16) (harg13 : arg13.IsWhole) (arg14 : Memref sig .tc .vmem S1024x256 .bf16) (harg14 : arg14.IsWhole)
    (x0 : Vec F S1024x256 .f32) (x1 : Vec F S1024x3 .f32) (x2 : Vec F S256x64 .bf16) (x3 : Vec F S3x64 .bf16) (x4 : Vec F S1x64 .f32) (x5 : Vec F S256x64 .bf16) (x6 : Vec F S3x64 .bf16) (x7 : Vec F S1x64 .f32) (x8 : Vec F S256x256 .bf16) (x9 : Vec F S3x256 .bf16) (x10 : Vec F S1x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (∃ d, owns (c : Thread nD τ) arg14 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out0_11 x0 x1 x2 x3 x4)
            ∗ owns (c : Thread nD τ) arg13 fullShare (out0_12 x0 x1 x5 x6 x7)
            ∗ owns (c : Thread nD τ) arg14 fullShare (out0_13 x0 x1 x8 x9 x10)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10 arg11 harg11 arg12 harg12 arg13 harg13 arg14 harg14) K := by
  sl_unfold [cc0_proj_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_12 _)
  iexists _; isplitr
  swap; · iexact H13
  ipureintro
  exact View.read_writes_eq_canon _ _ _ (cover0_13 _)

/-! ## The pipeline's proof data -/

/-- The proof data of the projection pipeline on core `c`: the arrays as the region finds them (`V`); after the body
    at tile `t` each input's buffer at its block and each output's at `out0_W` of the input blocks; the invariant is
    the untouched rest (the other scoped buffers and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t)
    | ⟨12, _⟩ => out0_12 (iblk0 V c 0 t) (iblk0 V c 1 t) (iblk0 V c 5 t) (iblk0 V c 6 t) (iblk0 V c 7 t)
    | ⟨13, _⟩ => out0_13 (iblk0 V c 0 t) (iblk0 V c 1 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) := by dsimp only [dat0]
theorem after0_12 (c : Dev nD) (t : Fin cfg0.N) : (dat0 V c).after 12 t = out0_12 (iblk0 V c 0 t) (iblk0 V c 1 t) (iblk0 V c 5 t) (iblk0 V c 6 t) (iblk0 V c 7 t) := by dsimp only [dat0]
theorem after0_13 (c : Dev nD) (t : Fin cfg0.N) : (dat0 V c).after 13 t = out0_13 (iblk0 V c 0 t) (iblk0 V c 1 t) (iblk0 V c 8 t) (iblk0 V c 9 t) (iblk0 V c 10 t) := by dsimp only [dat0]

/-! Each input's current staging buffer holds its block at every tile, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation, at a generic tile -/

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t))

set_option maxHeartbeats 2000000 in
/-- The body at any tile: the inputs' memrefs hold their blocks (`before0_W`), so the body's triple applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel0 c Set.univ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every tile. -/
theorem body_obligation0 (c : Dev nD) : BodyObligation (dat0 (F := F) V c) (defs₀ (F := F)) Variants.none () Set.univ := fun t => by
  rw [bigSep_W0, bigSep_W0]
  exact sound_body0 V c t

end Region

end Cert.Kernel.Reg0

end
-- ==== Proof.Region1Bits.lean ====
/-
  The attention region: one grid point as a step of the online weighting recurrence on the carried running
  maximum, running sum and accumulator; the invariant that carries the three between grid points; the region's
  proof data and its body obligation at every point.
-/
import proofs.«174622_j3590592660316_1_alg».proof.Proof.Gen.Kernel.Launch
import proofs.«174622_j3590592660316_1_alg».proof.Proof.Gen.Kernel.Skeleton
import proofs.«174622_j3590592660316_1_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The online-softmax recurrence of the attention region, as pure functions

One grid point (qi, ki) of the second region takes the query block `q`, the key block `k`, the value
block `v`, the feature block `x` and the carried triple (running maximum `m`, running sum `l`,
accumulator `a`), and produces the next triple; the output block is the normalized accumulator plus the
feature block. -/

/-- The carried triple a row of the grid (ki = 0) starts from: maximum -∞, sum 0, accumulator 0. -/
def init_m : Vec F S1024x1 .f32 := k1_pay4 (F := F)
def init_l : Vec F S1024x1 .f32 := k1_pay5 (F := F)
def init_acc : Vec F S1024x256 .f32 := k1_pay6 (F := F)

/-- The new running maximum: max (m, rowmax (clip (q kᵀ / 8))). -/
def step_m (q k : Vec F S1024x64 .bf16) (m : Vec F S1024x1 .f32) : Vec F S1024x1 .f32 :=
  k1_pay2 (k1_pay8 q k m)

/-- The new running sum: exp (m - m') * l + rowsum (exp (s - m')). -/
def step_l (q k : Vec F S1024x64 .bf16) (m l : Vec F S1024x1 .f32) : Vec F S1024x1 .f32 :=
  k1_pay11 q k m l

/-- The new accumulator: exp (m - m') * a + exp (s - m') v. -/
def step_acc (q k : Vec F S1024x64 .bf16) (v : Vec F S1024x256 .bf16) (m : Vec F S1024x1 .f32) (a : Vec F S1024x256 .f32) :
    Vec F S1024x256 .f32 :=
  k1_pay1 (k1_pay9 q k m) (k1_pay10 q k m) (k1_pay12 v) a

/-- The output block: a / (l + ε) + x. -/
def fin_out (a : Vec F S1024x256 .f32) (l : Vec F S1024x1 .f32) (x : Vec F S1024x256 .f32) : Vec F S1024x256 .f32 :=
  k1_pay3 a l x

/-- One grid point on the carried triple: the output block, then the new maximum, sum and accumulator. -/
def stepAll (q k : Vec F S1024x64 .bf16) (v : Vec F S1024x256 .bf16) (x : Vec F S1024x256 .f32)
    (s : Vec F S1024x1 .f32 × Vec F S1024x1 .f32 × Vec F S1024x256 .f32) :
    Vec F S1024x256 .f32 × Vec F S1024x1 .f32 × Vec F S1024x1 .f32 × Vec F S1024x256 .f32 :=
  (fin_out (step_acc q k v s.1 s.2.2) (step_l q k s.1 s.2.1) x, step_m q k s.1, step_l q k s.1 s.2.1, step_acc q k v s.1 s.2.2)

/-! ## The body's branch conditions, decided over the grid -/

/-- The first conditional (re-initialize the carried triple): the key coordinate is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 12 = 0 :=
  (by decide +kernel : ∀ t : Fin grid1.N, cond1_0 (grid1.coords t) ↔ t.val % 12 = 0)

/-- The last conditional (write the output block): the key coordinate is 11. -/
abbrev cond1_1 (i : grid1.Coords) : Prop := k1_cond2 i = 1#1
theorem hcond1_1 : ∀ t : Fin cfg1.N, cond1_1 (grid1.coords t) ↔ t.val % 12 = 11 :=
  (by decide +kernel : ∀ t : Fin grid1.N, cond1_1 (grid1.coords t) ↔ t.val % 12 = 11)

/-- The output window is never idle at an input; at the output it is idle exactly off the last key block, and
    there the pipeline does not write it back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## Whole-buffer stores and loads

Every store of the body writes a whole buffer and every load reads one, so a buffer reads back as the payload of
the last store into it, and a load after a store reads that payload. -/

theorem zero2 : (![0, 0] : Fin 2 → ℕ) = fun _ => 0 := by
  funext a; fin_cases a <;> rfl

/-- After a list of stores whose last one covers the whole buffer, the buffer reads as that store's payload. -/
theorem read_whole_last {sg : RefSig} {κ : Kind} {sp : Space} {S : Shape} {e : EltTy} (v : View sg κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz inb]

/-- A whole-buffer load after such a list of stores reads that payload. -/
theorem readCov_whole_last {sg : RefSig} {κ : Kind} {sp : Space} {S : Shape} {e : EltTy} (v : View sg κ sp S e)
    {off : Fin S.rank → ℕ} (hz : off = fun _ => 0) (inb : ∀ a, off a + S.size a ≤ S.size a)
    (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon', View.canon_cons_unit_zero hz inb]
  exact View.ld_unit_zero hz inb w

/-- A whole-buffer load of a whole memref at read contents `X` reads `X`. -/
theorem readAt_whole_unread {sg : RefSig} {κ : Kind} {sp : Space} {S : Shape} {e : EltTy} {M : Memref sg κ sp S e}
    (h : M.IsWhole) {off : Fin S.rank → ℕ} (hz : off = fun _ => 0) (inb : ∀ a, off a + S.size a ≤ S.size a)
    (X : S.Idx → Elt F e) :
    M.view.readAt (Elt F) (Rect.unit off S.size inb).toLoadRect (h.unread X) = X := by
  show View.ld (M.view.read (Elt F) (h.unread X)) (Rect.unit off S.size inb) = X
  rw [h.read_unread, View.ld_unit_zero hz inb]

set_option maxHeartbeats 4000000 in
/-- The body at a point with key coordinate 0: the carried triple is re-initialized (whatever it held), then one step
    of the recurrence from the initial triple; the output block is handed back untouched. -/
theorem kernelRun1_A (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : cond1_0 i) (hc1 : ¬cond1_1 i)
    (q k : Vec F S1024x64 .bf16) (v : Vec F S1024x256 .bf16) (x : Vec F S1024x256 .f32)
    (xo : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ owns (c : Thread nD τ) arg6 fullShare xo
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare v
            ∗ owns (c : Thread nD τ) arg5 fullShare x ∗ owns (c : Thread nD τ) arg6 fullShare xo
            ∗ owns (c : Thread nD τ) arg7 fullShare (step_m q k init_m) ∗ owns (c : Thread nD τ) arg8 fullShare (step_l q k init_m init_l)
            ∗ owns (c : Thread nD τ) arg9 fullShare (step_acc q k v init_m init_acc)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_whole_last _ _ zero2 _ _ _).trans ?_
    unfold step_m init_m
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H8]
  · iexists _; isplitr
    swap; · iexact H8
    ipureintro
    refine (read_whole_last _ _ zero2 _ _ _).trans ?_
    unfold step_l init_m init_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  iexists _; isplitr
  swap; · iexact H9
  ipureintro
  refine (read_whole_last _ _ zero2 _ _ _).trans ?_
  unfold step_acc init_m init_acc
  sl_unfold_run_names
  simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]

set_option maxHeartbeats 4000000 in
/-- The body at a point with key coordinate strictly between 0 and 11: no re-initialization, no output store. The three
    carried buffers go from `(m, l, a)` to one step of the recurrence; the output block is handed back untouched. -/
theorem kernelRun1_B (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : ¬cond1_1 i)
    (q k : Vec F S1024x64 .bf16) (v : Vec F S1024x256 .bf16) (x : Vec F S1024x256 .f32)
    (m l : Vec F S1024x1 .f32) (a : Vec F S1024x256 .f32) (xo : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ owns (c : Thread nD τ) arg6 fullShare xo
        ∗ owns (c : Thread nD τ) arg7 fullShare m ∗ owns (c : Thread nD τ) arg8 fullShare l ∗ owns (c : Thread nD τ) arg9 fullShare a
        ∗ (iprop(owns (c : Thread nD τ) arg2 fullShare q ∗ owns (c : Thread nD τ) arg3 fullShare k ∗ owns (c : Thread nD τ) arg4 fullShare v
            ∗ owns (c : Thread nD τ) arg5 fullShare x ∗ owns (c : Thread nD τ) arg6 fullShare xo
            ∗ owns (c : Thread nD τ) arg7 fullShare (step_m q k m) ∗ owns (c : Thread nD τ) arg8 fullShare (step_l q k m l)
            ∗ owns (c : Thread nD τ) arg9 fullShare (step_acc q k v m a)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_whole_last _ _ zero2 _ _ _).trans ?_
    unfold step_m
    sl_unfold_run_names
    simp only [readAt_whole_unread harg2 zero2, readAt_whole_unread harg3 zero2, readAt_whole_unread harg4 zero2, readAt_whole_unread harg5 zero2, readAt_whole_unread harg7 zero2, readAt_whole_unread harg8 zero2, readAt_whole_unread harg9 zero2]
  isplitl [H8]
  · iexists _; isplitr
    swap; · iexact H8
    ipureintro
    refine (read_whole_last _ _ zero2 _ _ _).trans ?_
    unfold step_l
    simp only [readAt_whole_unread harg2 zero2, readAt_whole_unread harg3 zero2, readAt_whole_unread harg4 zero2, readAt_whole_unread harg5 zero2, readAt_whole_unread harg7 zero2, readAt_whole_unread harg8 zero2, readAt_whole_unread harg9 zero2]
  iexists _; isplitr
  swap; · iexact H9
  ipureintro
  refine (read_whole_last _ _ zero2 _ _ _).trans ?_
  unfold step_acc
  sl_unfold_run_names
  simp only [readAt_whole_unread harg2 zero2, readAt_whole_unread harg3 zero2, readAt_whole_unread harg4 zero2, readAt_whole_unread harg5 zero2, readAt_whole_unread harg7 zero2, readAt_whole_unread harg8 zero2, readAt_whole_unread harg9 zero2]

set_option maxHeartbeats 4000000 in
/-- The body at a point with key coordinate 11: one step of the recurrence, then the output block (whatever it held)
    is written from the new accumulator, the new sum and the feature block. -/
theorem kernelRun1_C (c : Dev nD) (i : grid1.Coords) (arg2 : Memref sig .tc .vmem S1024x64 .bf16) (harg2 : arg2.IsWhole) (arg3 : Memref sig .tc .vmem S1024x64 .bf16) (harg3 : arg3.IsWhole) (arg4 : Memref sig .tc .vmem S1024x256 .bf16) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x256 .f32) (harg9 : arg9.IsWhole) (hc0 : ¬cond1_0 i) (hc1 : cond1_1 i)
    (q k : Vec F S1024x64 .bf16) (v : Vec F S1024x256 .bf16) (x : Vec F S1024x256 .f32)
    (m l : Vec F S1024x1 .f32) (a : Vec F S1024x256 .f32) (E : Set ℕ) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare x ∗ (∃ d, owns (c : Thread nD τ) arg6 fullShare d)
        ∗ owns (c : Thread nD τ) arg7 fullShare m ∗ owns (c : Thread nD τ) arg8 fullShare l ∗ owns (c : Thread nD τ) arg9 fullShare a
        ∗ (iprop(owns (c : Thread nD τ) arg2 fullShare q ∗ owns (c : Thread nD τ) arg3 fullShare k ∗ owns (c : Thread nD τ) arg4 fullShare v
            ∗ owns (c : Thread nD τ) arg5 fullShare x
            ∗ owns (c : Thread nD τ) arg6 fullShare (fin_out (step_acc q k v m a) (step_l q k m l) x)
            ∗ owns (c : Thread nD τ) arg7 fullShare (step_m q k m) ∗ owns (c : Thread nD τ) arg8 fullShare (step_l q k m l)
            ∗ owns (c : Thread nD τ) arg9 fullShare (step_acc q k v m a)) -∗ K ⟨⟩))
      ⊢ wp frame (wpE (defs₀ (F := F)) Variants.none c none) E (cc1_attn_kernel i arg2 harg2 arg3 harg3 arg4 harg4 arg5 harg5 arg6 harg6 arg7 harg7 arg8 harg8 arg9 harg9) K := by
  simp only [cc1_attn_kernel_eq_skeleton]; unfold cc1_attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg7.eq_unread hf7
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_whole_last _ _ zero2 _ _ _).trans ?_
    unfold fin_out step_acc step_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H7]
  · iexists _; isplitr
    swap; · iexact H7
    ipureintro
    refine (read_whole_last _ _ zero2 _ _ _).trans ?_
    unfold step_m
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  isplitl [H8]
  · iexists _; isplitr
    swap; · iexact H8
    ipureintro
    refine (read_whole_last _ _ zero2 _ _ _).trans ?_
    unfold step_l
    sl_unfold_run_names
    simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
  iexists _; isplitr
  swap; · iexact H9
  ipureintro
  refine (read_whole_last _ _ zero2 _ _ _).trans ?_
  unfold step_acc
  sl_unfold_run_names
  simp only [readAt_whole_unread harg2 zero2, readAt_whole_unread harg3 zero2, readAt_whole_unread harg4 zero2, readAt_whole_unread harg5 zero2, readAt_whole_unread harg6 zero2, readAt_whole_unread harg7 zero2, readAt_whole_unread harg8 zero2, readAt_whole_unread harg9 zero2, readCov_whole_last arg6.view zero2, readCov_whole_last arg7.view zero2, readCov_whole_last arg8.view zero2, readCov_whole_last arg9.view zero2]
section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The state after each point -/

/-- What the output staging block and the three carried buffers hold after the body at position `n`: one step of the
    recurrence on the blocks at `n`, from the initial triple when the key coordinate is 0, else from what position
    `n - 1` left. -/
def stateAt1 (c : Dev nD) : (n : ℕ) → n < cfg1.N →
    Vec F S1024x256 .f32 × Vec F S1024x1 .f32 × Vec F S1024x1 .f32 × Vec F S1024x256 .f32
  | 0, hn => stepAll (iblk1 V c 0 ⟨0, hn⟩) (iblk1 V c 1 ⟨0, hn⟩) (iblk1 V c 2 ⟨0, hn⟩) (iblk1 V c 3 ⟨0, hn⟩) (init_m, init_l, init_acc)
  | n + 1, hn =>
    if (n + 1) % 12 = 0 then
      stepAll (iblk1 V c 0 ⟨n + 1, hn⟩) (iblk1 V c 1 ⟨n + 1, hn⟩) (iblk1 V c 2 ⟨n + 1, hn⟩) (iblk1 V c 3 ⟨n + 1, hn⟩) (init_m, init_l, init_acc)
    else
      stepAll (iblk1 V c 0 ⟨n + 1, hn⟩) (iblk1 V c 1 ⟨n + 1, hn⟩) (iblk1 V c 2 ⟨n + 1, hn⟩) (iblk1 V c 3 ⟨n + 1, hn⟩) (stateAt1 c n (Nat.lt_of_succ_lt hn)).2

/-- At a point with key coordinate 0 the step starts from the initial triple. -/
theorem stateAt1_A (c : Dev nD) (t : Fin cfg1.N) (h0 : t.val % 12 = 0) :
    stateAt1 V c t.val t.isLt
      = stepAll (iblk1 V c 0 t) (iblk1 V c 1 t) (iblk1 V c 2 t) (iblk1 V c 3 t) (init_m, init_l, init_acc) := by
  obtain ⟨n, hn⟩ := t
  cases n with
  | zero => rfl
  | succ n => exact if_pos h0

/-- At a point with key coordinate strictly between 0 and 11 the step starts from what the point before left. -/
theorem stateAt1_B (c : Dev nD) (t : Fin cfg1.N) (h0 : ¬t.val % 12 = 0) (h1 : ¬t.val % 12 = 11) :
    stateAt1 V c t.val t.isLt
      = stepAll (iblk1 V c 0 t) (iblk1 V c 1 t) (iblk1 V c 2 t) (iblk1 V c 3 t)
          (stateAt1 V c (t.val - 1) (Nat.lt_of_le_of_lt (Nat.sub_le _ _) t.isLt)).2 := by
  obtain ⟨n, hn⟩ := t
  cases n with
  | zero => exact absurd (Nat.zero_mod _) h0
  | succ n => exact if_neg h0

/-- At a point with key coordinate 11 the same, and the output component is the block written back. -/
theorem stateAt1_C (c : Dev nD) (t : Fin cfg1.N) (h0 : ¬t.val % 12 = 0) (h1 : t.val % 12 = 11) :
    stateAt1 V c t.val t.isLt
      = stepAll (iblk1 V c 0 t) (iblk1 V c 1 t) (iblk1 V c 2 t) (iblk1 V c 3 t)
          (stateAt1 V c (t.val - 1) (Nat.lt_of_le_of_lt (Nat.sub_le _ _) t.isLt)).2 := by
  obtain ⟨n, hn⟩ := t
  cases n with
  | zero => exact absurd (Nat.zero_mod _) h0
  | succ n => exact if_neg h0

/-! ## The invariant carried between points -/

/-- The three buffers the body carries from one point to the next: running maximum, running sum, accumulator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

/-- The core's other scoped buffers that this region stages nothing through (the first region's staging buffers), each
    whole at some contents: untouched by the body. -/
def rest19 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg9_0), ((c : Thread nD τ).loc cc0_stg9_0) ↦{fullShare} f)
    ∗ (∃ f : Buf (Elt F) ((c : Thread nD τ).loc cc0_stg10_0), ((c : Thread nD τ).loc cc0_stg10_0) ↦{fullShare} f)
    ∗ (∃ f : Buf (Elt F) ((c : Thread nD τ).loc cc0_stg11_0), ((c : Thread nD τ).loc cc0_stg11_0) ↦{fullShare} f)
    ∗ (∃ f : Buf (Elt F) ((c : Thread nD τ).loc cc0_stg11_1), ((c : Thread nD τ).loc cc0_stg11_1) ↦{fullShare} f)
    ∗ (∃ f : Buf (Elt F) ((c : Thread nD τ).loc cc0_stg12_0), ((c : Thread nD τ).loc cc0_stg12_0) ↦{fullShare} f)
    ∗ (∃ f : Buf (Elt F) ((c : Thread nD τ).loc cc0_stg12_1), ((c : Thread nD τ).loc cc0_stg12_1) ↦{fullShare} f)
    ∗ (∃ f : Buf (Elt F) ((c : Thread nD τ).loc cc0_stg13_0), ((c : Thread nD τ).loc cc0_stg13_0) ↦{fullShare} f)
    ∗ (∃ f : Buf (Elt F) ((c : Thread nD τ).loc cc0_stg13_1), ((c : Thread nD τ).loc cc0_stg13_1) ↦{fullShare} f))

/-- The invariant before position `n`: the other scoped buffers and the generator register at anything throughout;
    before the first point the three carried buffers hold anything, afterwards they hold the running maximum, sum
    and accumulator the point before left. -/
def PhiS (c : Dev nD) : (n : ℕ) → n ≤ cfg1.N → sProp 𝕄
  | 0, _ => iprop(rest19 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r))
  | n + 1, hn => iprop(rest19 (F := F) c ∗ owns (c : Thread nD τ) scM1_0 fullShare (stateAt1 V c n hn).2.1
      ∗ owns (c : Thread nD τ) scM1_1 fullShare (stateAt1 V c n hn).2.2.1
      ∗ owns (c : Thread nD τ) scM1_2 fullShare (stateAt1 V c n hn).2.2.2 ∗ (∃ r, prngReg c r))

theorem PhiS_zero (c : Dev nD) (n : ℕ) (h : n ≤ cfg1.N) (hz : n = 0) :
    PhiS V c n h = iprop(rest19 (F := F) c ∗ (∃ d, owns (c : Thread nD τ) scM1_0 fullShare d) ∗ (∃ d, owns (c : Thread nD τ) scM1_1 fullShare d)
      ∗ (∃ d, owns (c : Thread nD τ) scM1_2 fullShare d) ∗ (∃ r, prngReg c r)) := by
  subst hz; rfl

theorem PhiS_succ (c : Dev nD) (n : ℕ) (hn : n < cfg1.N) :
    PhiS V c (n + 1) hn = iprop(rest19 (F := F) c ∗ owns (c : Thread nD τ) scM1_0 fullShare (stateAt1 V c n hn).2.1
      ∗ owns (c : Thread nD τ) scM1_1 fullShare (stateAt1 V c n hn).2.2.1
      ∗ owns (c : Thread nD τ) scM1_2 fullShare (stateAt1 V c n hn).2.2.2 ∗ (∃ r, prngReg c r)) := rfl

theorem PhiS_pos (c : Dev nD) (n : ℕ) (h : n ≤ cfg1.N) (hz : n ≠ 0) :
    PhiS V c n h = iprop(rest19 (F := F) c ∗ owns (c : Thread nD τ) scM1_0 fullShare (stateAt1 V c (n - 1) (by omega)).2.1
      ∗ owns (c : Thread nD τ) scM1_1 fullShare (stateAt1 V c (n - 1) (by omega)).2.2.1
      ∗ owns (c : Thread nD τ) scM1_2 fullShare (stateAt1 V c (n - 1) (by omega)).2.2.2 ∗ (∃ r, prngReg c r)) := by
  cases n with
  | zero => exact absurd rfl hz
  | succ n => rfl

/-- The scoped buffers no window of this region stages, with the generator register at some state, are the invariant
    before the first point, -/
theorem rest_entry (c : Dev nD) :
    (Pipeline.ΦA (U := UR sig nD τ) (Val := Elt F) spec1 c : sProp 𝕄) ⊢ PhiS V c 0 (Nat.zero_le _) := by
  unfold Pipeline.ΦA
  rw [scopedRest1_eq, PhiS_zero V c 0 _ rfl]
  simp only [owns_whole]
  unfold rest19
  iintro ⟨⟨R0, R1, R2, R3, R4, R5, R6, R7, R8, R9, R10, R11, R12, R13, R14, R15, R16, R17, R18, S0, S1, S2⟩, Hg⟩
  isplitl [R0 R1 R2 R3 R4 R5 R6 R7 R8 R9 R10 R11 R12 R13 R14 R15 R16 R17 R18]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    iexact R18
  isplitl [S0]; · iexact S0
  isplitl [S1]; · iexact S1
  isplitl [S2]; · iexact S2
  iexact Hg

/-- and the invariant at any position gives both back, the carried contents forgotten. -/
theorem rest_exit (c : Dev nD) (n : ℕ) (h : n ≤ cfg1.N) :
    PhiS V c n h ⊢ (Pipeline.ΦA (U := UR sig nD τ) (Val := Elt F) spec1 c : sProp 𝕄) := by
  unfold Pipeline.ΦA
  rw [scopedRest1_eq]
  cases n with
  | zero =>
    rw [PhiS_zero V c 0 _ rfl]
    simp only [owns_whole]
    unfold rest19
    iintro ⟨⟨R0, R1, R2, R3, R4, R5, R6, R7, R8, R9, R10, R11, R12, R13, R14, R15, R16, R17, R18⟩, S0, S1, S2, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [S0]; · iexact S0
    isplitl [S1]; · iexact S1
    iexact S2
  | succ n =>
    rw [PhiS_succ]
    simp only [owns_whole]
    unfold rest19
    iintro ⟨⟨R0, R1, R2, R3, R4, R5, R6, R7, R8, R9, R10, R11, R12, R13, R14, R15, R16, R17, R18⟩, S0, S1, S2, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [S0]; · iexists _; iexact S0
    isplitl [S1]; · iexists _; iexact S1
    iexists _; iexact S2

/-! ## The pipeline's proof data -/

/-- The proof data of the attention region on core `c`: the arrays as the region finds them; after the body at point
    `t` each input's buffer at its block and the output's at the state's output component; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (stateAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (stateAt1 V c t.val t.isLt).1 := by dsimp only [dat1]

/-- An input window's current staging buffer holds its block at every point, fetched there or not: where it is not
    fetched its block index has not moved. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the key coordinate says which of the three cases the
    point is in; the invariant hands the body the carried triple (anything before the first point, else what the
    point before left) and takes it back one step of the recurrence later; the output block is stored only when
    the key coordinate is 11 and handed back untouched elsewhere. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 144 := lt_of_lt_of_eq t.isLt (show cfg1.N = 144 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val % 12 = 0
  · have h1 : ¬t.val % 12 = 11 := by omega
    rw [Dat.leavesExact_idle (dat1 V c) 4 t (idleAt1_4 t (fun h => h1 ((hcond1_1 t).mp h))) (noFlush1_4 t (fun h => h1 ((hcond1_1 t).mp h)))]
    rw [stateAt1_A V c t h0]
    dsimp only [stepAll]
    by_cases hz : t.val = 0
    · rw [PhiS_castSucc V c t, PhiS_zero V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 12 = 11
    · rw [show (dat1 V c).leavesExact 4 t = owns (c : Thread nD τ) (st1_4 t) fullShare ((dat1 V c).after 4 t) from by
        unfold Dat.leavesExact; rw [liveAt1_4 t ((hcond1_1 t).mpr h1)], after1_4]
      rw [stateAt1_C V c t h0 h1]
      dsimp only [stepAll]
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexact H4
    · rw [Dat.leavesExact_idle (dat1 V c) 4 t (idleAt1_4 t (fun h => h1 ((hcond1_1 t).mp h))) (noFlush1_4 t (fun h => h1 ((hcond1_1 t).mp h)))]
      rw [stateAt1_B V c t h0 h1]
      dsimp only [stepAll]
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩⟩
      iapply (kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HR HS0 HS1 HS2 Hg]
      · isplitl [HR]; · iexact HR
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The same as the loop uses it. -/
theorem body1 (c : Dev nD) : Pipeline.BodyObligationLoose (dat1 (F := F) V c) (defs₀ (F := F)) Variants.none () Set.univ :=
  (body_obligation1 V c).loose

theorem q_eq1 (c : Dev nD) (w : Fin cfg1.W) : (dat1 V c).q w = fullShare := rfl
theorem owed_eq1 (c : Dev nD) (t : Fin (cfg1.N + 1)) : (dat1 V c).owed t = 0 := rfl
theorem rec_eq1 (c : Dev nD) : (dat1 V c).recorded 0 = Set.univ := rfl

/-! ## Entering and leaving the region -/

/-- What the launch hands the region (the scoped rest and the generator register) is the invariant before the first
    point. -/
theorem Phi1_entry (c : Dev nD) :
    (Pipeline.ΦA (U := UR sig nD τ) (Val := Elt F) spec1 c : sProp 𝕄) ⊢ (dat1 V c).Φ 0 := by
  rw [show (dat1 V c).Φ 0 = PhiS V c 0 (Nat.zero_le _) from rfl]
  exact rest_entry V c

/-- The invariant after the last point gives it back, the carried contents forgotten. -/
theorem Phi1_exit (c : Dev nD) :
    (dat1 V c).Φ (Fin.last cfg1.N) ⊢ (Pipeline.ΦA (U := UR sig nD τ) (Val := Elt F) spec1 c : sProp 𝕄) := by
  rw [show (dat1 V c).Φ (Fin.last cfg1.N) = PhiS V c (Fin.last cfg1.N).val (Nat.le_of_lt_succ (Fin.last cfg1.N).isLt) from rfl]
  exact rest_exit V c _ _

end Region

end Cert.Kernel.Reg1

end
-- ==== Proof.RunBothInstBits.lean ====
/-
  The run of both regions at the projection region's and the attention region's proof data.
-/
import proofs.«174622_j3590592660316_1_alg».proof.Proof.RunBothBits
import proofs.«174622_j3590592660316_1_alg».proof.Proof.Region0Bits
import proofs.«174622_j3590592660316_1_alg».proof.Proof.Region1Bits

noncomputable section

namespace Cert.Kernel.RunBothInst

open Cert.Kernel Cert.Kernel.Gen Cert.Kernel.RunBoth
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- What region 0 is entered from: the launch contents after the three host stretches. -/
abbrev Ventry0 : Env (F := F) := Vin0 m
/-- What region 1 is entered from: the same with region 0's three output arrays at what region 0's write-backs leave,
    region 0's proof data being the projection kernel's. -/
abbrev Ventry1 : Env (F := F) := Vin1 m (fun V c => Reg0.dat0 V c)

/-- THE RUN WITH THE RESULT'S VALUE, at the two kernels' proof data: the result's buffer ends holding the attention
    kernel's output array after all its write-backs, that kernel being entered from what the projection kernel leaves;
    every argument ends as launched. -/
theorem run_value_inst : θ_run defs (onTc (τ := τ) (main (F := F))) ⟨m, fun _ => 0, ρ⟩ (fun r => ∀ c : Dev nD,
      r.2.mem ((c.tc : Thread nD τ).loc main_v23) = (Reg1.dat1 (Vin1 m (fun V c => Reg0.dat0 V c)) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_value m ρ (fun V c => Reg0.dat0 V c) (fun V c => Reg1.dat1 V c)
    Reg0.A_eq0 (fun _ _ _ => rfl) (fun _ _ _ => rfl) (fun _ _ => rfl)
    (fun V c => (Reg0.body_obligation0 V c).loose) (fun _ _ => .rfl) (fun _ _ => .rfl)
    Reg1.A_eq1 Reg1.q_eq1 Reg1.owed_eq1 Reg1.rec_eq1 Reg1.body1 Reg1.Phi1_entry Reg1.Phi1_exit

/-- THE FRAME: every argument ends as launched. -/
theorem frame_inst : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value_inst m ρ)

/-- Off the projection kernel's three output arrays, the attention kernel is entered from the contents after the host stretches. -/
theorem Ventry1_of (c : Dev nD) (r : Ref sig .tc) (h : r ∉ ([main_v22_0, main_v22_1, main_v22_2] : List (Ref sig .tc))) :
    Ventry1 m c r = Ventry0 m c r := Vin1_of m _ c r h
/-- At each of the three, from what the projection kernel's write-backs leave there. -/
theorem Ventry1_v22_0 (c : Dev nD) : Ventry1 m c main_v22_0 = (Reg0.dat0 (Ventry0 m) c).arrAt 11 cfg0.N := Vin1_v22_0 m _ c
theorem Ventry1_v22_1 (c : Dev nD) : Ventry1 m c main_v22_1 = (Reg0.dat0 (Ventry0 m) c).arrAt 12 cfg0.N := Vin1_v22_1 m _ c
theorem Ventry1_v22_2 (c : Dev nD) : Ventry1 m c main_v22_2 = (Reg0.dat0 (Ventry0 m) c).arrAt 13 cfg0.N := Vin1_v22_2 m _ c

end Cert.Kernel.RunBothInst

end
-- ==== Proof.AttnBlocks.lean ====
/-
  The attention step's blocks, read back to their arrays.

  The step runs over 144 points, point `t` being query tile `t / 12` against key tile `t % 12`. The query block and
  the feature block at point `t` are rows `1024 · (t / 12) …` of their arrays, the key block and the value block rows
  `1024 · (t % 12) …`; the result block is rows `1024 · (t / 12) …` of the result, written back at the last key tile of
  each query tile. These are facts about the index maps alone: each block element is named as an element of its array,
  and the result array is whatever function every write-back agrees with, since the written blocks cover it.
-/
import proofs.«174622_j3590592660316_1_alg».proof.Proof.Gen.KernelIdeal.Launch
import proofs.«174622_j3590592660316_1_alg».proof.Proof.Gen.KernelIdeal.Points
import Idealize.ShloMosaic.Lib.Pipeline.Value
import Idealize.ShloMosaic.Lib.ValueIdx

noncomputable section

namespace Cert.KernelIdeal.AttnBlocks

open Cert.KernelIdeal Cert.KernelIdeal.Gen Idealize.ShloMosaic Idealize.ShloMosaic.ValueIdx
open Idealize.ShloMosaic.TcCoe Idealize.SL Idealize.SL.RA Idealize.SL.Sem
open Idealize.ShloMosaic.Pipeline (Dat)

variable {F : FTy → Type} [FloatOps F]

/-- The block indices at point `t`: the query, feature and result blocks follow `t / 12`, the key and value blocks
    `t % 12`; every block spans all columns. -/
theorem idx_facts1 : ∀ t : Fin cfg1.N, win1_0.index t (0 : Fin 2) = t.val / 12 ∧ win1_0.index t (1 : Fin 2) = 0
    ∧ win1_1.index t (0 : Fin 2) = t.val % 12 ∧ win1_1.index t (1 : Fin 2) = 0
    ∧ win1_2.index t (0 : Fin 2) = t.val % 12 ∧ win1_2.index t (1 : Fin 2) = 0
    ∧ win1_3.index t (0 : Fin 2) = t.val / 12 ∧ win1_3.index t (1 : Fin 2) = 0
    ∧ win1_4.index t (0 : Fin 2) = t.val / 12 ∧ win1_4.index t (1 : Fin 2) = 0 :=
  (by decide +kernel : ∀ t : Fin grid1.N, _)

/-- A row of query tile `t / 12` is a row of the array. -/
theorem row_lt (t : Fin cfg1.N) (r : Fin 1024) : t.val / 12 * 1024 + r.val < 12288 := by
  have hN : cfg1.N = 144 := N_1
  have ht := t.isLt
  have hr := r.isLt
  omega

/-- A row of key tile `t % 12` is a row of the array. -/
theorem tile_lt (t : Fin cfg1.N) (j : Fin 1024) : j.val + 1024 * (t.val % 12) < 12288 := by
  have hj := j.isLt
  omega

/-- The query block at point `t` is rows `1024 · (t / 12) …` of the query array. -/
theorem read1_0 (A : S12288x64.Idx → Elt F .bf16) (t : Fin cfg1.N) (r : Fin 1024) (c : Fin 64)
    (h : t.val / 12 * 1024 + r.val < 12288) :
    ((cfg1.win 0).blk t).view.read (Elt F) A (ix2 r c) = A (ix2 (⟨t.val / 12 * 1024 + r.val, h⟩ : Fin 12288) c) := by
  obtain ⟨e0, e1, -⟩ := idx_facts1 t
  rw [View.read_apply]
  show A (((cfg1.win 0).blk t).view.emb (ix2 r c)) = _
  refine congrArg A (funext fun a => Fin.ext ?_)
  match a with
  | ⟨0, _⟩ => show win1_0.index t (0 : Fin 2) * 1024 + 1 * r.val = t.val / 12 * 1024 + r.val; rw [e0]; omega
  | ⟨1, _⟩ => show win1_0.index t (1 : Fin 2) * 64 + 1 * c.val = c.val; rw [e1]; omega

/-- The key block at point `t` is rows `1024 · (t % 12) …` of the key array. -/
theorem read1_1 (A : S12288x64.Idx → Elt F .bf16) (t : Fin cfg1.N) (j : Fin 1024) (c : Fin 64)
    (h : j.val + 1024 * (t.val % 12) < 12288) :
    ((cfg1.win 1).blk t).view.read (Elt F) A (ix2 j c) = A (ix2 (⟨j.val + 1024 * (t.val % 12), h⟩ : Fin 12288) c) := by
  obtain ⟨-, -, e0, e1, -⟩ := idx_facts1 t
  rw [View.read_apply]
  show A (((cfg1.win 1).blk t).view.emb (ix2 j c)) = _
  refine congrArg A (funext fun a => Fin.ext ?_)
  match a with
  | ⟨0, _⟩ => show win1_1.index t (0 : Fin 2) * 1024 + 1 * j.val = j.val + 1024 * (t.val % 12); rw [e0]; omega
  | ⟨1, _⟩ => show win1_1.index t (1 : Fin 2) * 64 + 1 * c.val = c.val; rw [e1]; omega

/-- The value block at point `t` is rows `1024 · (t % 12) …` of the value array. -/
theorem read1_2 (A : S12288x256.Idx → Elt F .bf16) (t : Fin cfg1.N) (j : Fin 1024) (d : Fin 256)
    (h : j.val + 1024 * (t.val % 12) < 12288) :
    ((cfg1.win 2).blk t).view.read (Elt F) A (ix2 j d) = A (ix2 (⟨j.val + 1024 * (t.val % 12), h⟩ : Fin 12288) d) := by
  obtain ⟨-, -, -, -, e0, e1, -⟩ := idx_facts1 t
  rw [View.read_apply]
  show A (((cfg1.win 2).blk t).view.emb (ix2 j d)) = _
  refine congrArg A (funext fun a => Fin.ext ?_)
  match a with
  | ⟨0, _⟩ => show win1_2.index t (0 : Fin 2) * 1024 + 1 * j.val = j.val + 1024 * (t.val % 12); rw [e0]; omega
  | ⟨1, _⟩ => show win1_2.index t (1 : Fin 2) * 256 + 1 * d.val = d.val; rw [e1]; omega

/-- The feature block at point `t` is rows `1024 · (t / 12) …` of the feature array. -/
theorem read1_3 (A : S12288x256.Idx → Elt F .f32) (t : Fin cfg1.N) (r : Fin 1024) (d : Fin 256)
    (h : t.val / 12 * 1024 + r.val < 12288) :
    ((cfg1.win 3).blk t).view.read (Elt F) A (ix2 r d) = A (ix2 (⟨t.val / 12 * 1024 + r.val, h⟩ : Fin 12288) d) := by
  obtain ⟨-, -, -, -, -, -, e0, e1, -⟩ := idx_facts1 t
  rw [View.read_apply]
  show A (((cfg1.win 3).blk t).view.emb (ix2 r d)) = _
  refine congrArg A (funext fun a => Fin.ext ?_)
  match a with
  | ⟨0, _⟩ => show win1_3.index t (0 : Fin 2) * 1024 + 1 * r.val = t.val / 12 * 1024 + r.val; rw [e0]; omega
  | ⟨1, _⟩ => show win1_3.index t (1 : Fin 2) * 256 + 1 * d.val = d.val; rw [e1]; omega

/-- The result block at point `t` is rows `1024 · (t / 12) …` of the result array. -/
theorem read1_4 (A : S12288x256.Idx → Elt F .f32) (t : Fin cfg1.N) (r : Fin 1024) (d : Fin 256)
    (h : t.val / 12 * 1024 + r.val < 12288) :
    ((cfg1.win 4).blk t).view.read (Elt F) A (ix2 r d) = A (ix2 (⟨t.val / 12 * 1024 + r.val, h⟩ : Fin 12288) d) := by
  obtain ⟨-, -, -, -, -, -, -, -, e0, e1⟩ := idx_facts1 t
  rw [View.read_apply]
  show A (((cfg1.win 4).blk t).view.emb (ix2 r d)) = _
  refine congrArg A (funext fun a => Fin.ext ?_)
  match a with
  | ⟨0, _⟩ => show win1_4.index t (0 : Fin 2) * 1024 + 1 * r.val = t.val / 12 * 1024 + r.val; rw [e0]; omega
  | ⟨1, _⟩ => show win1_4.index t (1 : Fin 2) * 256 + 1 * d.val = d.val; rw [e1]; omega

/-- An index of the result array is in point `t`'s block iff each coordinate is in the block's range on its axis. -/
theorem mem_blk1_4_axes (t : Fin cfg1.N) (i : S12288x256.Idx) :
    i ∈ ((cfg1.win 4).blk t).view.set ↔ ∀ a : Fin 2, win1_4.index t a * S1024x256.size a ≤ (i a).val
      ∧ (i a).val < win1_4.index t a * S1024x256.size a + S1024x256.size a := by
  show i ∈ ((View.whole main_v23).slice (win1_4.rect t)).set ↔ _
  rw [View.set_slice_whole, Rect.mem_set_unit]
  exact Iff.rfl

/-- … that is, iff its row is one of the 1024 rows from `1024 · (t / 12)` on. -/
theorem mem_blk1_4 (t : Fin cfg1.N) (i : S12288x256.Idx) :
    i ∈ ((cfg1.win 4).blk t).view.set ↔ t.val / 12 * 1024 ≤ (i 0).val ∧ (i 0).val < t.val / 12 * 1024 + 1024 := by
  obtain ⟨-, -, -, -, -, -, -, -, e0, e1⟩ := idx_facts1 t
  have hi1 : (i 1).val < 256 := (i 1).isLt
  rw [mem_blk1_4_axes]
  constructor
  · intro hi
    have b0 : win1_4.index t (0 : Fin 2) * 1024 ≤ (i 0).val ∧ (i 0).val < win1_4.index t (0 : Fin 2) * 1024 + 1024 := hi 0
    rw [e0] at b0
    exact b0
  · intro hi a
    match a with
    | ⟨0, _⟩ =>
      show win1_4.index t (0 : Fin 2) * 1024 ≤ (i 0).val ∧ (i 0).val < win1_4.index t (0 : Fin 2) * 1024 + 1024
      rw [e0]; exact hi
    | ⟨1, _⟩ =>
      show win1_4.index t (1 : Fin 2) * 256 ≤ (i 1).val ∧ (i 1).val < win1_4.index t (1 : Fin 2) * 256 + 256
      rw [e1]; omega

/-- Every index of the result array is in the block written back at the last key tile of its query tile. -/
theorem cover1_4 (i : S12288x256.Idx) :
    ∃ t : Fin cfg1.N, (cfg1.win 4).flush t = true ∧ i ∈ ((cfg1.win 4).blk t).view.set := by
  have hN : cfg1.N = 144 := N_1
  have hi0 : (i 0).val < 12288 := (i 0).isLt
  refine ⟨⟨12 * ((i 0).val / 1024) + 11, by omega⟩, ?_, ?_⟩
  · rw [flush1_4]
    show (12 * ((i 0).val / 1024) + 11) % 12 = 11
    omega
  · rw [mem_blk1_4]
    show (12 * ((i 0).val / 1024) + 11) / 12 * 1024 ≤ (i 0).val ∧ (i 0).val < (12 * ((i 0).val / 1024) + 11) / 12 * 1024 + 1024
    omega

section Final
variable {Ix : Type} [DecidableEq Ix] {U : Type} [URA U] {Lvl : Type}

/-- The result array after the run is any function `G` whose block every write-back wrote. -/
theorem final1_4 {c : Dev nD} (dat : Dat τ (Elt F) Ix ℕ U Lvl cfg1 c) (G : S12288x256.Idx → Elt F .f32)
    (hfl : ∀ t : Fin cfg1.N, (cfg1.win 4).flush t = true → dat.flushed 4 t = ((cfg1.win 4).blk t).view.read (Elt F) G) :
    dat.arrAt 4 cfg1.N = G :=
  dat.arrAt_eq_of_cover 4 G hfl cover1_4

end Final

end Cert.KernelIdeal.AttnBlocks

end
-- ==== Proof.Spec.lean ====
/-
  The mathematics both programs compute, over the extended reals, written once with explicit coordinates.

  Rows are the 12288 points, `f` their 256 features, `cn` their 3 normalized coordinates. A row is scaled by
  one over (its Euclidean norm plus eps); the scaled features and the coordinates, side by side, are the 259
  entries of a point, from which the query, key and value rows are affine images. The score of a pair of
  points is the clamped eighth of the inner product of query and key; a row of scores is turned into
  weights by subtracting its maximum, exponentiating, and dividing by (the row's sum plus eps); the
  result is the weighted sum of the value rows plus the point's own features.
-/
import Idealize.ShloMosaic.PureOps.Ideal
import Mathlib.Algebra.BigOperators.Fin

noncomputable section

namespace Cert.Spec

open Idealize.ShloMosaic

/-- The three float literals the programs share, as the extended reals their words denote. -/
abbrev eps : EReal := Ideal.ofBits .f32 0x358637BD#32
abbrev lo : EReal := Ideal.ofBits .f32 0xC2C80000#32
abbrev hi : EReal := Ideal.ofBits .f32 0x42C80000#32

/-- The clamp to the interval between `lo` and `hi`. -/
def clamp (x : EReal) : EReal := min hi (max lo x)

/-- A point's coordinates over the stride (the stride kept at least eps), clamped; `ci` is the integer
    coordinate already read as a real. -/
def coordsN (ci : Fin 12288 → Fin 3 → EReal) (ts : Fin 3 → EReal) (i : Fin 12288) (a : Fin 3) : EReal :=
  clamp (Ideal.div (ci i a) (max (ts a) eps))

/-- A row's sum of squares. -/
def sumSq (f : Fin 12288 → Fin 256 → EReal) (i : Fin 12288) : EReal := ∑ d : Fin 256, f i d * f i d

/-- A row over (its norm plus eps). -/
def featN (f : Fin 12288 → Fin 256 → EReal) (i : Fin 12288) (d : Fin 256) : EReal :=
  Ideal.div (f i d) (Ideal.sqrt (sumSq f i) + eps)

/-- An affine image of a point, the weight matrix given as its first 256 rows `Wf` (against the scaled
    features) and its last 3 rows `Wc` (against the coordinates): the sum over all 259 entries, split where
    the two parts meet. -/
def proj {n : ℕ} (x : Fin 12288 → Fin 256 → EReal) (cn : Fin 12288 → Fin 3 → EReal)
    (Wf : Fin 256 → Fin n → EReal) (Wc : Fin 3 → Fin n → EReal) (b : Fin n → EReal) (i : Fin 12288) (k : Fin n) : EReal :=
  (∑ d : Fin 256, x i d * Wf d k + ∑ a : Fin 3, cn i a * Wc a k) + b k

/-- The clamped score of a pair of points: the inner product of query and key times `s` (one eighth). -/
def score (s : EReal) (q k : Fin 12288 → Fin 64 → EReal) (i j : Fin 12288) : EReal :=
  clamp ((∑ c : Fin 64, q i c * k j c) * s)

/-- A row's largest score (the supremum over the row; `⊥` is the empty maximum). -/
def rowMax (S : Fin 12288 → Fin 12288 → EReal) (i : Fin 12288) : EReal := Finset.univ.sup (S i)

/-- The unnormalized weight of point `j` for point `i`. -/
def ew (S : Fin 12288 → Fin 12288 → EReal) (i j : Fin 12288) : EReal := Ideal.exp (S i j - rowMax S i)

/-- The row's normalizer: the sum of its unnormalized weights, plus eps. -/
def den (S : Fin 12288 → Fin 12288 → EReal) (i : Fin 12288) : EReal := (∑ j : Fin 12288, ew S i j) + eps

/-- The result: the weighted sum of the value rows, each weight divided by the normalizer first, plus the
    point's own features. -/
def out (S : Fin 12288 → Fin 12288 → EReal) (v : Fin 12288 → Fin 256 → EReal) (f : Fin 12288 → Fin 256 → EReal)
    (i : Fin 12288) (d : Fin 256) : EReal :=
  (∑ j : Fin 12288, Ideal.div (ew S i j) (den S i) * v j d) + f i d

end Cert.Spec

end
-- ==== Proof.AttnPayload.lean ====
/-
  The flash-attention step's arithmetic, read at an index over the extended reals.

  One step sees a block of 1024 query rows `q`, a block of 1024 key rows `k`, the value rows of the same key block,
  and three running quantities per query row: the running maximum, the running sum and the running weighted sum of value
  rows. Its score of query row `r` against key row `j` is the clamped eighth of their inner product; the new maximum is
  the larger of the old one and the row's largest score; the old sum and the old weighted sum are scaled by the
  exponential of (old maximum − new maximum) and the block's exponentials of (score − new maximum), respectively their
  products with the value rows, are added. Each lemma below says what one of those quantities is at explicit coordinates.
-/
import proofs.«174622_j3590592660316_1_alg».proof.Proof.Gen.KernelIdeal.Skeleton
import proofs.«174622_j3590592660316_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnPayload

open Cert.KernelIdeal Cert.KernelIdeal.Gen Idealize.ShloMosaic Idealize.ShloMosaic.ValueIdx

/-- One eighth, as the extended real its word denotes. -/
abbrev s8 : EReal := Ideal.ofBits .f32 0x3E000000#32

/-- The clamped score of query row `r` against key row `j` of the two blocks. -/
def Sc (v3 v5 : FVec Ideal S1024x64 .bf16) (r j : Fin 1024) : EReal :=
  Cert.Spec.clamp ((∑ c : Fin 64, v3 (ix2 r c) * v5 (ix2 j c)) * s8)

/-! ## Layout operations and reductions at explicit coordinates -/

section Layout
variable {α : Type}

/-- A column `[a, 1]` broadcast along the second axis reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The index of a matrix over row `r` of its row-wise reduction, with column `k` put back, is `(r, k)`. -/
theorem lift_ix1 {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

end Layout

/-- The word of minus infinity denotes the bottom element. -/
theorem ofBits_ninf_f32 : Ideal.ofBits .f32 0xFF800000#32 = ⊥ := by
  simp [Ideal.ofBits, Ideal.ieee]

/-- A fold of `max` from the bottom element is the supremum. -/
theorem fold_max_bot_eq_sup {ι : Type} (s : Finset ι) (f : ι → EReal) : s.fold max ⊥ f = s.sup f := rfl

/-- A row-wise sum of a `1024 × 1024` matrix at row `r`. -/
theorem rowSum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ j : Fin 1024, src (ix2 r j) :=
  (Ideal.multiReduction_add_single src _ reduces_S1024x1024_S1024 hφ hacc (ix1 r)).trans
    (Finset.sum_congr rfl fun k _ => congrArg src (lift_ix1 reduces_S1024x1024_S1024 r k))

/-- A row-wise maximum of a `1024 × 1024` matrix, started from minus infinity, at row `r`. -/
theorem rowMax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = Finset.univ.sup fun j : Fin 1024 => src (ix2 r j) := by
  refine (Ideal.multiReduction_maximumf_single src _ reduces_S1024x1024_S1024 hφ hacc (ix1 r)).trans ?_
  have e : src ∘ reduces_S1024x1024_S1024.lift (ix1 r) = fun j : Fin 1024 => src (ix2 r j) :=
    funext fun k => congrArg src (lift_ix1 reduces_S1024x1024_S1024 r k)
  rw [e]
  show Finset.fold max (Ideal.ofBits .f32 0xFF800000#32) _ _ = _
  rw [ofBits_ninf_f32]
  exact fold_max_bot_eq_sup _ _

/-! ## The two matrix products at explicit coordinates -/

/-- The dimension numbers of the product of queries with transposed keys, and of weights with values: rows times
    columns, one contracted axis. -/
abbrev dotQK := dot_S1024x64_S64x1024_S1024x1024_1_0_0_1_n_n
abbrev dotPV := dot_S1024x1024_S1024x256_S1024x256_1_0_0_1_n_n

theorem lhsQK_0 (i : S1024x1024.Idx) (q : dotQK.contr.Idx) : (dotQK.lhsIdx i q 0).val = (i 0).val := by
  unfold DotDims.lhsIdx
  rw [dif_neg (show ¬(0 : Fin S1024x64.rank) ∈ dotQK.lhsBatch by decide),
    dif_pos (show (0 : Fin S1024x64.rank) ∈ dotQK.lhsNonContracting by decide)]
  rfl
theorem lhsQK_1 (i : S1024x1024.Idx) (q : dotQK.contr.Idx) : (dotQK.lhsIdx i q 1).val = (q ⟨0, by decide⟩).val :=
  dotQK.lhsIdx_val_of_single rfl i q
theorem rhsQK_0 (i : S1024x1024.Idx) (q : dotQK.contr.Idx) : (dotQK.rhsIdx i q 0).val = (q ⟨0, by decide⟩).val :=
  dotQK.rhsIdx_val_of_single rfl i q
theorem rhsQK_1 (i : S1024x1024.Idx) (q : dotQK.contr.Idx) : (dotQK.rhsIdx i q 1).val = (i 1).val := by
  unfold DotDims.rhsIdx
  rw [dif_neg (show ¬(1 : Fin S64x1024.rank) ∈ dotQK.rhsBatch by decide),
    dif_pos (show (1 : Fin S64x1024.rank) ∈ dotQK.rhsNonContracting by decide)]
  rfl

theorem lhsPV_0 (i : S1024x256.Idx) (q : dotPV.contr.Idx) : (dotPV.lhsIdx i q 0).val = (i 0).val := by
  unfold DotDims.lhsIdx
  rw [dif_neg (show ¬(0 : Fin S1024x1024.rank) ∈ dotPV.lhsBatch by decide),
    dif_pos (show (0 : Fin S1024x1024.rank) ∈ dotPV.lhsNonContracting by decide)]
  rfl
theorem lhsPV_1 (i : S1024x256.Idx) (q : dotPV.contr.Idx) : (dotPV.lhsIdx i q 1).val = (q ⟨0, by decide⟩).val :=
  dotPV.lhsIdx_val_of_single rfl i q
theorem rhsPV_0 (i : S1024x256.Idx) (q : dotPV.contr.Idx) : (dotPV.rhsIdx i q 0).val = (q ⟨0, by decide⟩).val :=
  dotPV.rhsIdx_val_of_single rfl i q
theorem rhsPV_1 (i : S1024x256.Idx) (q : dotPV.contr.Idx) : (dotPV.rhsIdx i q 1).val = (i 1).val := by
  unfold DotDims.rhsIdx
  rw [dif_neg (show ¬(1 : Fin S1024x256.rank) ∈ dotPV.rhsBatch by decide),
    dif_pos (show (1 : Fin S1024x256.rank) ∈ dotPV.rhsNonContracting by decide)]
  rfl

/-- The product of a `1024 × 64` matrix with a `64 × 1024` one, from zero, at `(r, j)`. -/
theorem matmulQK_apply (lhs : FVec Ideal S1024x64 .bf16) (rhs : FVec Ideal S64x1024 .bf16) (r j : Fin 1024) :
    matmul dotQK none lhs rhs (constant S1024x1024 .f32 0x00000000#32) (ix2 r j)
      = ∑ c : Fin 64, lhs (ix2 r c) * rhs (ix2 c j) := by
  show FloatOps.matmul dotQK none lhs rhs (constant S1024x1024 .f32 0x00000000#32) (ix2 r j) = _
  rw [Ideal.matmul_constant_zero_apply, ← Equiv.sum_comp (contrEquiv1 dotQK 64 rfl rfl).symm]
  refine Finset.sum_congr rfl fun k _ => ?_
  have hk := contrEquiv1_symm_val dotQK 64 rfl rfl k
  have el : dotQK.lhsIdx (ix2 r j) ((contrEquiv1 dotQK 64 rfl rfl).symm k) = ix2 r k := funext fun a => Fin.ext (by
    match a with
    | ⟨0, _⟩ => exact lhsQK_0 _ _
    | ⟨1, _⟩ => exact (lhsQK_1 _ _).trans hk)
  have er : dotQK.rhsIdx (ix2 r j) ((contrEquiv1 dotQK 64 rfl rfl).symm k) = ix2 k j := funext fun a => Fin.ext (by
    match a with
    | ⟨0, _⟩ => exact (rhsQK_0 _ _).trans hk
    | ⟨1, _⟩ => exact rhsQK_1 _ _)
  rw [el, er]

/-- The product of a `1024 × 1024` matrix with a `1024 × 256` one, from zero, at `(r, d)`. -/
theorem matmulPV_apply (lhs : FVec Ideal S1024x1024 .bf16) (rhs : FVec Ideal S1024x256 .bf16) (r : Fin 1024) (d : Fin 256) :
    matmul dotPV none lhs rhs (constant S1024x256 .f32 0x00000000#32) (ix2 r d)
      = ∑ j : Fin 1024, lhs (ix2 r j) * rhs (ix2 j d) := by
  show FloatOps.matmul dotPV none lhs rhs (constant S1024x256 .f32 0x00000000#32) (ix2 r d) = _
  rw [Ideal.matmul_constant_zero_apply, ← Equiv.sum_comp (contrEquiv1 dotPV 1024 rfl rfl).symm]
  refine Finset.sum_congr rfl fun k _ => ?_
  have hk := contrEquiv1_symm_val dotPV 1024 rfl rfl k
  have el : dotPV.lhsIdx (ix2 r d) ((contrEquiv1 dotPV 1024 rfl rfl).symm k) = ix2 r k := funext fun a => Fin.ext (by
    match a with
    | ⟨0, _⟩ => exact lhsPV_0 _ _
    | ⟨1, _⟩ => exact (lhsPV_1 _ _).trans hk)
  have er : dotPV.rhsIdx (ix2 r d) ((contrEquiv1 dotPV 1024 rfl rfl).symm k) = ix2 k d := funext fun a => Fin.ext (by
    match a with
    | ⟨0, _⟩ => exact (rhsPV_0 _ _).trans hk
    | ⟨1, _⟩ => exact rhsPV_1 _ _)
  rw [el, er]

/-! ## The step's quantities -/

/-- The score block: the clamped eighth of the inner products of query rows with key rows. -/
theorem pay7_apply (v3 v5 : FVec Ideal S1024x64 .bf16) (r j : Fin 1024) :
    k1_pay7 (F := Ideal) v3 v5 (ix2 r j) = Sc v3 v5 r j := by
  unfold k1_pay7 Sc Cert.Spec.clamp
  simp only [shapeCast_self]
  refine congrArg (fun x => min Cert.Spec.hi (max Cert.Spec.lo (x * s8))) ?_
  refine (matmulQK_apply v3 _ r j).trans ?_
  exact Finset.sum_congr rfl fun c _ => congrArg (v3 (ix2 r c) * ·) (transpose_ix2_apply v5 _ c j)

/-- The new running maximum: the larger of the old one and the row's largest score. -/
theorem pay8_apply (v3 v5 : FVec Ideal S1024x64 .bf16) (v15 : FVec Ideal S1024x1 .f32) (r : Fin 1024) (z : Fin 1) :
    k1_pay8 (F := Ideal) v3 v5 v15 (ix2 r z) = max (v15 (ix2 r z)) (Finset.univ.sup fun j : Fin 1024 => Sc v3 v5 r j) := by
  unfold k1_pay8
  refine congrArg (max (v15 (ix2 r z))) ?_
  refine (shapeCast_a_a1_apply _ shapeCasts_S1024_S1024x1 r z).trans ?_
  refine (rowMax_apply (k1_pay7 (F := Ideal) v3 v5) _ _ r).trans ?_
  exact congrArg (Finset.univ.sup) (funext fun j => pay7_apply v3 v5 r j)

/-- The factor that rescales the old sums: the exponential of (old maximum − new maximum). -/
theorem pay9_apply (v3 v5 : FVec Ideal S1024x64 .bf16) (v15 : FVec Ideal S1024x1 .f32) (r : Fin 1024) (z : Fin 1) :
    k1_pay9 (F := Ideal) v3 v5 v15 (ix2 r z) = Ideal.exp (v15 (ix2 r z) - k1_pay8 (F := Ideal) v3 v5 v15 (ix2 r z)) := by
  unfold k1_pay9
  rfl

/-- The block's unnormalized weights: the exponentials of (score − new maximum). -/
theorem pay10_apply (v3 v5 : FVec Ideal S1024x64 .bf16) (v15 : FVec Ideal S1024x1 .f32) (r j : Fin 1024) :
    k1_pay10 (F := Ideal) v3 v5 v15 (ix2 r j) = Ideal.exp (Sc v3 v5 r j - k1_pay8 (F := Ideal) v3 v5 v15 (ix2 r 0)) := by
  unfold k1_pay10
  show Ideal.exp (k1_pay7 (F := Ideal) v3 v5 (ix2 r j)
    - broadcastTo S1024x1024 (k1_pay8 (F := Ideal) v3 v5 v15) broadcasts_S1024x1_S1024x1024 (ix2 r j)) = _
  rw [pay7_apply, broadcastTo_a1_ab_apply]

/-- The new running sum: the old one rescaled, plus the block's weights summed along the row. -/
theorem pay11_apply (v3 v5 : FVec Ideal S1024x64 .bf16) (v15 v24 : FVec Ideal S1024x1 .f32) (r : Fin 1024) (z : Fin 1) :
    k1_pay11 (F := Ideal) v3 v5 v15 v24 (ix2 r z)
      = k1_pay9 (F := Ideal) v3 v5 v15 (ix2 r z) * v24 (ix2 r z) + ∑ j : Fin 1024, k1_pay10 (F := Ideal) v3 v5 v15 (ix2 r j) := by
  unfold k1_pay11
  simp only [shapeCast_self]
  refine congrArg (k1_pay9 (F := Ideal) v3 v5 v15 (ix2 r z) * v24 (ix2 r z) + ·) ?_
  exact (shapeCast_a_a1_apply _ shapeCasts_S1024_S1024x1 r z).trans (rowSum_apply _ _ _ r)

/-- The new running weighted sum of value rows: the old one rescaled, plus the block's weights times its value rows. -/
theorem pay1_apply (v20 : FVec Ideal S1024x1 .f32) (v23 : FVec Ideal S1024x1024 .f32) (v33 : FVec Ideal S1024x256 .bf16)
    (v34 : FVec Ideal S1024x256 .f32) (r : Fin 1024) (d : Fin 256) :
    k1_pay1 (F := Ideal) v20 v23 v33 v34 (ix2 r d)
      = v20 (ix2 r 0) * v34 (ix2 r d) + ∑ j : Fin 1024, v23 (ix2 r j) * v33 (ix2 j d) := by
  unfold k1_pay1
  simp only [shapeCast_self]
  show broadcastTo S1024x256 v20 broadcasts_S1024x1_S1024x256 (ix2 r d) * v34 (ix2 r d)
    + matmul dotPV none (truncf .bf16 v23 bitsLt_bf16_f32) v33 (constant S1024x256 .f32 0x00000000#32) (ix2 r d) = _
  rw [broadcastTo_a1_ab_apply, matmulPV_apply]
  rfl

/-- The output block: the weighted sum over (the running sum plus eps), plus the point's own features. -/
theorem pay3_apply (v49 : FVec Ideal S1024x256 .f32) (v50 : FVec Ideal S1024x1 .f32) (v55 : FVec Ideal S1024x256 .f32)
    (r : Fin 1024) (d : Fin 256) :
    k1_pay3 (F := Ideal) v49 v50 v55 (ix2 r d) = Ideal.div (v49 (ix2 r d)) (v50 (ix2 r 0) + Cert.Spec.eps) + v55 (ix2 r d) := by
  unfold k1_pay3
  show Ideal.div (v49 (ix2 r d))
    (broadcastTo S1024x256 (addf v50 (broadcast S1024x1 (Scalar.ofBits (F := Ideal) .f32 0x358637BD#32)))
      broadcasts_S1024x1_S1024x256 (ix2 r d)) + v55 (ix2 r d) = _
  rw [broadcastTo_a1_ab_apply]
  rfl

/-- A cast to the same shape changes nothing. -/
theorem pay2_eq (v18 : FVec Ideal S1024x1 .f32) : k1_pay2 (F := Ideal) v18 = v18 := by
  unfold k1_pay2
  exact shapeCast_self _ _

theorem pay12_eq (v32 : FVec Ideal S1024x256 .bf16) : k1_pay12 (F := Ideal) v32 = v32 := by
  unfold k1_pay12
  exact shapeCast_self _ _

/-- The three running quantities start at minus infinity, zero and zero. -/
theorem pay4_apply (r : Fin 1024) (z : Fin 1) : k1_pay4 (F := Ideal) (ix2 r z) = ⊥ := by
  unfold k1_pay4
  simp only [shapeCast_self]
  exact ofBits_ninf_f32

theorem pay5_apply (r : Fin 1024) (z : Fin 1) : k1_pay5 (F := Ideal) (ix2 r z) = 0 := by
  unfold k1_pay5
  simp only [shapeCast_self]
  exact Ideal.ofBits_zero_f32

theorem pay6_apply (r : Fin 1024) (d : Fin 256) : k1_pay6 (F := Ideal) (ix2 r d) = 0 := by
  unfold k1_pay6
  simp only [shapeCast_self]
  exact Ideal.ofBits_zero_f32

end Cert.KernelIdeal.AttnPayload

end
-- ==== Proof.LibOnlineSoftmax.lean ====
/-
  The online form of a normalized exponential weighting, over the extended reals.

  A row of real scores is cut into tiles of width `b`. Going through the tiles one keeps three numbers: the
  largest score seen so far, the sum of `exp (score - largest)` over the scores seen so far, and the same
  sum with each term multiplied by a value attached to the score. When a tile raises the largest score from
  `μ` to `μ'` the two sums are rescaled by `exp (μ - μ')`, because `exp (μ - μ') * exp (x - μ) = exp (x - μ')`.
  So after `k` tiles the three numbers are what one would compute in one pass knowing the largest score of
  those `k` tiles beforehand. Before the first tile the largest score is `⊥` and both sums are `0`; the first
  rescaling factor is `exp ⊥ = 0`, against sums that are `0` anyway.

  The values may be any extended reals: the only distributivity used is that of a nonnegative REAL factor
  over a sum, which holds on all of `EReal`.
-/
import Idealize.ShloMosaic.PureOps.Ideal
import Mathlib.Algebra.BigOperators.Fin

noncomputable section

namespace Cert.OnlineSoftmax

open Idealize.ShloMosaic

variable {b : ℕ}

/-- One tile's update of (largest score, sum of weights, weighted sum of values). -/
def step (s v : Fin b → EReal) (st : EReal × EReal × EReal) : EReal × EReal × EReal :=
  (max st.1 (Finset.univ.sup s),
   Ideal.exp (st.1 - max st.1 (Finset.univ.sup s)) * st.2.1 + ∑ j, Ideal.exp (s j - max st.1 (Finset.univ.sup s)),
   Ideal.exp (st.1 - max st.1 (Finset.univ.sup s)) * st.2.2
     + ∑ j, Ideal.exp (s j - max st.1 (Finset.univ.sup s)) * v j)

/-- The three numbers after the first `k` tiles. -/
def run (s v : ℕ → Fin b → EReal) : ℕ → EReal × EReal × EReal
  | 0 => (⊥, 0, 0)
  | k + 1 => step (s k) (v k) (run s v k)

/-- The largest score of the first `k` tiles (`⊥` for none). -/
def top (s : ℕ → Fin b → EReal) (k : ℕ) : EReal := (Finset.range k).sup fun k' => Finset.univ.sup (s k')

/-- The first `k` tiles' sum of weights relative to `μ`. -/
def wsum (s : ℕ → Fin b → EReal) (k : ℕ) (μ : EReal) : EReal :=
  ∑ k' ∈ Finset.range k, ∑ j, Ideal.exp (s k' j - μ)

/-- The first `k` tiles' weighted sum of values relative to `μ`. -/
def vsum (s v : ℕ → Fin b → EReal) (k : ℕ) (μ : EReal) : EReal :=
  ∑ k' ∈ Finset.range k, ∑ j, Ideal.exp (s k' j - μ) * v k' j

/-- A nonnegative real factor distributes over any finite sum of extended reals. -/
theorem coe_mul_sum {ι : Type*} (c : ℝ) (hc : 0 ≤ c) (t : Finset ι) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The coercion of a finite sum of reals is the sum of the coercions. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Rescaling one weight from the old largest score to the new one. -/
theorem exp_shift (a a' x : ℝ) :
    Ideal.exp ((a : EReal) - a') * Ideal.exp ((x : EReal) - a) = Ideal.exp ((x : EReal) - a') := by
  simp only [← EReal.coe_sub, Ideal.exp_coe, ← EReal.coe_mul]
  rw [← Real.exp_add]
  congr 2
  ring

/-- The largest score of at least one nonempty tile of real scores is real. -/
theorem top_real (hb : 0 < b) (s : ℕ → Fin b → EReal) (hs : ∀ k j, ∃ r : ℝ, s k j = r) (k : ℕ) (hk : 0 < k) :
    ∃ r : ℝ, top s k = r := by
  have hne_top : top s k ≠ ⊤ := by
    refine ne_of_lt ((Finset.sup_lt_iff (by exact bot_lt_top)).2 fun k' _ => ?_)
    refine (Finset.sup_lt_iff (by exact bot_lt_top)).2 fun j _ => ?_
    obtain ⟨r, hr⟩ := hs k' j
    rw [hr]; exact EReal.coe_lt_top r
  have hne_bot : top s k ≠ ⊥ := by
    obtain ⟨r, hr⟩ := hs 0 ⟨0, hb⟩
    have h1 : s 0 ⟨0, hb⟩ ≤ top s k :=
      (Finset.le_sup (f := s 0) (Finset.mem_univ _)).trans
        (Finset.le_sup (f := fun k' => Finset.univ.sup (s k')) (Finset.mem_range.2 hk))
    intro h
    rw [h, hr] at h1
    exact absurd (le_bot_iff.1 h1) (EReal.coe_ne_bot r)
  exact ⟨(top s k).toReal, (EReal.coe_toReal hne_top hne_bot).symm⟩

theorem top_succ (s : ℕ → Fin b → EReal) (k : ℕ) :
    top s (k + 1) = max (top s k) (Finset.univ.sup (s k)) := by
  unfold top
  rw [Finset.range_add_one, Finset.sup_insert, sup_comm]

/-- After `k` tiles of real scores the running numbers are the one-pass ones relative to the largest
    score of those tiles. -/
theorem run_eq (hb : 0 < b) (s v : ℕ → Fin b → EReal) (hs : ∀ k j, ∃ r : ℝ, s k j = r) (k : ℕ) :
    run s v k = (top s k, wsum s k (top s k), vsum s v k (top s k)) := by
  induction k with
  | zero => simp [run, top, wsum, vsum]
  | succ k ih =>
    rw [run, ih]
    unfold step
    dsimp only
    rw [← top_succ]
    obtain ⟨μ', hμ'⟩ := top_real hb s hs (k + 1) (Nat.succ_pos k)
    have key : ∀ (g : ℕ → Fin b → EReal),
        Ideal.exp (top s k - top s (k + 1)) * (∑ k' ∈ Finset.range k, ∑ j, Ideal.exp (s k' j - top s k) * g k' j)
          = ∑ k' ∈ Finset.range k, ∑ j, Ideal.exp (s k' j - top s (k + 1)) * g k' j := by
      intro g
      rcases Nat.eq_zero_or_pos k with hk | hk
      · subst hk; simp
      · obtain ⟨μ, hμ⟩ := top_real hb s hs k hk
        rw [hμ, hμ']
        have hα : Ideal.exp ((μ : EReal) - μ') = ((Real.exp (μ - μ') : ℝ) : EReal) := by
          rw [← EReal.coe_sub, Ideal.exp_coe]
        rw [hα, coe_mul_sum _ (Real.exp_pos _).le]
        refine Finset.sum_congr rfl fun k' _ => ?_
        rw [coe_mul_sum _ (Real.exp_pos _).le]
        refine Finset.sum_congr rfl fun j _ => ?_
        obtain ⟨x, hx⟩ := hs k' j
        rw [← hα, ← mul_assoc, hx, exp_shift]
    refine Prod.ext rfl (Prod.ext ?_ ?_)
    · show _ * wsum s k (top s k) + _ = wsum s (k + 1) (top s (k + 1))
      unfold wsum
      rw [Finset.sum_range_succ]
      congr 1
      simpa using key (fun _ _ => 1)
    · show _ * vsum s v k (top s k) + _ = vsum s v (k + 1) (top s (k + 1))
      unfold vsum
      rw [Finset.sum_range_succ]
      congr 1
      exact key v

/-- Dividing the weighted sum by (the sum of weights plus a nonnegative real `e`) is weighting each value by
    its weight over that same normalizer: the normalizer is a positive real, and a nonnegative real factor
    distributes over the sum whatever the values are. -/
theorem div_vsum (hb : 0 < b) (s v : ℕ → Fin b → EReal) (hs : ∀ k j, ∃ r : ℝ, s k j = r) (k : ℕ) (hk : 0 < k)
    (μ : ℝ) (e : ℝ) (he : 0 ≤ e) :
    Ideal.div (vsum s v k μ) (wsum s k μ + e)
      = ∑ k' ∈ Finset.range k, ∑ j, Ideal.div (Ideal.exp (s k' j - μ)) (wsum s k μ + e) * v k' j := by
  -- the sum of weights is a positive real
  have hw : ∃ w : ℝ, 0 < w ∧ wsum s k μ = w := by
    have hterm : ∀ k' j, ∃ w : ℝ, 0 < w ∧ Ideal.exp (s k' j - μ) = w := fun k' j => by
      obtain ⟨x, hx⟩ := hs k' j
      exact ⟨Real.exp (x - μ), Real.exp_pos _, by rw [hx, ← EReal.coe_sub, Ideal.exp_coe]⟩
    choose w hwpos hweq using hterm
    refine ⟨∑ k' ∈ Finset.range k, ∑ j, w k' j, ?_, ?_⟩
    · refine Finset.sum_pos (fun k' _ => Finset.sum_pos (fun j _ => hwpos k' j) ⟨⟨0, hb⟩, Finset.mem_univ _⟩)
        ⟨0, Finset.mem_range.2 hk⟩
    · unfold wsum
      simp only [hweq]
      rw [coe_sum]
      exact Finset.sum_congr rfl fun k' _ => (coe_sum _ _).symm
  obtain ⟨w, hwpos, hweq⟩ := hw
  have hne : (w + e : ℝ) ≠ 0 := by linarith
  have hc : (0 : ℝ) ≤ 1 / (w + e) := (one_div_pos.2 (by linarith)).le
  have hden : wsum s k μ + e = ((w + e : ℝ) : EReal) := by rw [hweq, EReal.coe_add]
  rw [hden]
  simp only [Ideal.div_coe hne]
  unfold vsum
  rw [mul_comm, coe_mul_sum _ hc]
  refine Finset.sum_congr rfl fun k' _ => ?_
  rw [coe_mul_sum _ hc]
  refine Finset.sum_congr rfl fun j _ => ?_
  rw [← mul_assoc, mul_comm ((1 / (w + e) : ℝ) : EReal)]

/-! ## A whole row cut into tiles -/

section Row

variable {n N : ℕ}

/-- Tile `k` of a row of length `N`: entry `j` of the tile is entry `j + b * k` of the row (`0` past the end). -/
def tile (b : ℕ) (S : Fin N → EReal) (k : ℕ) (j : Fin b) : EReal :=
  if h : j.val + b * k < N then S ⟨j.val + b * k, h⟩ else 0

/-- The position in the row of entry `j` of tile `k`. -/
def pos (hN : N = n * b) : Fin n × Fin b ≃ Fin N := finProdFinEquiv.trans (finCongr hN.symm)

theorem pos_val (hN : N = n * b) (k : Fin n) (j : Fin b) : (pos hN (k, j)).val = j.val + b * k.val := rfl

theorem tile_pos (hN : N = n * b) (S : Fin N → EReal) (k : Fin n) (j : Fin b) :
    tile b S k.val j = S (pos hN (k, j)) := by
  unfold tile
  rw [dif_pos (by rw [← pos_val hN k j]; exact (pos hN (k, j)).isLt)]
  rfl

/-- A sum over the tiles is the sum over the row. -/
theorem sum_tiles (hN : N = n * b) (G : ℕ → Fin b → EReal) (g : Fin N → EReal)
    (h : ∀ (k : Fin n) (j : Fin b), G k.val j = g (pos hN (k, j))) :
    ∑ k ∈ Finset.range n, ∑ j, G k j = ∑ J, g J := by
  rw [Finset.sum_range fun k => ∑ j, G k j, ← Equiv.sum_comp (pos hN) g, Fintype.sum_prod_type]
  exact Finset.sum_congr rfl fun k _ => Finset.sum_congr rfl fun j _ => h k j

/-- The largest entry over the tiles is the largest entry of the row. -/
theorem top_tiles (hN : N = n * b) (S : Fin N → EReal) : top (tile b S) n = Finset.univ.sup S := by
  refine le_antisymm ?_ ?_
  · refine Finset.sup_le fun k hk => Finset.sup_le fun j _ => ?_
    have := tile_pos hN S ⟨k, Finset.mem_range.1 hk⟩ j
    rw [show tile b S k j = S (pos hN (⟨k, Finset.mem_range.1 hk⟩, j)) from this]
    exact Finset.le_sup (Finset.mem_univ _)
  · refine Finset.sup_le fun J _ => ?_
    obtain ⟨⟨k, j⟩, rfl⟩ := (pos hN).surjective J
    rw [← tile_pos hN S k j]
    exact (Finset.le_sup (f := tile b S k.val) (Finset.mem_univ j)).trans
      (Finset.le_sup (f := fun k' => Finset.univ.sup (tile b S k')) (Finset.mem_range.2 k.isLt))

/-- THE LAW. Going through a row of real scores tile by tile, rescaling as the largest score grows, and dividing
    the weighted sum by (the sum of weights plus a nonnegative real) at the end, gives the sum over the whole row
    of each value times its weight relative to the row's largest score, each weight divided by the same
    normalizer first. -/
theorem row_law (hb : 0 < b) (hn : 0 < n) (hN : N = n * b) (S v : Fin N → EReal) (hS : ∀ J, ∃ r : ℝ, S J = r)
    (e : ℝ) (he : 0 ≤ e) :
    Ideal.div (run (tile b S) (tile b v) n).2.2 ((run (tile b S) (tile b v) n).2.1 + e)
      = ∑ J, Ideal.div (Ideal.exp (S J - Finset.univ.sup S))
              ((∑ J', Ideal.exp (S J' - Finset.univ.sup S)) + e) * v J := by
  have hs : ∀ k j, ∃ r : ℝ, tile b S k j = r := fun k j => by
    unfold tile
    split
    · exact hS _
    · exact ⟨0, by simp⟩
  rw [run_eq hb _ _ hs n]
  obtain ⟨μ, hμ⟩ := top_real hb _ hs n hn
  have htop := top_tiles hN S
  rw [hμ] at htop ⊢
  dsimp only
  rw [div_vsum hb _ _ hs n hn μ e he, ← htop]
  have hw : wsum (tile b S) n μ = ∑ J', Ideal.exp (S J' - μ) :=
    sum_tiles hN _ _ fun k j => by rw [tile_pos hN S k j]
  rw [hw]
  exact sum_tiles hN _ _ fun k j => by rw [tile_pos hN S k j, tile_pos hN v k j]

end Row

end Cert.OnlineSoftmax

end
-- ==== Proof.AttnLaw.lean ====
/-
  The facts about this kernel's three shared literals that the attention law needs: eps is a nonnegative
  real, the clamp bounds are reals, hence every clamped score is a real.
-/
import proofs.«174622_j3590592660316_1_alg».proof.Proof.Spec
import Idealize.ShloMosaic.PureOps.Ideal.Laws

noncomputable section

namespace Cert.AttnLaw

open Idealize.ShloMosaic Cert

/-- eps denotes a nonnegative real. -/
theorem eps_real : ∃ e : ℝ, 0 ≤ e ∧ Spec.eps = (e : EReal) := by
  refine ⟨_, ?_, by simp [Spec.eps, Ideal.ofBits, Ideal.ieee]; rfl⟩
  positivity

/-- The lower clamp bound denotes a real. -/
theorem lo_real : ∃ r : ℝ, Spec.lo = (r : EReal) := by
  refine ⟨_, by simp [Spec.lo, Ideal.ofBits, Ideal.ieee]; rfl⟩

/-- The upper clamp bound denotes a real. -/
theorem hi_real : ∃ r : ℝ, Spec.hi = (r : EReal) := by
  refine ⟨_, by simp [Spec.hi, Ideal.ofBits, Ideal.ieee]; rfl⟩

/-- A clamped extended real lies between two reals, so it is a real. -/
theorem clamp_real (x : EReal) : ∃ r : ℝ, Spec.clamp x = (r : EReal) := by
  obtain ⟨a, ha⟩ := lo_real
  obtain ⟨c, hc⟩ := hi_real
  have hne_top : Spec.clamp x ≠ ⊤ := by
    refine ne_of_lt (lt_of_le_of_lt (min_le_left _ _) ?_)
    rw [hc]; exact EReal.coe_lt_top c
  have hne_bot : Spec.clamp x ≠ ⊥ := by
    have h1 : ((min c a : ℝ) : EReal) ≤ Spec.clamp x := by
      unfold Spec.clamp
      rw [ha, hc]
      refine le_min (by exact_mod_cast min_le_left c a) (le_trans ?_ (le_max_left _ _))
      exact_mod_cast min_le_right c a
    intro h
    rw [h] at h1
    exact absurd (le_bot_iff.1 h1) (EReal.coe_ne_bot _)
  exact ⟨(Spec.clamp x).toReal, (EReal.coe_toReal hne_top hne_bot).symm⟩

end Cert.AttnLaw

end
-- ==== Proof.AttnRow.lean ====
/-
  One grid point of the attention kernel, seen from one row and one output column: the new running maximum,
  running sum and accumulator entry are one tile's update of the online weighting, with the tile's scores the
  clamped scaled inner products of the row's query with the tile's keys, and the tile's values the column of
  the value block.
-/
import proofs.«174622_j3590592660316_1_alg».proof.Proof.AttnPayload
import proofs.«174622_j3590592660316_1_alg».proof.Proof.LibOnlineSoftmax
import proofs.«174622_j3590592660316_1_alg».proof.Proof.AttnLaw

noncomputable section

namespace Cert.KernelIdeal.AttnRow

open Cert.KernelIdeal Cert.KernelIdeal.Gen Idealize.ShloMosaic Idealize.ShloMosaic.ValueIdx
open Cert.KernelIdeal.AttnPayload Cert

/-- The three stores of a grid point, read at row `r` (and column `d` of the accumulator), are the tile update
    of that row's three numbers. -/
theorem step_row (q k : FVec Ideal S1024x64 .bf16) (v : FVec Ideal S1024x256 .bf16) (m l : FVec Ideal S1024x1 .f32)
    (a : FVec Ideal S1024x256 .f32) (r : Fin 1024) (d : Fin 256) :
    (k1_pay2 (F := Ideal) (k1_pay8 (F := Ideal) q k m) (ix2 r 0),
     k1_pay11 (F := Ideal) q k m l (ix2 r 0),
     k1_pay1 (F := Ideal) (k1_pay9 (F := Ideal) q k m) (k1_pay10 (F := Ideal) q k m) (k1_pay12 (F := Ideal) v) a (ix2 r d))
      = OnlineSoftmax.step (fun j => Sc q k r j) (fun j => v (ix2 j d)) (m (ix2 r 0), l (ix2 r 0), a (ix2 r d)) := by
  rw [pay2_eq, pay12_eq, pay11_apply, pay1_apply]
  simp only [pay9_apply, pay10_apply, pay8_apply]
  rfl

/-- The last store of a row block's last grid point, read at an index. -/
theorem fin_row (a : FVec Ideal S1024x256 .f32) (l : FVec Ideal S1024x1 .f32) (x : FVec Ideal S1024x256 .f32)
    (r : Fin 1024) (d : Fin 256) :
    k1_pay3 (F := Ideal) a l x (ix2 r d) = Ideal.div (a (ix2 r d)) (l (ix2 r 0) + Spec.eps) + x (ix2 r d) :=
  pay3_apply a l x r d

end Cert.KernelIdeal.AttnRow

end
-- ==== Proof.AttnInduct.lean ====
/-
  The attention kernel's carried state along a block of rows, as the online weighting of each row.

  The grid runs over (row block, key tile) with the key tile fastest, twelve tiles to a row block. At a grid
  point the kernel holds, per row of the block, the running maximum `m`, the running sum `l` and, per output
  column, the accumulator entry. At a row block's first tile they restart from (`⊥`, `0`, `0`); at every tile they
  are updated from the previous point's. Hence after tile `k` they are the online weighting's numbers after
  `k + 1` tiles of the row's scores and of the column's values, and at the last tile the output block is the
  whole-row weighted sum plus the row's features.
-/
import proofs.«174622_j3590592660316_1_alg».proof.Proof.AttnRow

noncomputable section

namespace Cert.KernelIdeal.AttnInduct

open Cert.KernelIdeal Cert.KernelIdeal.Gen Idealize.ShloMosaic Idealize.ShloMosaic.ValueIdx
open Cert.KernelIdeal.AttnPayload Cert.KernelIdeal.AttnRow Cert

/-- The four stores' contents after a grid point, from the point's blocks and the state before it:
    (output block, running maximum, running sum, accumulator). -/
def stepAll (q k : FVec Ideal S1024x64 .bf16) (v : FVec Ideal S1024x256 .bf16) (x : FVec Ideal S1024x256 .f32)
    (s : FVec Ideal S1024x1 .f32 × FVec Ideal S1024x1 .f32 × FVec Ideal S1024x256 .f32) :
    FVec Ideal S1024x256 .f32 × FVec Ideal S1024x1 .f32 × FVec Ideal S1024x1 .f32 × FVec Ideal S1024x256 .f32 :=
  (k1_pay3 (F := Ideal) (k1_pay1 (F := Ideal) (k1_pay9 (F := Ideal) q k s.1) (k1_pay10 (F := Ideal) q k s.1) (k1_pay12 (F := Ideal) v) s.2.2)
      (k1_pay11 (F := Ideal) q k s.1 s.2.1) x,
   k1_pay2 (F := Ideal) (k1_pay8 (F := Ideal) q k s.1),
   k1_pay11 (F := Ideal) q k s.1 s.2.1,
   k1_pay1 (F := Ideal) (k1_pay9 (F := Ideal) q k s.1) (k1_pay10 (F := Ideal) q k s.1) (k1_pay12 (F := Ideal) v) s.2.2)

section

variable {NN : ℕ}
  -- the blocks the kernel is handed at each grid point
  (q k : Fin NN → FVec Ideal S1024x64 .bf16) (v : Fin NN → FVec Ideal S1024x256 .bf16) (x : Fin NN → FVec Ideal S1024x256 .f32)
  -- the stores' contents after each grid point
  (st : (n : ℕ) → n < NN → FVec Ideal S1024x256 .f32 × FVec Ideal S1024x1 .f32 × FVec Ideal S1024x1 .f32 × FVec Ideal S1024x256 .f32)
  (hA : ∀ t : Fin NN, t.val % 12 = 0 →
    st t.val t.isLt = stepAll (q t) (k t) (v t) (x t) (k1_pay4 (F := Ideal), k1_pay5 (F := Ideal), k1_pay6 (F := Ideal)))
  (hB : ∀ t : Fin NN, ¬ t.val % 12 = 0 →
    st t.val t.isLt = stepAll (q t) (k t) (v t) (x t) (st (t.val - 1) (Nat.lt_of_le_of_lt (Nat.sub_le _ _) t.isLt)).2)
  -- the whole arrays the blocks are cut from: queries, keys, values, features
  (Qa Ka : Fin 12288 → Fin 64 → EReal) (Va fa : Fin 12288 → Fin 256 → EReal)
  (hq : ∀ (t : Fin NN) (r : Fin 1024) (c : Fin 64) (h : t.val / 12 * 1024 + r.val < 12288),
    q t (ix2 r c) = Qa ⟨t.val / 12 * 1024 + r.val, h⟩ c)
  (hk : ∀ (t : Fin NN) (j : Fin 1024) (c : Fin 64) (h : j.val + 1024 * (t.val % 12) < 12288),
    k t (ix2 j c) = Ka ⟨j.val + 1024 * (t.val % 12), h⟩ c)
  (hv : ∀ (t : Fin NN) (j : Fin 1024) (d : Fin 256) (h : j.val + 1024 * (t.val % 12) < 12288),
    v t (ix2 j d) = Va ⟨j.val + 1024 * (t.val % 12), h⟩ d)
  (hx : ∀ (t : Fin NN) (r : Fin 1024) (d : Fin 256) (h : t.val / 12 * 1024 + r.val < 12288),
    x t (ix2 r d) = fa ⟨t.val / 12 * 1024 + r.val, h⟩ d)

include hA hB hq hk hv in
/-- After the grid point `n` the three carried numbers of row `r` (and column `d`) are the online weighting's
    after `n % 12 + 1` tiles of the row's scores. -/
theorem carried : ∀ (n : ℕ) (hn : n < NN) (r : Fin 1024) (d : Fin 256) (h : n / 12 * 1024 + r.val < 12288),
    ((st n hn).2.1 (ix2 r 0), (st n hn).2.2.1 (ix2 r 0), (st n hn).2.2.2 (ix2 r d))
      = OnlineSoftmax.run (OnlineSoftmax.tile 1024 (Spec.score s8 Qa Ka ⟨n / 12 * 1024 + r.val, h⟩))
          (OnlineSoftmax.tile 1024 (fun J => Va J d)) (n % 12 + 1) := by
  intro n
  induction n using Nat.strong_induction_on with
  | _ n ih =>
    intro hn r d h
    have hlt : n % 12 < 12 := Nat.mod_lt _ (by norm_num)
    -- the point's tile of scores and of values
    have hS : (fun j : Fin 1024 => Sc (q ⟨n, hn⟩) (k ⟨n, hn⟩) r j)
        = OnlineSoftmax.tile 1024 (Spec.score s8 Qa Ka ⟨n / 12 * 1024 + r.val, h⟩) (n % 12) := by
      funext j
      have hj : j.val + 1024 * (n % 12) < 12288 := by have := j.isLt; omega
      unfold OnlineSoftmax.tile Sc Spec.score
      rw [dif_pos hj]
      congr 2
      exact Finset.sum_congr rfl fun c _ => by rw [hq ⟨n, hn⟩ r c h, hk ⟨n, hn⟩ j c hj]
    have hV : (fun j : Fin 1024 => v ⟨n, hn⟩ (ix2 j d)) = OnlineSoftmax.tile 1024 (fun J => Va J d) (n % 12) := by
      funext j
      have hj : j.val + 1024 * (n % 12) < 12288 := by have := j.isLt; omega
      unfold OnlineSoftmax.tile
      rw [dif_pos hj]
      exact hv ⟨n, hn⟩ j d hj
    by_cases h0 : n % 12 = 0
    · rw [hA ⟨n, hn⟩ h0]
      unfold stepAll
      dsimp only
      rw [step_row, hS, hV, pay4_apply, pay5_apply, pay6_apply, h0]
      rfl
    · rw [hB ⟨n, hn⟩ h0]
      unfold stepAll
      dsimp only
      rw [step_row, hS, hV]
      have hdiv : (n - 1) / 12 = n / 12 := by omega
      have hmod : (n - 1) % 12 + 1 = n % 12 := by omega
      have h' : (n - 1) / 12 * 1024 + r.val < 12288 := by rw [hdiv]; exact h
      have e : (⟨(n - 1) / 12 * 1024 + r.val, h'⟩ : Fin 12288) = ⟨n / 12 * 1024 + r.val, h⟩ :=
        Fin.ext (show (n - 1) / 12 * 1024 + r.val = n / 12 * 1024 + r.val by rw [hdiv])
      have := ih (n - 1) (by omega) (Nat.lt_of_le_of_lt (Nat.sub_le _ _) hn) r d h'
      rw [e, hmod] at this
      rw [this]
      rfl

include hA hB in
/-- The output store's contents after a grid point: the quotient of the NEW accumulator by (the NEW sum plus
    eps), plus the point's features block. -/
theorem out_eq (n : ℕ) (hn : n < NN) :
    (st n hn).1 = k1_pay3 (F := Ideal) (st n hn).2.2.2 (st n hn).2.2.1 (x ⟨n, hn⟩) := by
  by_cases h0 : n % 12 = 0
  · rw [hA ⟨n, hn⟩ h0]; rfl
  · rw [hB ⟨n, hn⟩ h0]; rfl

include hA hB hq hk hv hx in
/-- At a row block's last tile the output block holds, at row `r` and column `d`, the whole-row weighted sum
    of the values plus the row's features. -/
theorem out_row (n : ℕ) (hn : n < NN) (h11 : n % 12 = 11) (r : Fin 1024) (d : Fin 256)
    (h : n / 12 * 1024 + r.val < 12288) :
    (st n hn).1 (ix2 r d) = Spec.out (Spec.score s8 Qa Ka) Va fa ⟨n / 12 * 1024 + r.val, h⟩ d := by
  obtain ⟨e, he, hee⟩ := AttnLaw.eps_real
  have hc := carried q k v x st hA hB Qa Ka Va hq hk hv n hn r d h
  rw [h11] at hc
  have hl : (st n hn).2.2.1 (ix2 r 0) = (OnlineSoftmax.run (OnlineSoftmax.tile 1024 (Spec.score s8 Qa Ka ⟨n / 12 * 1024 + r.val, h⟩))
      (OnlineSoftmax.tile 1024 (fun J => Va J d)) 12).2.1 := congrArg (fun p => p.2.1) hc
  have ha : (st n hn).2.2.2 (ix2 r d) = (OnlineSoftmax.run (OnlineSoftmax.tile 1024 (Spec.score s8 Qa Ka ⟨n / 12 * 1024 + r.val, h⟩))
      (OnlineSoftmax.tile 1024 (fun J => Va J d)) 12).2.2 := congrArg (fun p => p.2.2) hc
  rw [out_eq q k v x st hA hB n hn, fin_row, ha, hl, hx ⟨n, hn⟩ r d h, hee,
    OnlineSoftmax.row_law (b := 1024) (n := 12) (N := 12288) (by norm_num) (by norm_num) (by norm_num)
      (Spec.score s8 Qa Ka ⟨n / 12 * 1024 + r.val, h⟩) (fun J => Va J d) (fun J => AttnLaw.clamp_real _) e he]
  unfold Spec.out Spec.den Spec.ew Spec.rowMax
  rw [hee]

end

end Cert.KernelIdeal.AttnInduct

end
-- ==== Proof.AttnValue.lean ====
/-
  The attention region's output array after all its write-backs.

  The output window's block of a row block is written back once, after the row block's last key tile, and
  holds there — row by row, column by column — the whole-row weighted sum of the value rows plus the row's
  own features. The twelve row blocks tile the array, so the array after the run is that function of the
  query, key, value and feature arrays the region was entered with.
-/
import proofs.«174622_j3590592660316_1_alg».proof.Proof.AttnBlocks
import proofs.«174622_j3590592660316_1_alg».proof.Proof.AttnInduct
import Idealize.ShloMosaic.Lib.Pipeline.Dat

noncomputable section

namespace Cert.KernelIdeal.AttnValue

open Cert.KernelIdeal Cert.KernelIdeal.Gen Idealize.ShloMosaic Idealize.ShloMosaic.ValueIdx
open Idealize.ShloMosaic.Pipeline (Dat)
open Cert.KernelIdeal.AttnPayload Cert.KernelIdeal.AttnBlocks Cert

/-- The region's result as a function of the four arrays it reads: queries, keys, values, features. -/
def G (A0 A1 : S12288x64.Idx → Elt Ideal .bf16) (A2 : S12288x256.Idx → Elt Ideal .bf16)
    (A3 : S12288x256.Idx → Elt Ideal .f32) : S12288x256.Idx → Elt Ideal .f32 := fun idx =>
  Spec.out (Spec.score s8 (fun i k => A0 (ix2 i k)) (fun i k => A1 (ix2 i k))) (fun i d => A2 (ix2 i d))
    (fun i d => A3 (ix2 i d)) (idx 0) (idx 1)

section

variable {c : Dev nD} (dat : Dat τ (Elt Ideal) Unit ℕ (UR sig nD τ) ℕ cfg1 c)
  (A0 A1 : S12288x64.Idx → Elt Ideal .bf16) (A2 : S12288x256.Idx → Elt Ideal .bf16) (A3 : S12288x256.Idx → Elt Ideal .f32)
  -- the four stores' contents after each grid point: (output block, running maximum, running sum, accumulator)
  (st : (n : ℕ) → n < cfg1.N →
    FVec Ideal S1024x256 .f32 × FVec Ideal S1024x1 .f32 × FVec Ideal S1024x1 .f32 × FVec Ideal S1024x256 .f32)
  (hA : ∀ t : Fin cfg1.N, t.val % 12 = 0 →
    st t.val t.isLt = AttnInduct.stepAll (((cfg1.win 0).blk t).view.read (Elt Ideal) A0)
      (((cfg1.win 1).blk t).view.read (Elt Ideal) A1) (((cfg1.win 2).blk t).view.read (Elt Ideal) A2)
      (((cfg1.win 3).blk t).view.read (Elt Ideal) A3) (k1_pay4 (F := Ideal), k1_pay5 (F := Ideal), k1_pay6 (F := Ideal)))
  (hB : ∀ t : Fin cfg1.N, ¬ t.val % 12 = 0 →
    st t.val t.isLt = AttnInduct.stepAll (((cfg1.win 0).blk t).view.read (Elt Ideal) A0)
      (((cfg1.win 1).blk t).view.read (Elt Ideal) A1) (((cfg1.win 2).blk t).view.read (Elt Ideal) A2)
      (((cfg1.win 3).blk t).view.read (Elt Ideal) A3) (st (t.val - 1) (Nat.lt_of_le_of_lt (Nat.sub_le _ _) t.isLt)).2)
  (hafter : ∀ t : Fin cfg1.N, dat.after 4 t = (st t.val t.isLt).1)

include hA hB hafter in
/-- What a row block's last grid point writes back is the block of `G`. -/
theorem flushed4 (t : Fin cfg1.N) (hfl : (cfg1.win 4).flush t = true) :
    dat.flushed 4 t = ((cfg1.win 4).blk t).view.read (Elt Ideal) (G A0 A1 A2 A3) := by
  have h11 : t.val % 12 = 11 := (flush1_4 t).1 hfl
  show (cfg1.win 4).cut (grid1.coords t) (dat.after 4 t) = _
  rw [hafter]
  funext y
  obtain ⟨r, d, rfl⟩ : ∃ (r : Fin 1024) (d : Fin 256), y = ix2 r d := ⟨y 0, y 1, eq_ix2 y⟩
  rw [read1_4 _ t r d (row_lt t r)]
  show (st t.val t.isLt).1 (ix2 r d) = _
  exact AttnInduct.out_row
    (fun t => ((cfg1.win 0).blk t).view.read (Elt Ideal) A0) (fun t => ((cfg1.win 1).blk t).view.read (Elt Ideal) A1)
    (fun t => ((cfg1.win 2).blk t).view.read (Elt Ideal) A2) (fun t => ((cfg1.win 3).blk t).view.read (Elt Ideal) A3)
    st hA hB (fun i k => A0 (ix2 i k)) (fun i k => A1 (ix2 i k)) (fun i d => A2 (ix2 i d)) (fun i d => A3 (ix2 i d))
    (fun t r c h => read1_0 A0 t r c h) (fun t j c h => read1_1 A1 t j c h) (fun t j d h => read1_2 A2 t j d h)
    (fun t r d h => read1_3 A3 t r d h) t.val t.isLt h11 r d (row_lt t r)

include hA hB hafter in
/-- The output array after the region's run. -/
theorem final4 : dat.arrAt 4 cfg1.N = G A0 A1 A2 A3 :=
  final1_4 dat (G A0 A1 A2 A3) (flushed4 dat A0 A1 A2 A3 st hA hB hafter)

end

end Cert.KernelIdeal.AttnValue

end
-- ==== Proof.KernelOut.lean ====
/-
  The idealized kernel's result array as the attention of the projected queries, keys and values.
-/
import proofs.«174622_j3590592660316_1_alg».proof.Proof.Region1
import proofs.«174622_j3590592660316_1_alg».proof.Proof.AttnValue

noncomputable section

namespace Cert.KernelIdeal.KernelOut

open Cert.KernelIdeal Cert.KernelIdeal.Gen Idealize.ShloMosaic Idealize.ShloMosaic.TcCoe Idealize.ShloMosaic.ValueIdx Cert

/-- Whatever the attention region is entered with, its output array ends at the attention function of the
    four arrays its windows read. -/
theorem attn_final (V : (c : Dev nD) → (b : Ref sig .tc) → Buf (Elt Ideal) ((c : Thread nD τ).loc b)) (c : Dev nD) :
    (Reg1.dat1 (F := Ideal) V c).arrAt 4 cfg1.N
      = AttnValue.G (V c (Pipeline.arrRef spec1 0)) (V c (Pipeline.arrRef spec1 1)) (V c (Pipeline.arrRef spec1 2))
          (V c (Pipeline.arrRef spec1 3)) :=
  AttnValue.final4 (Reg1.dat1 (F := Ideal) V c) _ _ _ _ (Reg1.stateAt1 (F := Ideal) V c)
    (fun t h0 => Reg1.stateAt1_A V c t h0)
    (fun t h0 => by
      by_cases h1 : t.val % 12 = 11
      · exact Reg1.stateAt1_C V c t h0 h1
      · exact Reg1.stateAt1_B V c t h0 h1)
    (Reg1.after1_4 V c)

end Cert.KernelIdeal.KernelOut

end
-- ==== Proof.ProjValue.lean ====
/-
  The query, key and value arrays as functions of the arguments.

  Before the projection the coordinates are divided by the stride (kept at least eps) and clamped, each weight
  matrix is cut into its first 256 rows (against the features) and its last 3 rows (against the coordinates),
  and each bias is viewed as a one-row matrix: the first part reads those eleven arrays at an index. The second
  part reads the three blocks one grid point stores — a row of features over (its norm plus eps), times the
  first cut, plus the row of coordinates times the second cut, plus the bias — at a row and a column, as the
  sums they are over the extended reals.
-/
import proofs.«174622_j3590592660316_1_alg».proof.Proof.Gen.KernelIdeal.Regions
import proofs.«174622_j3590592660316_1_alg».proof.Proof.Gen.KernelIdeal.Skeleton
import proofs.«174622_j3590592660316_1_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.ProjValue

open Idealize.ShloMosaic Idealize.ShloMosaic.TcCoe Idealize.ShloMosaic.ValueIdx Idealize.SL.Sem
open Cert.KernelIdeal Cert.KernelIdeal.Gen

/-- A matrix argument read at (row, column). -/
def mat {n0 n1 : Nat} (x : (⟨⟨2, ![n0, n1]⟩, .f32⟩ : BufTy).Contents (Elt Ideal)) (i : Fin n0) (d : Fin n1) : EReal := x (ix2 i d)
/-- A vector argument read at its coordinate. -/
def vec {n : Nat} (x : (⟨⟨1, ![n]⟩, .f32⟩ : BufTy).Contents (Elt Ideal)) (k : Fin n) : EReal := x (ix1 k)
/-- An integer matrix argument read at (row, column), as the real its signed word denotes. -/
def imat {n0 n1 : Nat} (x : (⟨⟨2, ![n0, n1]⟩, .i32⟩ : BufTy).Contents (Elt Ideal)) (i : Fin n0) (a : Fin n1) : EReal := (((x (ix2 i a)).toInt : ℝ) : EReal)
/-- The first 256 rows of a 259-row weight matrix. -/
def wTop {n : Nat} (W : (⟨⟨2, ![259, n]⟩, .f32⟩ : BufTy).Contents (Elt Ideal)) (d : Fin 256) (k : Fin n) : EReal := W (ix2 (⟨d.val, by omega⟩ : Fin 259) k)
/-- Its last 3 rows. -/
def wBot {n : Nat} (W : (⟨⟨2, ![259, n]⟩, .f32⟩ : BufTy).Contents (Elt Ideal)) (a : Fin 3) (k : Fin n) : EReal := W (ix2 (⟨256 + a.val, by omega⟩ : Fin 259) k)

/-! ## The arrays the projection reads, as the host operations leave them -/

/-- The coordinates over the stride (kept at least eps), clamped: the host operations on the two arguments as one term. -/
def coordsTerm (ci : (⟨S12288x3, .i32⟩ : BufTy).Contents (Elt Ideal)) (ts : (⟨S3, .f32⟩ : BufTy).Contents (Elt Ideal)) :
    (⟨S12288x3, .f32⟩ : BufTy).Contents (Elt Ideal) :=
  minimumf (broadcastInDim S12288x3 ![] bcast_S_S12288x3 (constant (F := Ideal) S_ .f32 0x42C80000#32))
    (maximumf (broadcastInDim S12288x3 ![] bcast_S_S12288x3 (constant (F := Ideal) S_ .f32 0xC2C80000#32))
      (Host.divf (F := Ideal) (sitofp .f32 ci)
        (broadcastInDim S12288x3 ![0, 1] bcast_S1x3_S12288x3_0_1
          (broadcastInDim S1x3 ![1] bcast_S3_S1x3_1
            (maximumf ts (broadcastInDim S3 ![] bcast_S_S3 (constant (F := Ideal) S_ .f32 0x358637BD#32)))))))

theorem coordsTerm_apply (ci : (⟨S12288x3, .i32⟩ : BufTy).Contents (Elt Ideal)) (ts : (⟨S3, .f32⟩ : BufTy).Contents (Elt Ideal))
    (i : Fin 12288) (a : Fin 3) : coordsTerm ci ts (ix2 i a) = Cert.Spec.coordsN (imat ci) (vec ts) i a := by
  unfold coordsTerm Cert.Spec.coordsN Cert.Spec.clamp imat vec
  rw [minimumf_apply, maximumf_apply, hostDivf_apply, sitofp_apply, broadcastInDim_scalar_apply, broadcastInDim_scalar_apply,
    broadcastInDim_apply _ bcast_S1x3_S12288x3_0_1 _ (ix2 i a) (ix2 (0 : Fin 1) a) (fun b => by
      match b with
      | ⟨0, _⟩ => rfl
      | ⟨1, _⟩ => rfl),
    broadcastInDim_apply _ bcast_S3_S1x3_1 _ (ix2 (0 : Fin 1) a) (ix1 a) (fun b => by
      match b with
      | ⟨0, _⟩ => rfl),
    maximumf_apply, broadcastInDim_scalar_apply]
  rfl

variable (m : (ℓ : Loc nD τ sig) → Buf (Elt Ideal) ℓ) (c : Dev nD)

/-- No host operation writes the features. -/
theorem V3_feat : V3 (F := Ideal) m c main_arg0 = m ((c : Thread nD τ).loc main_arg0) :=
  (V3_of m c main_arg0 (by decide)).trans <| (V2_of m c main_arg0 (by decide)).trans <| (V1_of m c main_arg0 (by decide)).trans rfl

theorem V3_coords (i : Fin 12288) (a : Fin 3) :
    (V3 (F := Ideal) m c main_v6 : S12288x3.Idx → EReal) (ix2 i a)
      = Cert.Spec.coordsN (imat (m ((c : Thread nD τ).loc main_arg1))) (vec (m ((c : Thread nD τ).loc main_arg2))) i a := by
  have e : (V3 (F := Ideal) m c main_v6 : S12288x3.Idx → EReal)
      = coordsTerm (m ((c : Thread nD τ).loc main_arg1)) (m ((c : Thread nD τ).loc main_arg2)) := by
    dsimp only [V3, V2, V1, V0]
    after_results
    all_goals rfl
  rw [e, coordsTerm_apply]

/-- The query weights against the features: the first 256 rows of the matrix. -/
theorem V3_wq_top (d : Fin 256) (k : Fin 64) :
    (V3 (F := Ideal) m c main_v13 : S256x64.Idx → EReal) (ix2 d k) = wTop (m ((c : Thread nD τ).loc main_arg3)) d k := by
  have e : (V3 (F := Ideal) m c main_v13 : S256x64.Idx → EReal)
      = (truncf (F := Ideal) .bf16 (extractStridedSlice S256x64 ![0, 0] (m ((c : Thread nD τ).loc main_arg3)) slices_S259x64_S256x64_0_0) bitsLt_bf16_f32 : S256x64.Idx → EReal) := by
    dsimp only [V3, V2, V1, V0]
    after_results
    all_goals rfl
  rw [e, truncf_apply]
  exact extractStridedSlice_apply _ _ slices_S259x64_S256x64_0_0 (ix2 d k) (ix2 (⟨d.val, by omega⟩ : Fin 259) k) (fun b => by
    match b with
    | ⟨0, _⟩ => show d.val = 0 + d.val; omega
    | ⟨1, _⟩ => show k.val = 0 + k.val; omega)

/-- The query weights against the coordinates: its last 3 rows. -/
theorem V3_wq_bot (a : Fin 3) (k : Fin 64) :
    (V3 (F := Ideal) m c main_v14 : S3x64.Idx → EReal) (ix2 a k) = wBot (m ((c : Thread nD τ).loc main_arg3)) a k := by
  have e : (V3 (F := Ideal) m c main_v14 : S3x64.Idx → EReal)
      = (truncf (F := Ideal) .bf16 (extractStridedSlice S3x64 ![256, 0] (m ((c : Thread nD τ).loc main_arg3)) slices_S259x64_S3x64_256_0) bitsLt_bf16_f32 : S3x64.Idx → EReal) := by
    dsimp only [V3, V2, V1, V0]
    after_results
    all_goals rfl
  rw [e, truncf_apply]
  exact extractStridedSlice_apply _ _ slices_S259x64_S3x64_256_0 (ix2 a k) (ix2 (⟨256 + a.val, by omega⟩ : Fin 259) k) (fun b => by
    match b with
    | ⟨0, _⟩ => rfl
    | ⟨1, _⟩ => show k.val = 0 + k.val; omega)

/-- The query bias as a one-row matrix. -/
theorem V3_bq (k : Fin 64) :
    (V3 (F := Ideal) m c main_v19 : S1x64.Idx → EReal) (ix2 (0 : Fin 1) k) = vec (m ((c : Thread nD τ).loc main_arg4)) k := by
  have e : (V3 (F := Ideal) m c main_v19 : S1x64.Idx → EReal)
      = shapeCast S1x64 (m ((c : Thread nD τ).loc main_arg4)) shapeCasts_S64_S1x64 := by
    dsimp only [V3, V2, V1, V0]
    after_results
    all_goals rfl
  rw [e]
  exact shapeCast_apply _ shapeCasts_S64_S1x64 (ix2 (0 : Fin 1) k) (ix1 k) (by
    rw [Shape.rowMajor_val_one, Shape.rowMajor_val_two]; show k.val = 0 * 64 + k.val; omega)

/-- The key weights against the features. -/
theorem V3_wk_top (d : Fin 256) (k : Fin 64) :
    (V3 (F := Ideal) m c main_v15 : S256x64.Idx → EReal) (ix2 d k) = wTop (m ((c : Thread nD τ).loc main_arg5)) d k := by
  have e : (V3 (F := Ideal) m c main_v15 : S256x64.Idx → EReal)
      = (truncf (F := Ideal) .bf16 (extractStridedSlice S256x64 ![0, 0] (m ((c : Thread nD τ).loc main_arg5)) slices_S259x64_S256x64_0_0) bitsLt_bf16_f32 : S256x64.Idx → EReal) := by
    dsimp only [V3, V2, V1, V0]
    after_results
    all_goals rfl
  rw [e, truncf_apply]
  exact extractStridedSlice_apply _ _ slices_S259x64_S256x64_0_0 (ix2 d k) (ix2 (⟨d.val, by omega⟩ : Fin 259) k) (fun b => by
    match b with
    | ⟨0, _⟩ => show d.val = 0 + d.val; omega
    | ⟨1, _⟩ => show k.val = 0 + k.val; omega)

/-- The key weights against the coordinates. -/
theorem V3_wk_bot (a : Fin 3) (k : Fin 64) :
    (V3 (F := Ideal) m c main_v16 : S3x64.Idx → EReal) (ix2 a k) = wBot (m ((c : Thread nD τ).loc main_arg5)) a k := by
  have e : (V3 (F := Ideal) m c main_v16 : S3x64.Idx → EReal)
      = (truncf (F := Ideal) .bf16 (extractStridedSlice S3x64 ![256, 0] (m ((c : Thread nD τ).loc main_arg5)) slices_S259x64_S3x64_256_0) bitsLt_bf16_f32 : S3x64.Idx → EReal) := by
    dsimp only [V3, V2, V1, V0]
    after_results
    all_goals rfl
  rw [e, truncf_apply]
  exact extractStridedSlice_apply _ _ slices_S259x64_S3x64_256_0 (ix2 a k) (ix2 (⟨256 + a.val, by omega⟩ : Fin 259) k) (fun b => by
    match b with
    | ⟨0, _⟩ => rfl
    | ⟨1, _⟩ => show k.val = 0 + k.val; omega)

/-- The key bias as a one-row matrix. -/
theorem V3_bk (k : Fin 64) :
    (V3 (F := Ideal) m c main_v20 : S1x64.Idx → EReal) (ix2 (0 : Fin 1) k) = vec (m ((c : Thread nD τ).loc main_arg6)) k := by
  have e : (V3 (F := Ideal) m c main_v20 : S1x64.Idx → EReal)
      = shapeCast S1x64 (m ((c : Thread nD τ).loc main_arg6)) shapeCasts_S64_S1x64 := by
    dsimp only [V3, V2, V1, V0]
    after_results
    all_goals rfl
  rw [e]
  exact shapeCast_apply _ shapeCasts_S64_S1x64 (ix2 (0 : Fin 1) k) (ix1 k) (by
    rw [Shape.rowMajor_val_one, Shape.rowMajor_val_two]; show k.val = 0 * 64 + k.val; omega)

/-- The value weights against the features. -/
theorem V3_wv_top (d : Fin 256) (k : Fin 256) :
    (V3 (F := Ideal) m c main_v17 : S256x256.Idx → EReal) (ix2 d k) = wTop (m ((c : Thread nD τ).loc main_arg7)) d k := by
  have e : (V3 (F := Ideal) m c main_v17 : S256x256.Idx → EReal)
      = (truncf (F := Ideal) .bf16 (extractStridedSlice S256x256 ![0, 0] (m ((c : Thread nD τ).loc main_arg7)) slices_S259x256_S256x256_0_0) bitsLt_bf16_f32 : S256x256.Idx → EReal) := by
    dsimp only [V3, V2, V1, V0]
    after_results
    all_goals rfl
  rw [e, truncf_apply]
  exact extractStridedSlice_apply _ _ slices_S259x256_S256x256_0_0 (ix2 d k) (ix2 (⟨d.val, by omega⟩ : Fin 259) k) (fun b => by
    match b with
    | ⟨0, _⟩ => show d.val = 0 + d.val; omega
    | ⟨1, _⟩ => show k.val = 0 + k.val; omega)

/-- The value weights against the coordinates. -/
theorem V3_wv_bot (a : Fin 3) (k : Fin 256) :
    (V3 (F := Ideal) m c main_v18 : S3x256.Idx → EReal) (ix2 a k) = wBot (m ((c : Thread nD τ).loc main_arg7)) a k := by
  have e : (V3 (F := Ideal) m c main_v18 : S3x256.Idx → EReal)
      = (truncf (F := Ideal) .bf16 (extractStridedSlice S3x256 ![256, 0] (m ((c : Thread nD τ).loc main_arg7)) slices_S259x256_S3x256_256_0) bitsLt_bf16_f32 : S3x256.Idx → EReal) := by
    dsimp only [V3, V2, V1, V0]
    after_results
    all_goals rfl
  rw [e, truncf_apply]
  exact extractStridedSlice_apply _ _ slices_S259x256_S3x256_256_0 (ix2 a k) (ix2 (⟨256 + a.val, by omega⟩ : Fin 259) k) (fun b => by
    match b with
    | ⟨0, _⟩ => rfl
    | ⟨1, _⟩ => show k.val = 0 + k.val; omega)

/-- The value bias as a one-row matrix. -/
theorem V3_bv (k : Fin 256) :
    (V3 (F := Ideal) m c main_v21 : S1x256.Idx → EReal) (ix2 (0 : Fin 1) k) = vec (m ((c : Thread nD τ).loc main_arg8)) k := by
  have e : (V3 (F := Ideal) m c main_v21 : S1x256.Idx → EReal)
      = shapeCast S1x256 (m ((c : Thread nD τ).loc main_arg8)) shapeCasts_S256_S1x256 := by
    dsimp only [V3, V2, V1, V0]
    after_results
    all_goals rfl
  rw [e]
  exact shapeCast_apply _ shapeCasts_S256_S1x256 (ix2 (0 : Fin 1) k) (ix1 k) (by
    rw [Shape.rowMajor_val_one, Shape.rowMajor_val_two]; show k.val = 0 * 256 + k.val; omega)

end Cert.KernelIdeal.ProjValue

/-! ## The blocks one grid point stores, at a row and a column -/

namespace Cert.KernelIdeal.ProjValue

open Idealize.ShloMosaic Idealize.ShloMosaic.ValueIdx
open Cert.KernelIdeal Cert.KernelIdeal.Gen

/- The two operand indices of a rows-by-columns product at output (r, k) and contracted coordinate d
    are (r, d) and (d, k): the closing step shared by the four products below. -/
set_option hygiene false in
local macro "mm_close" D:ident n:num SL:ident SR:ident : tactic =>
  `(tactic| (
    simp only [matmul]
    rw [Ideal.matmul_constant_zero_apply, ← Equiv.sum_comp (contrEquiv1 $D $n rfl rfl).symm]
    refine Finset.sum_congr rfl fun d _ => ?_
    have hk := contrEquiv1_symm_val $D $n rfl rfl d
    have l0 : ∀ q, (DotDims.lhsIdx $D (ix2 r k) q 0).val = r.val := fun q => by
      unfold DotDims.lhsIdx
      rw [dif_neg (show ¬(0 : Fin (Shape.rank $SL)) ∈ DotDims.lhsBatch $D by decide), dif_pos (show (0 : Fin (Shape.rank $SL)) ∈ DotDims.lhsNonContracting $D by decide)]
      rfl
    have r1 : ∀ q, (DotDims.rhsIdx $D (ix2 r k) q 1).val = k.val := fun q => by
      unfold DotDims.rhsIdx
      rw [dif_neg (show ¬(1 : Fin (Shape.rank $SR)) ∈ DotDims.rhsBatch $D by decide), dif_pos (show (1 : Fin (Shape.rank $SR)) ∈ DotDims.rhsNonContracting $D by decide)]
      rfl
    have el : DotDims.lhsIdx $D (ix2 r k) ((contrEquiv1 $D $n rfl rfl).symm d) = ix2 r d := funext fun a => Fin.ext (by
      match a with
      | ⟨0, _⟩ => exact l0 _
      | ⟨1, _⟩ => exact (DotDims.lhsIdx_val_of_single $D rfl _ _).trans hk)
    have er : DotDims.rhsIdx $D (ix2 r k) ((contrEquiv1 $D $n rfl rfl).symm d) = ix2 d k := funext fun a => Fin.ext (by
      match a with
      | ⟨0, _⟩ => exact (DotDims.rhsIdx_val_of_single $D rfl _ _).trans hk
      | ⟨1, _⟩ => exact r1 _)
    rw [el, er]))

theorem mm_256_64 (l : FVec Ideal S1024x256 .bf16) (w : FVec Ideal S256x64 .bf16) (r : Fin 1024) (k : Fin 64) :
    matmul dot_S1024x256_S256x64_S1024x64_1_0_0_1_n_n none l w (constant S1024x64 .f32 0x00000000#32) (ix2 r k)
      = ∑ d : Fin 256, l (ix2 r d) * w (ix2 d k) := by
  mm_close dot_S1024x256_S256x64_S1024x64_1_0_0_1_n_n 256 S1024x256 S256x64

theorem mm_3_64 (l : FVec Ideal S1024x3 .bf16) (w : FVec Ideal S3x64 .bf16) (r : Fin 1024) (k : Fin 64) :
    matmul dot_S1024x3_S3x64_S1024x64_1_0_0_1_n_n none l w (constant S1024x64 .f32 0x00000000#32) (ix2 r k)
      = ∑ d : Fin 3, l (ix2 r d) * w (ix2 d k) := by
  mm_close dot_S1024x3_S3x64_S1024x64_1_0_0_1_n_n 3 S1024x3 S3x64

theorem mm_256_256 (l : FVec Ideal S1024x256 .bf16) (w : FVec Ideal S256x256 .bf16) (r : Fin 1024) (k : Fin 256) :
    matmul dot_S1024x256_S256x256_S1024x256_1_0_0_1_n_n none l w (constant S1024x256 .f32 0x00000000#32) (ix2 r k)
      = ∑ d : Fin 256, l (ix2 r d) * w (ix2 d k) := by
  mm_close dot_S1024x256_S256x256_S1024x256_1_0_0_1_n_n 256 S1024x256 S256x256

theorem mm_3_256 (l : FVec Ideal S1024x3 .bf16) (w : FVec Ideal S3x256 .bf16) (r : Fin 1024) (k : Fin 256) :
    matmul dot_S1024x3_S3x256_S1024x256_1_0_0_1_n_n none l w (constant S1024x256 .f32 0x00000000#32) (ix2 r k)
      = ∑ d : Fin 3, l (ix2 r d) * w (ix2 d k) := by
  mm_close dot_S1024x3_S3x256_S1024x256_1_0_0_1_n_n 3 S1024x3 S3x256

/-- The normalized features of a block: the entry over (the row's Euclidean norm plus eps). -/
theorem pay3_apply (v0 : Vec Ideal S1024x256 .f32) (r : Fin 1024) (d : Fin 256) :
    k0_pay3 (F := Ideal) v0 (ix2 r d)
      = Ideal.div (v0 (ix2 r d)) (Ideal.sqrt (∑ d' : Fin 256, v0 (ix2 r d') * v0 (ix2 r d')) + Cert.Spec.eps) := by
  unfold k0_pay3
  have hz : (0x00000000#32 : BitVec 32) = FKind.add.neutral .f32 (.inl rfl) := rfl
  have hsum : multiReduction (F := Ideal) .add [1] S1024 (mulf v0 v0) 0x00000000#32 reduces_S1024x256_S1024 (.inl rfl) hz (ix1 r)
      = ∑ d' : Fin 256, v0 (ix2 r d') * v0 (ix2 r d') := by
    refine (Ideal.multiReduction_add_single (mulf v0 v0) 0x00000000#32 reduces_S1024x256_S1024 (.inl rfl) hz (ix1 r)).trans ?_
    refine Finset.sum_congr rfl fun d' _ => ?_
    have e : reduces_S1024x256_S1024.lift (ix1 r) d' = ix2 r d' := funext fun a => Fin.ext (by
      match a with
      | ⟨0, _⟩ => rfl
      | ⟨1, _⟩ => rfl)
    rw [e]; rfl
  rw [truncf_apply, divf_apply]
  refine congrArg (Ideal.div (v0 (ix2 r d))) ?_
  refine (broadcastTo_apply _ broadcasts_S1024x1_S1024x256 (ix2 r d) (ix2 r (0 : Fin 1)) (fun a => by
    match a with
    | ⟨0, _⟩ => rfl
    | ⟨1, _⟩ => rfl)).trans ?_
  rw [addf_apply]
  refine congrArg₂ (· + ·) ?_ rfl
  show Ideal.sqrt (shapeCast S1024x1 _ shapeCasts_S1024_S1024x1 (ix2 r (0 : Fin 1))) = _
  refine congrArg Ideal.sqrt ?_
  refine (shapeCast_apply _ shapeCasts_S1024_S1024x1 (ix2 r (0 : Fin 1)) (ix1 r) (by
    rw [Shape.rowMajor_val_one, Shape.rowMajor_val_two]; show r.val = r.val * 1 + 0; omega)).trans ?_
  exact hsum

/-- A block of coordinates passes through unchanged. -/
theorem pay4_apply (v10 : Vec Ideal S1024x3 .f32) (r : Fin 1024) (a : Fin 3) :
    k0_pay4 (F := Ideal) v10 (ix2 r a) = v10 (ix2 r a) := by
  unfold k0_pay4
  rw [truncf_apply, shapeCast_self]

/-- A bias row spread over the 1024 rows of a block reads its own column. -/
theorem bias64_apply (b : FVec Ideal S1x64 .f32) (r : Fin 1024) (k : Fin 64) :
    broadcastTo S1024x64 (shapeCast S1x64 b shapeCasts_S1x64_S1x64) broadcasts_S1x64_S1024x64 (ix2 r k) = b (ix2 (0 : Fin 1) k) := by
  rw [shapeCast_self]
  exact broadcastTo_apply b broadcasts_S1x64_S1024x64 (ix2 r k) (ix2 (0 : Fin 1) k) (fun a => by
    match a with
    | ⟨0, _⟩ => rfl
    | ⟨1, _⟩ => rfl)

theorem bias256_apply (b : FVec Ideal S1x256 .f32) (r : Fin 1024) (k : Fin 256) :
    broadcastTo S1024x256 (shapeCast S1x256 b shapeCasts_S1x256_S1x256) broadcasts_S1x256_S1024x256 (ix2 r k) = b (ix2 (0 : Fin 1) k) := by
  rw [shapeCast_self]
  exact broadcastTo_apply b broadcasts_S1x256_S1024x256 (ix2 r k) (ix2 (0 : Fin 1) k) (fun a => by
    match a with
    | ⟨0, _⟩ => rfl
    | ⟨1, _⟩ => rfl)

/-- Row `r` of a block of features over (its norm plus eps), at column `d`. -/
def xb (v0 : Vec Ideal S1024x256 .f32) (r : Fin 1024) (d : Fin 256) : EReal :=
  Ideal.div (v0 (ix2 r d)) (Ideal.sqrt (∑ d' : Fin 256, v0 (ix2 r d') * v0 (ix2 r d')) + Cert.Spec.eps)

/-- The query block: the affine image of the scaled features and the coordinates. -/
theorem query_apply (v0 : Vec Ideal S1024x256 .f32) (v10 : Vec Ideal S1024x3 .f32) (v13 : Vec Ideal S256x64 .bf16)
    (v16 : Vec Ideal S3x64 .bf16) (v20 : Vec Ideal S1x64 .f32) (r : Fin 1024) (k : Fin 64) :
    k0_pay5 (F := Ideal) v0 v10 v13 v16 v20 (ix2 r k)
      = (∑ d : Fin 256, xb v0 r d * v13 (ix2 d k) + ∑ a : Fin 3, v10 (ix2 r a) * v16 (ix2 a k)) + v20 (ix2 (0 : Fin 1) k) := by
  unfold k0_pay5
  rw [truncf_apply, addf_apply, addf_apply, bias64_apply, shapeCast_self, shapeCast_self, mm_256_64, mm_3_64]
  refine congrArg₂ (· + ·) (congrArg₂ (· + ·) ?_ ?_) rfl
  · exact Finset.sum_congr rfl fun d _ => by rw [pay3_apply]; rfl
  · exact Finset.sum_congr rfl fun a _ => by rw [pay4_apply]

/-- The key block, likewise. -/
theorem key_apply (v0 : Vec Ideal S1024x256 .f32) (v10 : Vec Ideal S1024x3 .f32) (v26 : Vec Ideal S256x64 .bf16)
    (v29 : Vec Ideal S3x64 .bf16) (v33 : Vec Ideal S1x64 .f32) (r : Fin 1024) (k : Fin 64) :
    k0_pay1 (F := Ideal) (k0_pay6 v0 v10 v26 v29) v33 (ix2 r k)
      = (∑ d : Fin 256, xb v0 r d * v26 (ix2 d k) + ∑ a : Fin 3, v10 (ix2 r a) * v29 (ix2 a k)) + v33 (ix2 (0 : Fin 1) k) := by
  unfold k0_pay1 k0_pay6
  rw [truncf_apply, addf_apply, addf_apply, bias64_apply, shapeCast_self, shapeCast_self, mm_256_64, mm_3_64]
  refine congrArg₂ (· + ·) (congrArg₂ (· + ·) ?_ ?_) rfl
  · exact Finset.sum_congr rfl fun d _ => by rw [pay3_apply]; rfl
  · exact Finset.sum_congr rfl fun a _ => by rw [pay4_apply]

/-- The value block, likewise, 256 columns wide. -/
theorem value_apply (v0 : Vec Ideal S1024x256 .f32) (v10 : Vec Ideal S1024x3 .f32) (v39 : Vec Ideal S256x256 .bf16)
    (v42 : Vec Ideal S3x256 .bf16) (v46 : Vec Ideal S1x256 .f32) (r : Fin 1024) (k : Fin 256) :
    k0_pay2 (F := Ideal) (k0_pay3 v0) (k0_pay4 v10) v39 v42 v46 (ix2 r k)
      = (∑ d : Fin 256, xb v0 r d * v39 (ix2 d k) + ∑ a : Fin 3, v10 (ix2 r a) * v42 (ix2 a k)) + v46 (ix2 (0 : Fin 1) k) := by
  unfold k0_pay2
  rw [truncf_apply, addf_apply, addf_apply, bias256_apply, shapeCast_self, shapeCast_self, mm_256_256, mm_3_256]
  refine congrArg₂ (· + ·) (congrArg₂ (· + ·) ?_ ?_) rfl
  · exact Finset.sum_congr rfl fun d _ => by rw [pay3_apply]; rfl
  · exact Finset.sum_congr rfl fun a _ => by rw [pay4_apply]

end Cert.KernelIdeal.ProjValue

end
-- ==== Proof.Region0Out.lean ====
import proofs.«174622_j3590592660316_1_alg».proof.Proof.Region0
import Idealize.ShloMosaic.Lib.Pipeline.Value

/-!
# The projection region's outputs in closed form

Every load and store of the projection body is through the whole of its buffer at zero offsets: a load through
such a rectangle reads the contents, and the one store through it leaves its payload. So each output buffer after
the body IS its payload at the input blocks: the three projections
`round (normalize x0 · W + round x1 · Wc + bias)` as the payload terms state them.
-/

set_option maxRecDepth 16384

noncomputable section

namespace Cert.KernelIdeal.Reg0

open Cert.KernelIdeal Cert.KernelIdeal.Gen
open Idealize.ShloMosaic

variable {F : FTy → Type} [FloatOps F]

/-- The zero offsets of a rank-2 rectangle are the constant zero function. -/
theorem offsets_zero2 : (![0, 0] : Fin 2 → Nat) = fun _ => 0 := funext fun a => by fin_cases a <;> rfl

/-- The first width-64 output block is its projection payload at the five input blocks. -/
theorem out0_11_eq (x0 : Vec F S1024x256 .f32) (x1 : Vec F S1024x3 .f32) (x2 : Vec F S256x64 .bf16) (x3 : Vec F S3x64 .bf16) (x4 : Vec F S1x64 .f32) :
    out0_11 x0 x1 x2 x3 x4 = k0_pay5 x0 x1 x2 x3 x4 := by
  unfold out0_11
  rw [View.canon_unit_zero offsets_zero2]
  simp only [View.ld_unit_zero (S := S1024x256) offsets_zero2, View.ld_unit_zero (S := S1024x3) offsets_zero2, View.ld_unit_zero (S := S256x64) offsets_zero2, View.ld_unit_zero (S := S3x64) offsets_zero2, View.ld_unit_zero (S := S1x64) offsets_zero2]

/-- The second width-64 output block likewise: the bias added to the two matrix products, then rounded. -/
theorem out0_12_eq (x0 : Vec F S1024x256 .f32) (x1 : Vec F S1024x3 .f32) (x5 : Vec F S256x64 .bf16) (x6 : Vec F S3x64 .bf16) (x7 : Vec F S1x64 .f32) :
    out0_12 x0 x1 x5 x6 x7 = k0_pay1 (k0_pay6 x0 x1 x5 x6) x7 := by
  unfold out0_12
  rw [View.canon_unit_zero offsets_zero2]
  simp only [View.ld_unit_zero (S := S1024x256) offsets_zero2, View.ld_unit_zero (S := S1024x3) offsets_zero2, View.ld_unit_zero (S := S256x64) offsets_zero2, View.ld_unit_zero (S := S3x64) offsets_zero2, View.ld_unit_zero (S := S1x64) offsets_zero2]

/-- The width-256 output block likewise, over the normalized rows and the rounded coordinate rows. -/
theorem out0_13_eq (x0 : Vec F S1024x256 .f32) (x1 : Vec F S1024x3 .f32) (x8 : Vec F S256x256 .bf16) (x9 : Vec F S3x256 .bf16) (x10 : Vec F S1x256 .f32) :
    out0_13 x0 x1 x8 x9 x10 = k0_pay2 (k0_pay3 x0) (k0_pay4 x1) x8 x9 x10 := by
  unfold out0_13
  rw [View.canon_unit_zero offsets_zero2]
  simp only [View.ld_unit_zero (S := S1024x256) offsets_zero2, View.ld_unit_zero (S := S1024x3) offsets_zero2, View.ld_unit_zero (S := S256x256) offsets_zero2, View.ld_unit_zero (S := S3x256) offsets_zero2, View.ld_unit_zero (S := S1x256) offsets_zero2]

end Cert.KernelIdeal.Reg0

end
-- ==== Proof.ProjArrays.lean ====
/-
  From the blocks one grid point stores to the whole query, key and value arrays.

  Grid point t reads rows 1024·t … 1024·t + 1023 of the features and of the normalized coordinates, and the
  whole of the six weight cuts and the three bias rows; it writes back rows 1024·t … 1024·t + 1023 of the three
  results. So after all twelve points each result array is, row by row, the affine image of that row.
-/
import proofs.«174622_j3590592660316_1_alg».proof.Proof.ProjValue
import proofs.«174622_j3590592660316_1_alg».proof.Proof.Region0
import proofs.«174622_j3590592660316_1_alg».proof.Proof.Region0Out
import proofs.«174622_j3590592660316_1_alg».proof.Proof.Gen.KernelIdeal.Points
import Idealize.ShloMosaic.Lib.Pipeline.Value

noncomputable section

namespace Cert.KernelIdeal.ProjValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg0

/-! ## One row of a block, from the row of the arrays it was cut from -/

/-- A row of the query block whose features and coordinates are row `i` of the arrays. -/
theorem query_block (A0 : S12288x256.Idx → EReal) (A1 : S12288x3.Idx → EReal) (A2 : S256x64.Idx → EReal)
    (A3 : S3x64.Idx → EReal) (A4 : S1x64.Idx → EReal)
    (x0 : Vec Ideal S1024x256 .f32) (x1 : Vec Ideal S1024x3 .f32) (x2 : Vec Ideal S256x64 .bf16)
    (x3 : Vec Ideal S3x64 .bf16) (x4 : Vec Ideal S1x64 .f32) (i : Fin 12288) (r : Fin 1024)
    (h0 : ∀ d : Fin 256, x0 (ix2 r d) = A0 (ix2 i d)) (h1 : ∀ a : Fin 3, x1 (ix2 r a) = A1 (ix2 i a))
    (h2 : ∀ (d : Fin 256) (k : Fin 64), x2 (ix2 d k) = A2 (ix2 d k))
    (h3 : ∀ (a : Fin 3) (k : Fin 64), x3 (ix2 a k) = A3 (ix2 a k))
    (h4 : ∀ k : Fin 64, x4 (ix2 (0 : Fin 1) k) = A4 (ix2 (0 : Fin 1) k)) (k : Fin 64) :
    k0_pay5 (F := Ideal) x0 x1 x2 x3 x4 (ix2 r k)
      = Cert.Spec.proj (Cert.Spec.featN (mat A0)) (mat A1) (fun d k => A2 (ix2 d k)) (fun a k => A3 (ix2 a k))
          (fun k => A4 (ix2 (0 : Fin 1) k)) i k := by
  rw [query_apply]
  unfold Cert.Spec.proj Cert.Spec.featN Cert.Spec.sumSq mat xb
  simp only [h0, h1, h2, h3, h4]

theorem key_block (A0 : S12288x256.Idx → EReal) (A1 : S12288x3.Idx → EReal) (A5 : S256x64.Idx → EReal)
    (A6 : S3x64.Idx → EReal) (A7 : S1x64.Idx → EReal)
    (x0 : Vec Ideal S1024x256 .f32) (x1 : Vec Ideal S1024x3 .f32) (x5 : Vec Ideal S256x64 .bf16)
    (x6 : Vec Ideal S3x64 .bf16) (x7 : Vec Ideal S1x64 .f32) (i : Fin 12288) (r : Fin 1024)
    (h0 : ∀ d : Fin 256, x0 (ix2 r d) = A0 (ix2 i d)) (h1 : ∀ a : Fin 3, x1 (ix2 r a) = A1 (ix2 i a))
    (h5 : ∀ (d : Fin 256) (k : Fin 64), x5 (ix2 d k) = A5 (ix2 d k))
    (h6 : ∀ (a : Fin 3) (k : Fin 64), x6 (ix2 a k) = A6 (ix2 a k))
    (h7 : ∀ k : Fin 64, x7 (ix2 (0 : Fin 1) k) = A7 (ix2 (0 : Fin 1) k)) (k : Fin 64) :
    k0_pay1 (F := Ideal) (k0_pay6 x0 x1 x5 x6) x7 (ix2 r k)
      = Cert.Spec.proj (Cert.Spec.featN (mat A0)) (mat A1) (fun d k => A5 (ix2 d k)) (fun a k => A6 (ix2 a k))
          (fun k => A7 (ix2 (0 : Fin 1) k)) i k := by
  rw [key_apply]
  unfold Cert.Spec.proj Cert.Spec.featN Cert.Spec.sumSq mat xb
  simp only [h0, h1, h5, h6, h7]

theorem value_block (A0 : S12288x256.Idx → EReal) (A1 : S12288x3.Idx → EReal) (A8 : S256x256.Idx → EReal)
    (A9 : S3x256.Idx → EReal) (A10 : S1x256.Idx → EReal)
    (x0 : Vec Ideal S1024x256 .f32) (x1 : Vec Ideal S1024x3 .f32) (x8 : Vec Ideal S256x256 .bf16)
    (x9 : Vec Ideal S3x256 .bf16) (x10 : Vec Ideal S1x256 .f32) (i : Fin 12288) (r : Fin 1024)
    (h0 : ∀ d : Fin 256, x0 (ix2 r d) = A0 (ix2 i d)) (h1 : ∀ a : Fin 3, x1 (ix2 r a) = A1 (ix2 i a))
    (h8 : ∀ (d : Fin 256) (k : Fin 256), x8 (ix2 d k) = A8 (ix2 d k))
    (h9 : ∀ (a : Fin 3) (k : Fin 256), x9 (ix2 a k) = A9 (ix2 a k))
    (h10 : ∀ k : Fin 256, x10 (ix2 (0 : Fin 1) k) = A10 (ix2 (0 : Fin 1) k)) (k : Fin 256) :
    k0_pay2 (F := Ideal) (k0_pay3 x0) (k0_pay4 x1) x8 x9 x10 (ix2 r k)
      = Cert.Spec.proj (Cert.Spec.featN (mat A0)) (mat A1) (fun d k => A8 (ix2 d k)) (fun a k => A9 (ix2 a k))
          (fun k => A10 (ix2 (0 : Fin 1) k)) i k := by
  rw [value_apply]
  unfold Cert.Spec.proj Cert.Spec.featN Cert.Spec.sumSq mat xb
  simp only [h0, h1, h8, h9, h10]

/-! ## Which rows a grid point reads and writes -/

/-- The windows' index maps over the twelve points: the row-tiled windows are at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

section Arrays

variable (V : (c : Dev nD) → (b : Ref sig .tc) → Buf (Elt Ideal) ((c : Thread nD τ).loc b)) (c : Dev nD)

/-- Row `r` of the features block at point `t` is row 1024·t + r of the features array. -/
theorem read0 (t : Fin cfg0.N) (i : Fin 12288) (r : Fin 1024) (hi : i.val = 1024 * t.val + r.val) (d : Fin 256) :
    (iblk0 V c 0 t : S1024x256.Idx → EReal) (ix2 r d) = (V c (Pipeline.arrRef spec0 0) : S12288x256.Idx → EReal) (ix2 i d) := by
  obtain ⟨e0, e1, -⟩ := idx_facts t
  unfold iblk0
  rw [View.read_apply]
  refine congrArg (V c (Pipeline.arrRef spec0 0) : S12288x256.Idx → EReal) ?_
  funext a
  apply Fin.ext
  match a with
  | ⟨0, _⟩ => show win0_0.index t (0 : Fin 2) * 1024 + 1 * r.val = i.val; rw [e0]; omega
  | ⟨1, _⟩ => show win0_0.index t (1 : Fin 2) * 256 + 1 * d.val = d.val; rw [e1]; omega

/-- Row `r` of the coordinates block at point `t` is row 1024·t + r of the coordinates array. -/
theorem read1 (t : Fin cfg0.N) (i : Fin 12288) (r : Fin 1024) (hi : i.val = 1024 * t.val + r.val) (d : Fin 3) :
    (iblk0 V c 1 t : S1024x3.Idx → EReal) (ix2 r d) = (V c (Pipeline.arrRef spec0 1) : S12288x3.Idx → EReal) (ix2 i d) := by
  obtain ⟨-, -, e0, e1, -⟩ := idx_facts t
  unfold iblk0
  rw [View.read_apply]
  refine congrArg (V c (Pipeline.arrRef spec0 1) : S12288x3.Idx → EReal) ?_
  funext a
  apply Fin.ext
  match a with
  | ⟨0, _⟩ => show win0_1.index t (0 : Fin 2) * 1024 + 1 * r.val = i.val; rw [e0]; omega
  | ⟨1, _⟩ => show win0_1.index t (1 : Fin 2) * 3 + 1 * d.val = d.val; rw [e1]; omega

/-- Window 2's block is its whole array at every point. -/
theorem read2 (t : Fin cfg0.N) (d : Fin 256) (k : Fin 64) :
    (iblk0 V c 2 t : S256x64.Idx → EReal) (ix2 d k) = (V c (Pipeline.arrRef spec0 2) : S256x64.Idx → EReal) (ix2 d k) := by
  obtain ⟨-, -, -, -, e0, e1, -⟩ := idx_facts t
  unfold iblk0
  rw [View.read_apply]
  refine congrArg (V c (Pipeline.arrRef spec0 2) : S256x64.Idx → EReal) ?_
  funext a
  apply Fin.ext
  match a with
  | ⟨0, _⟩ => show win0_2.index t (0 : Fin 2) * 256 + 1 * d.val = d.val; rw [e0]; omega
  | ⟨1, _⟩ => show win0_2.index t (1 : Fin 2) * 64 + 1 * k.val = k.val; rw [e1]; omega

/-- Window 3's block is its whole array at every point. -/
theorem read3 (t : Fin cfg0.N) (d : Fin 3) (k : Fin 64) :
    (iblk0 V c 3 t : S3x64.Idx → EReal) (ix2 d k) = (V c (Pipeline.arrRef spec0 3) : S3x64.Idx → EReal) (ix2 d k) := by
  obtain ⟨-, -, -, -, -, -, e0, e1, -⟩ := idx_facts t
  unfold iblk0
  rw [View.read_apply]
  refine congrArg (V c (Pipeline.arrRef spec0 3) : S3x64.Idx → EReal) ?_
  funext a
  apply Fin.ext
  match a with
  | ⟨0, _⟩ => show win0_3.index t (0 : Fin 2) * 3 + 1 * d.val = d.val; rw [e0]; omega
  | ⟨1, _⟩ => show win0_3.index t (1 : Fin 2) * 64 + 1 * k.val = k.val; rw [e1]; omega

/-- Window 4's block is its whole array at every point. -/
theorem read4 (t : Fin cfg0.N) (d : Fin 1) (k : Fin 64) :
    (iblk0 V c 4 t : S1x64.Idx → EReal) (ix2 d k) = (V c (Pipeline.arrRef spec0 4) : S1x64.Idx → EReal) (ix2 d k) := by
  obtain ⟨-, -, -, -, -, -, -, -, e0, e1, -⟩ := idx_facts t
  unfold iblk0
  rw [View.read_apply]
  refine congrArg (V c (Pipeline.arrRef spec0 4) : S1x64.Idx → EReal) ?_
  funext a
  apply Fin.ext
  match a with
  | ⟨0, _⟩ => show win0_4.index t (0 : Fin 2) * 1 + 1 * d.val = d.val; rw [e0]; omega
  | ⟨1, _⟩ => show win0_4.index t (1 : Fin 2) * 64 + 1 * k.val = k.val; rw [e1]; omega

/-- Window 5's block is its whole array at every point. -/
theorem read5 (t : Fin cfg0.N) (d : Fin 256) (k : Fin 64) :
    (iblk0 V c 5 t : S256x64.Idx → EReal) (ix2 d k) = (V c (Pipeline.arrRef spec0 5) : S256x64.Idx → EReal) (ix2 d k) := by
  obtain ⟨-, -, -, -, -, -, -, -, -, -, e0, e1, -⟩ := idx_facts t
  unfold iblk0
  rw [View.read_apply]
  refine congrArg (V c (Pipeline.arrRef spec0 5) : S256x64.Idx → EReal) ?_
  funext a
  apply Fin.ext
  match a with
  | ⟨0, _⟩ => show win0_5.index t (0 : Fin 2) * 256 + 1 * d.val = d.val; rw [e0]; omega
  | ⟨1, _⟩ => show win0_5.index t (1 : Fin 2) * 64 + 1 * k.val = k.val; rw [e1]; omega

/-- Window 6's block is its whole array at every point. -/
theorem read6 (t : Fin cfg0.N) (d : Fin 3) (k : Fin 64) :
    (iblk0 V c 6 t : S3x64.Idx → EReal) (ix2 d k) = (V c (Pipeline.arrRef spec0 6) : S3x64.Idx → EReal) (ix2 d k) := by
  obtain ⟨-, -, -, -, -, -, -, -, -, -, -, -, e0, e1, -⟩ := idx_facts t
  unfold iblk0
  rw [View.read_apply]
  refine congrArg (V c (Pipeline.arrRef spec0 6) : S3x64.Idx → EReal) ?_
  funext a
  apply Fin.ext
  match a with
  | ⟨0, _⟩ => show win0_6.index t (0 : Fin 2) * 3 + 1 * d.val = d.val; rw [e0]; omega
  | ⟨1, _⟩ => show win0_6.index t (1 : Fin 2) * 64 + 1 * k.val = k.val; rw [e1]; omega

/-- Window 7's block is its whole array at every point. -/
theorem read7 (t : Fin cfg0.N) (d : Fin 1) (k : Fin 64) :
    (iblk0 V c 7 t : S1x64.Idx → EReal) (ix2 d k) = (V c (Pipeline.arrRef spec0 7) : S1x64.Idx → EReal) (ix2 d k) := by
  obtain ⟨-, -, -, -, -, -, -, -, -, -, -, -, -, -, e0, e1, -⟩ := idx_facts t
  unfold iblk0
  rw [View.read_apply]
  refine congrArg (V c (Pipeline.arrRef spec0 7) : S1x64.Idx → EReal) ?_
  funext a
  apply Fin.ext
  match a with
  | ⟨0, _⟩ => show win0_7.index t (0 : Fin 2) * 1 + 1 * d.val = d.val; rw [e0]; omega
  | ⟨1, _⟩ => show win0_7.index t (1 : Fin 2) * 64 + 1 * k.val = k.val; rw [e1]; omega

/-- Window 8's block is its whole array at every point. -/
theorem read8 (t : Fin cfg0.N) (d : Fin 256) (k : Fin 256) :
    (iblk0 V c 8 t : S256x256.Idx → EReal) (ix2 d k) = (V c (Pipeline.arrRef spec0 8) : S256x256.Idx → EReal) (ix2 d k) := by
  obtain ⟨-, -, -, -, -, -, -, -, -, -, -, -, -, -, -, -, e0, e1, -⟩ := idx_facts t
  unfold iblk0
  rw [View.read_apply]
  refine congrArg (V c (Pipeline.arrRef spec0 8) : S256x256.Idx → EReal) ?_
  funext a
  apply Fin.ext
  match a with
  | ⟨0, _⟩ => show win0_8.index t (0 : Fin 2) * 256 + 1 * d.val = d.val; rw [e0]; omega
  | ⟨1, _⟩ => show win0_8.index t (1 : Fin 2) * 256 + 1 * k.val = k.val; rw [e1]; omega

/-- Window 9's block is its whole array at every point. -/
theorem read9 (t : Fin cfg0.N) (d : Fin 3) (k : Fin 256) :
    (iblk0 V c 9 t : S3x256.Idx → EReal) (ix2 d k) = (V c (Pipeline.arrRef spec0 9) : S3x256.Idx → EReal) (ix2 d k) := by
  obtain ⟨-, -, -, -, -, -, -, -, -, -, -, -, -, -, -, -, -, -, e0, e1, -⟩ := idx_facts t
  unfold iblk0
  rw [View.read_apply]
  refine congrArg (V c (Pipeline.arrRef spec0 9) : S3x256.Idx → EReal) ?_
  funext a
  apply Fin.ext
  match a with
  | ⟨0, _⟩ => show win0_9.index t (0 : Fin 2) * 3 + 1 * d.val = d.val; rw [e0]; omega
  | ⟨1, _⟩ => show win0_9.index t (1 : Fin 2) * 256 + 1 * k.val = k.val; rw [e1]; omega

/-- Window 10's block is its whole array at every point. -/
theorem read10 (t : Fin cfg0.N) (d : Fin 1) (k : Fin 256) :
    (iblk0 V c 10 t : S1x256.Idx → EReal) (ix2 d k) = (V c (Pipeline.arrRef spec0 10) : S1x256.Idx → EReal) (ix2 d k) := by
  obtain ⟨-, -, -, -, -, -, -, -, -, -, -, -, -, -, -, -, -, -, -, -, e0, e1, -⟩ := idx_facts t
  unfold iblk0
  rw [View.read_apply]
  refine congrArg (V c (Pipeline.arrRef spec0 10) : S1x256.Idx → EReal) ?_
  funext a
  apply Fin.ext
  match a with
  | ⟨0, _⟩ => show win0_10.index t (0 : Fin 2) * 1 + 1 * d.val = d.val; rw [e0]; omega
  | ⟨1, _⟩ => show win0_10.index t (1 : Fin 2) * 256 + 1 * k.val = k.val; rw [e1]; omega

/-- The query array: each row the affine image of its point under the first weight cut, second weight cut and bias. -/
def qArr : S12288x64.Idx → EReal := fun idx =>
  Cert.Spec.proj (Cert.Spec.featN (mat (V c (Pipeline.arrRef spec0 0) : S12288x256.Idx → EReal)))
    (mat (V c (Pipeline.arrRef spec0 1) : S12288x3.Idx → EReal))
    (fun d k => (V c (Pipeline.arrRef spec0 2) : S256x64.Idx → EReal) (ix2 d k))
    (fun a k => (V c (Pipeline.arrRef spec0 3) : S3x64.Idx → EReal) (ix2 a k))
    (fun k => (V c (Pipeline.arrRef spec0 4) : S1x64.Idx → EReal) (ix2 (0 : Fin 1) k)) (idx 0) (idx 1)

/-- The key array, likewise. -/
def kArr : S12288x64.Idx → EReal := fun idx =>
  Cert.Spec.proj (Cert.Spec.featN (mat (V c (Pipeline.arrRef spec0 0) : S12288x256.Idx → EReal)))
    (mat (V c (Pipeline.arrRef spec0 1) : S12288x3.Idx → EReal))
    (fun d k => (V c (Pipeline.arrRef spec0 5) : S256x64.Idx → EReal) (ix2 d k))
    (fun a k => (V c (Pipeline.arrRef spec0 6) : S3x64.Idx → EReal) (ix2 a k))
    (fun k => (V c (Pipeline.arrRef spec0 7) : S1x64.Idx → EReal) (ix2 (0 : Fin 1) k)) (idx 0) (idx 1)

/-- The value array, likewise, 256 columns wide. -/
def vArr : S12288x256.Idx → EReal := fun idx =>
  Cert.Spec.proj (Cert.Spec.featN (mat (V c (Pipeline.arrRef spec0 0) : S12288x256.Idx → EReal)))
    (mat (V c (Pipeline.arrRef spec0 1) : S12288x3.Idx → EReal))
    (fun d k => (V c (Pipeline.arrRef spec0 8) : S256x256.Idx → EReal) (ix2 d k))
    (fun a k => (V c (Pipeline.arrRef spec0 9) : S3x256.Idx → EReal) (ix2 a k))
    (fun k => (V c (Pipeline.arrRef spec0 10) : S1x256.Idx → EReal) (ix2 (0 : Fin 1) k)) (idx 0) (idx 1)

/-- What point `t` writes back to the query array is rows 1024·t … 1024·t + 1023 of `qArr`. -/
theorem flushed_q (t : Fin cfg0.N) :
    (dat0 V c).flushed 11 t = ((cfg0.win 11).blk t).view.read (Elt Ideal) (qArr V c) := by
  show (cfg0.win 11).cut (grid0.coords t) ((dat0 V c).after 11 t) = _
  rw [after0_11, out0_11_eq]
  obtain ⟨-, -, -, -, -, -, -, -, -, -, -, -, -, -, -, -, -, -, -, -, -, -, e0, e1, -⟩ := idx_facts t
  have ht : t.val < 12 := Nat.lt_of_lt_of_eq t.isLt N_0
  refine funext fun (j : S1024x64.Idx) => ?_
  obtain ⟨r, k, rfl⟩ : ∃ (r : Fin 1024) (k : Fin 64), j = ix2 r k := ⟨j 0, j 1, eq_ix2 j⟩
  have hr : r.val < 1024 := r.isLt
  rw [View.read_apply]
  have hemb : ((cfg0.win 11).blk t).view.emb (ix2 r k) = ix2 (⟨1024 * t.val + r.val, by omega⟩ : Fin 12288) k := by
    funext a
    apply Fin.ext
    match a with
    | ⟨0, _⟩ => show win0_11.index t (0 : Fin 2) * 1024 + 1 * r.val = 1024 * t.val + r.val; rw [e0]; omega
    | ⟨1, _⟩ => show win0_11.index t (1 : Fin 2) * 64 + 1 * k.val = k.val; rw [e1]; omega
  rw [hemb]
  exact query_block _ _ _ _ _ (iblk0 V c 0 t) (iblk0 V c 1 t) (iblk0 V c 2 t) (iblk0 V c 3 t) (iblk0 V c 4 t)
    (⟨1024 * t.val + r.val, by omega⟩ : Fin 12288) r (read0 V c t _ r rfl) (read1 V c t _ r rfl) (read2 V c t) (read3 V c t)
    (read4 V c t (0 : Fin 1)) k

/-- A row is in point `t`'s block of the query array iff each coordinate is in the block's range. -/
theorem mem_blk_q (t : Fin cfg0.N) (i : S12288x64.Idx) :
    i ∈ ((cfg0.win 11).blk t).view.set
      ↔ ∀ a : Fin 2, win0_11.index t a * S1024x64.size a ≤ (i a).val ∧ (i a).val < win0_11.index t a * S1024x64.size a + S1024x64.size a := by
  show i ∈ ((View.whole main_v22_0).slice (win0_11.rect t)).set ↔ _
  rw [View.set_slice_whole, Rect.mem_set_unit]
  exact Iff.rfl

/-- Every row is in the block of the point its tile of 1024 rows belongs to. -/
theorem cover_q (i : S12288x64.Idx) :
    ∃ t : Fin cfg0.N, (cfg0.win 11).flush t = true ∧ i ∈ ((cfg0.win 11).blk t).view.set := by
  have h0 : (i 0).val < 12288 := (i 0).isLt
  have h1 : (i 1).val < 64 := (i 1).isLt
  have hlt : (i 0).val / 1024 < cfg0.N := by rw [show cfg0.N = 12 from N_0]; omega
  obtain ⟨-, -, -, -, -, -, -, -, -, -, -, -, -, -, -, -, -, -, -, -, -, -, e0, e1, -⟩ := idx_facts ⟨(i 0).val / 1024, hlt⟩
  refine ⟨⟨(i 0).val / 1024, hlt⟩, flush0_11 _, ?_⟩
  rw [mem_blk_q]
  intro a
  match a with
  | ⟨0, _⟩ =>
    show win0_11.index ⟨(i 0).val / 1024, hlt⟩ (0 : Fin 2) * 1024 ≤ (i 0).val
      ∧ (i 0).val < win0_11.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_11.index ⟨(i 0).val / 1024, hlt⟩ (1 : Fin 2) * 64 ≤ (i 1).val
      ∧ (i 1).val < win0_11.index ⟨(i 0).val / 1024, hlt⟩ (1 : Fin 2) * 64 + 64
    rw [e1]
    omega

/-- The query array after the twelve points. -/
theorem final_q : (dat0 V c).arrAt 11 cfg0.N = qArr V c :=
  (dat0 V c).arrAt_eq_of_cover 11 (qArr V c) (fun t _ => flushed_q V c t) cover_q

/-- What point `t` writes back to the key array is rows 1024·t … 1024·t + 1023 of `kArr`. -/
theorem flushed_k (t : Fin cfg0.N) :
    (dat0 V c).flushed 12 t = ((cfg0.win 12).blk t).view.read (Elt Ideal) (kArr V c) := by
  show (cfg0.win 12).cut (grid0.coords t) ((dat0 V c).after 12 t) = _
  rw [after0_12, out0_12_eq]
  obtain ⟨-, -, -, -, -, -, -, -, -, -, -, -, -, -, -, -, -, -, -, -, -, -, -, -, e0, e1, -⟩ := idx_facts t
  have ht : t.val < 12 := Nat.lt_of_lt_of_eq t.isLt N_0
  refine funext fun (j : S1024x64.Idx) => ?_
  obtain ⟨r, k, rfl⟩ : ∃ (r : Fin 1024) (k : Fin 64), j = ix2 r k := ⟨j 0, j 1, eq_ix2 j⟩
  have hr : r.val < 1024 := r.isLt
  rw [View.read_apply]
  have hemb : ((cfg0.win 12).blk t).view.emb (ix2 r k) = ix2 (⟨1024 * t.val + r.val, by omega⟩ : Fin 12288) k := by
    funext a
    apply Fin.ext
    match a with
    | ⟨0, _⟩ => show win0_12.index t (0 : Fin 2) * 1024 + 1 * r.val = 1024 * t.val + r.val; rw [e0]; omega
    | ⟨1, _⟩ => show win0_12.index t (1 : Fin 2) * 64 + 1 * k.val = k.val; rw [e1]; omega
  rw [hemb]
  exact key_block _ _ _ _ _ (iblk0 V c 0 t) (iblk0 V c 1 t) (iblk0 V c 5 t) (iblk0 V c 6 t) (iblk0 V c 7 t)
    (⟨1024 * t.val + r.val, by omega⟩ : Fin 12288) r (read0 V c t _ r rfl) (read1 V c t _ r rfl) (read5 V c t) (read6 V c t)
    (read7 V c t (0 : Fin 1)) k

/-- A row is in point `t`'s block of the key array iff each coordinate is in the block's range. -/
theorem mem_blk_k (t : Fin cfg0.N) (i : S12288x64.Idx) :
    i ∈ ((cfg0.win 12).blk t).view.set
      ↔ ∀ a : Fin 2, win0_12.index t a * S1024x64.size a ≤ (i a).val ∧ (i a).val < win0_12.index t a * S1024x64.size a + S1024x64.size a := by
  show i ∈ ((View.whole main_v22_1).slice (win0_12.rect t)).set ↔ _
  rw [View.set_slice_whole, Rect.mem_set_unit]
  exact Iff.rfl

/-- Every row is in the block of the point its tile of 1024 rows belongs to. -/
theorem cover_k (i : S12288x64.Idx) :
    ∃ t : Fin cfg0.N, (cfg0.win 12).flush t = true ∧ i ∈ ((cfg0.win 12).blk t).view.set := by
  have h0 : (i 0).val < 12288 := (i 0).isLt
  have h1 : (i 1).val < 64 := (i 1).isLt
  have hlt : (i 0).val / 1024 < cfg0.N := by rw [show cfg0.N = 12 from N_0]; omega
  obtain ⟨-, -, -, -, -, -, -, -, -, -, -, -, -, -, -, -, -, -, -, -, -, -, -, -, e0, e1, -⟩ := idx_facts ⟨(i 0).val / 1024, hlt⟩
  refine ⟨⟨(i 0).val / 1024, hlt⟩, flush0_12 _, ?_⟩
  rw [mem_blk_k]
  intro a
  match a with
  | ⟨0, _⟩ =>
    show win0_12.index ⟨(i 0).val / 1024, hlt⟩ (0 : Fin 2) * 1024 ≤ (i 0).val
      ∧ (i 0).val < win0_12.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_12.index ⟨(i 0).val / 1024, hlt⟩ (1 : Fin 2) * 64 ≤ (i 1).val
      ∧ (i 1).val < win0_12.index ⟨(i 0).val / 1024, hlt⟩ (1 : Fin 2) * 64 + 64
    rw [e1]
    omega

/-- The key array after the twelve points. -/
theorem final_k : (dat0 V c).arrAt 12 cfg0.N = kArr V c :=
  (dat0 V c).arrAt_eq_of_cover 12 (kArr V c) (fun t _ => flushed_k V c t) cover_k

/-- What point `t` writes back to the value array is rows 1024·t … 1024·t + 1023 of `vArr`. -/
theorem flushed_v (t : Fin cfg0.N) :
    (dat0 V c).flushed 13 t = ((cfg0.win 13).blk t).view.read (Elt Ideal) (vArr V c) := by
  show (cfg0.win 13).cut (grid0.coords t) ((dat0 V c).after 13 t) = _
  rw [after0_13, out0_13_eq]
  obtain ⟨-, -, -, -, -, -, -, -, -, -, -, -, -, -, -, -, -, -, -, -, -, -, -, -, -, -, e0, e1⟩ := idx_facts t
  have ht : t.val < 12 := Nat.lt_of_lt_of_eq t.isLt N_0
  refine funext fun (j : S1024x256.Idx) => ?_
  obtain ⟨r, k, rfl⟩ : ∃ (r : Fin 1024) (k : Fin 256), j = ix2 r k := ⟨j 0, j 1, eq_ix2 j⟩
  have hr : r.val < 1024 := r.isLt
  rw [View.read_apply]
  have hemb : ((cfg0.win 13).blk t).view.emb (ix2 r k) = ix2 (⟨1024 * t.val + r.val, by omega⟩ : Fin 12288) k := by
    funext a
    apply Fin.ext
    match a with
    | ⟨0, _⟩ => show win0_13.index t (0 : Fin 2) * 1024 + 1 * r.val = 1024 * t.val + r.val; rw [e0]; omega
    | ⟨1, _⟩ => show win0_13.index t (1 : Fin 2) * 256 + 1 * k.val = k.val; rw [e1]; omega
  rw [hemb]
  exact value_block _ _ _ _ _ (iblk0 V c 0 t) (iblk0 V c 1 t) (iblk0 V c 8 t) (iblk0 V c 9 t) (iblk0 V c 10 t)
    (⟨1024 * t.val + r.val, by omega⟩ : Fin 12288) r (read0 V c t _ r rfl) (read1 V c t _ r rfl) (read8 V c t) (read9 V c t)
    (read10 V c t (0 : Fin 1)) k

/-- A row is in point `t`'s block of the value array iff each coordinate is in the block's range. -/
theorem mem_blk_v (t : Fin cfg0.N) (i : S12288x256.Idx) :
    i ∈ ((cfg0.win 13).blk t).view.set
      ↔ ∀ a : Fin 2, win0_13.index t a * S1024x256.size a ≤ (i a).val ∧ (i a).val < win0_13.index t a * S1024x256.size a + S1024x256.size a := by
  show i ∈ ((View.whole main_v22_2).slice (win0_13.rect t)).set ↔ _
  rw [View.set_slice_whole, Rect.mem_set_unit]
  exact Iff.rfl

/-- Every row is in the block of the point its tile of 1024 rows belongs to. -/
theorem cover_v (i : S12288x256.Idx) :
    ∃ t : Fin cfg0.N, (cfg0.win 13).flush t = true ∧ i ∈ ((cfg0.win 13).blk t).view.set := by
  have h0 : (i 0).val < 12288 := (i 0).isLt
  have h1 : (i 1).val < 256 := (i 1).isLt
  have hlt : (i 0).val / 1024 < cfg0.N := by rw [show cfg0.N = 12 from N_0]; omega
  obtain ⟨-, -, -, -, -, -, -, -, -, -, -, -, -, -, -, -, -, -, -, -, -, -, -, -, -, -, e0, e1⟩ := idx_facts ⟨(i 0).val / 1024, hlt⟩
  refine ⟨⟨(i 0).val / 1024, hlt⟩, flush0_13 _, ?_⟩
  rw [mem_blk_v]
  intro a
  match a with
  | ⟨0, _⟩ =>
    show win0_13.index ⟨(i 0).val / 1024, hlt⟩ (0 : Fin 2) * 1024 ≤ (i 0).val
      ∧ (i 0).val < win0_13.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_13.index ⟨(i 0).val / 1024, hlt⟩ (1 : Fin 2) * 256 ≤ (i 1).val
      ∧ (i 1).val < win0_13.index ⟨(i 0).val / 1024, hlt⟩ (1 : Fin 2) * 256 + 256
    rw [e1]
    omega

/-- The value array after the twelve points. -/
theorem final_v : (dat0 V c).arrAt 13 cfg0.N = vArr V c :=
  (dat0 V c).arrAt_eq_of_cover 13 (vArr V c) (fun t _ => flushed_v V c t) cover_v

end Arrays

/-! ## At the contents the host operations leave: the three arrays as functions of the arguments -/

section AtArguments

variable (m : (ℓ : Loc nD τ sig) → Buf (Elt Ideal) ℓ) (c : Dev nD)

/-- The affine image of every point under one 259-row weight matrix and its bias, from the arguments. -/
def projOf {n : ℕ} (f : (⟨S12288x256, .f32⟩ : BufTy).Contents (Elt Ideal)) (co : (⟨S12288x3, .i32⟩ : BufTy).Contents (Elt Ideal))
    (ts : (⟨S3, .f32⟩ : BufTy).Contents (Elt Ideal)) (W : (⟨⟨2, ![259, n]⟩, .f32⟩ : BufTy).Contents (Elt Ideal))
    (b : (⟨⟨1, ![n]⟩, .f32⟩ : BufTy).Contents (Elt Ideal)) (i : Fin 12288) (k : Fin n) : EReal :=
  Cert.Spec.proj (Cert.Spec.featN (mat f)) (Cert.Spec.coordsN (imat co) (vec ts)) (wTop W) (wBot W) (vec b) i k

theorem qArr_args :
    qArr (fun c b => V3 (F := Ideal) m c b) c = fun idx =>
      projOf (m ((c : Thread nD τ).loc main_arg0)) (m ((c : Thread nD τ).loc main_arg1)) (m ((c : Thread nD τ).loc main_arg2))
        (m ((c : Thread nD τ).loc main_arg3)) (m ((c : Thread nD τ).loc main_arg4)) (idx 0) (idx 1) := by
  have h0 : (V3 (F := Ideal) m c main_arg0 : S12288x256.Idx → EReal) = m ((c : Thread nD τ).loc main_arg0) := V3_feat m c
  have h1 : mat (V3 (F := Ideal) m c main_v6 : S12288x3.Idx → EReal)
      = Cert.Spec.coordsN (imat (m ((c : Thread nD τ).loc main_arg1))) (vec (m ((c : Thread nD τ).loc main_arg2))) :=
    funext fun i => funext fun a => V3_coords m c i a
  have h2 : (fun (d : Fin 256) (k : Fin 64) => (V3 (F := Ideal) m c main_v13 : S256x64.Idx → EReal) (ix2 d k))
      = wTop (m ((c : Thread nD τ).loc main_arg3)) := funext fun d => funext fun k => V3_wq_top m c d k
  have h3 : (fun (a : Fin 3) (k : Fin 64) => (V3 (F := Ideal) m c main_v14 : S3x64.Idx → EReal) (ix2 a k))
      = wBot (m ((c : Thread nD τ).loc main_arg3)) := funext fun a => funext fun k => V3_wq_bot m c a k
  have h4 : (fun (k : Fin 64) => (V3 (F := Ideal) m c main_v19 : S1x64.Idx → EReal) (ix2 (0 : Fin 1) k))
      = vec (m ((c : Thread nD τ).loc main_arg4)) := funext fun k => V3_bq m c k
  funext idx
  show Cert.Spec.proj (Cert.Spec.featN (mat (V3 (F := Ideal) m c main_arg0 : S12288x256.Idx → EReal)))
      (mat (V3 (F := Ideal) m c main_v6 : S12288x3.Idx → EReal))
      (fun (d : Fin 256) (k : Fin 64) => (V3 (F := Ideal) m c main_v13 : S256x64.Idx → EReal) (ix2 d k))
      (fun (a : Fin 3) (k : Fin 64) => (V3 (F := Ideal) m c main_v14 : S3x64.Idx → EReal) (ix2 a k))
      (fun (k : Fin 64) => (V3 (F := Ideal) m c main_v19 : S1x64.Idx → EReal) (ix2 (0 : Fin 1) k)) (idx 0) (idx 1) = _
  rw [h0, h1, h2, h3, h4]
  rfl

theorem kArr_args :
    kArr (fun c b => V3 (F := Ideal) m c b) c = fun idx =>
      projOf (m ((c : Thread nD τ).loc main_arg0)) (m ((c : Thread nD τ).loc main_arg1)) (m ((c : Thread nD τ).loc main_arg2))
        (m ((c : Thread nD τ).loc main_arg5)) (m ((c : Thread nD τ).loc main_arg6)) (idx 0) (idx 1) := by
  have h0 : (V3 (F := Ideal) m c main_arg0 : S12288x256.Idx → EReal) = m ((c : Thread nD τ).loc main_arg0) := V3_feat m c
  have h1 : mat (V3 (F := Ideal) m c main_v6 : S12288x3.Idx → EReal)
      = Cert.Spec.coordsN (imat (m ((c : Thread nD τ).loc main_arg1))) (vec (m ((c : Thread nD τ).loc main_arg2))) :=
    funext fun i => funext fun a => V3_coords m c i a
  have h2 : (fun (d : Fin 256) (k : Fin 64) => (V3 (F := Ideal) m c main_v15 : S256x64.Idx → EReal) (ix2 d k))
      = wTop (m ((c : Thread nD τ).loc main_arg5)) := funext fun d => funext fun k => V3_wk_top m c d k
  have h3 : (fun (a : Fin 3) (k : Fin 64) => (V3 (F := Ideal) m c main_v16 : S3x64.Idx → EReal) (ix2 a k))
      = wBot (m ((c : Thread nD τ).loc main_arg5)) := funext fun a => funext fun k => V3_wk_bot m c a k
  have h4 : (fun (k : Fin 64) => (V3 (F := Ideal) m c main_v20 : S1x64.Idx → EReal) (ix2 (0 : Fin 1) k))
      = vec (m ((c : Thread nD τ).loc main_arg6)) := funext fun k => V3_bk m c k
  funext idx
  show Cert.Spec.proj (Cert.Spec.featN (mat (V3 (F := Ideal) m c main_arg0 : S12288x256.Idx → EReal)))
      (mat (V3 (F := Ideal) m c main_v6 : S12288x3.Idx → EReal))
      (fun (d : Fin 256) (k : Fin 64) => (V3 (F := Ideal) m c main_v15 : S256x64.Idx → EReal) (ix2 d k))
      (fun (a : Fin 3) (k : Fin 64) => (V3 (F := Ideal) m c main_v16 : S3x64.Idx → EReal) (ix2 a k))
      (fun (k : Fin 64) => (V3 (F := Ideal) m c main_v20 : S1x64.Idx → EReal) (ix2 (0 : Fin 1) k)) (idx 0) (idx 1) = _
  rw [h0, h1, h2, h3, h4]
  rfl

theorem vArr_args :
    vArr (fun c b => V3 (F := Ideal) m c b) c = fun idx =>
      projOf (m ((c : Thread nD τ).loc main_arg0)) (m ((c : Thread nD τ).loc main_arg1)) (m ((c : Thread nD τ).loc main_arg2))
        (m ((c : Thread nD τ).loc main_arg7)) (m ((c : Thread nD τ).loc main_arg8)) (idx 0) (idx 1) := by
  have h0 : (V3 (F := Ideal) m c main_arg0 : S12288x256.Idx → EReal) = m ((c : Thread nD τ).loc main_arg0) := V3_feat m c
  have h1 : mat (V3 (F := Ideal) m c main_v6 : S12288x3.Idx → EReal)
      = Cert.Spec.coordsN (imat (m ((c : Thread nD τ).loc main_arg1))) (vec (m ((c : Thread nD τ).loc main_arg2))) :=
    funext fun i => funext fun a => V3_coords m c i a
  have h2 : (fun (d : Fin 256) (k : Fin 256) => (V3 (F := Ideal) m c main_v17 : S256x256.Idx → EReal) (ix2 d k))
      = wTop (m ((c : Thread nD τ).loc main_arg7)) := funext fun d => funext fun k => V3_wv_top m c d k
  have h3 : (fun (a : Fin 3) (k : Fin 256) => (V3 (F := Ideal) m c main_v18 : S3x256.Idx → EReal) (ix2 a k))
      = wBot (m ((c : Thread nD τ).loc main_arg7)) := funext fun a => funext fun k => V3_wv_bot m c a k
  have h4 : (fun (k : Fin 256) => (V3 (F := Ideal) m c main_v21 : S1x256.Idx → EReal) (ix2 (0 : Fin 1) k))
      = vec (m ((c : Thread nD τ).loc main_arg8)) := funext fun k => V3_bv m c k
  funext idx
  show Cert.Spec.proj (Cert.Spec.featN (mat (V3 (F := Ideal) m c main_arg0 : S12288x256.Idx → EReal)))
      (mat (V3 (F := Ideal) m c main_v6 : S12288x3.Idx → EReal))
      (fun (d : Fin 256) (k : Fin 256) => (V3 (F := Ideal) m c main_v17 : S256x256.Idx → EReal) (ix2 d k))
      (fun (a : Fin 3) (k : Fin 256) => (V3 (F := Ideal) m c main_v18 : S3x256.Idx → EReal) (ix2 a k))
      (fun (k : Fin 256) => (V3 (F := Ideal) m c main_v21 : S1x256.Idx → EReal) (ix2 (0 : Fin 1) k)) (idx 0) (idx 1) = _
  rw [h0, h1, h2, h3, h4]
  rfl

end AtArguments

end Cert.KernelIdeal.ProjValue

end
-- ==== Proof.RefValue.lean ====
/-
  The reference's result, read one host operation at a time, as one explicit function of the argument arrays.
-/
import proofs.«174622_j3590592660316_1_alg».proof.Defs
import proofs.«174622_j3590592660316_1_alg».proof.Proof.Gen.ReferenceIdeal.Read
import proofs.«174622_j3590592660316_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The argument arrays by coordinates -/

/-- A float matrix's entry at row `i`, column `d`. -/
def mat {n0 n1 : Nat} (x : (⟨⟨2, ![n0, n1]⟩, .f32⟩ : BufTy).Contents (Elt Ideal)) (i : Fin n0) (d : Fin n1) : EReal := x (ix2 i d)

/-- A float vector's entry at `k`. -/
def vec {n : Nat} (x : (⟨⟨1, ![n]⟩, .f32⟩ : BufTy).Contents (Elt Ideal)) (k : Fin n) : EReal := x (ix1 k)

/-- An integer matrix's entry, read signed, as a real. -/
def imat {n0 n1 : Nat} (x : (⟨⟨2, ![n0, n1]⟩, .i32⟩ : BufTy).Contents (Elt Ideal)) (i : Fin n0) (a : Fin n1) : EReal :=
  (((x (ix2 i a)).toInt : ℝ) : EReal)

/-- The first 256 rows of a 259-row weight matrix: the rows that meet the scaled features. -/
def wTop {n : Nat} (W : (⟨⟨2, ![259, n]⟩, .f32⟩ : BufTy).Contents (Elt Ideal)) (d : Fin 256) (k : Fin n) : EReal :=
  W (ix2 (⟨d.val, by omega⟩ : Fin 259) k)

/-- Its last 3 rows: the rows that meet the coordinates. -/
def wBot {n : Nat} (W : (⟨⟨2, ![259, n]⟩, .f32⟩ : BufTy).Contents (Elt Ideal)) (a : Fin 3) (k : Fin n) : EReal :=
  W (ix2 (⟨256 + a.val, by omega⟩ : Fin 259) k)

/-- One eighth, as the float literal that denotes it. -/
abbrev s8 : EReal := Ideal.ofBits .f32 0x3E000000#32

/-- A point's 259 entries against a weight matrix, plus the bias: the query, key or value rows. -/
def projOf {n : Nat} (f : (⟨S12288x256, .f32⟩ : BufTy).Contents (Elt Ideal)) (co : (⟨S12288x3, .i32⟩ : BufTy).Contents (Elt Ideal))
    (ts : (⟨S3, .f32⟩ : BufTy).Contents (Elt Ideal)) (W : (⟨⟨2, ![259, n]⟩, .f32⟩ : BufTy).Contents (Elt Ideal))
    (b : (⟨⟨1, ![n]⟩, .f32⟩ : BufTy).Contents (Elt Ideal)) : Fin 12288 → Fin n → EReal :=
  Spec.proj (Spec.featN (mat f)) (Spec.coordsN (imat co) (vec ts)) (wTop W) (wBot W) (vec b)

/-- The scores of all pairs of points. -/
def scoreOf (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) : Fin 12288 → Fin 12288 → EReal :=
  Spec.score s8 (projOf f co ts Wq bq) (projOf f co ts Wk bk)

/-- The reference's result as a function of the nine argument arrays, by coordinates. -/
def refOut (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (Wv : (⟨S259x256, .f32⟩ : BufTy).Contents (Elt Ideal))
    (bv : (⟨S256, .f32⟩ : BufTy).Contents (Elt Ideal)) : Fin 12288 → Fin 256 → EReal :=
  Spec.out (scoreOf f co ts Wq bq Wk bk) (projOf f co ts Wv bv) (mat f)

/-! ## The float literals the reference spells -/

/-- The zero word denotes `0`. -/
theorem ofBits_zero : Ideal.ofBits .f32 0x00000000#32 = 0 := by
  simp [Ideal.ofBits, Ideal.ieee]

/-- The word of minus infinity denotes `⊥`. -/
theorem ofBits_ninf : Ideal.ofBits .f32 0xFF800000#32 = ⊥ := by
  simp [Ideal.ofBits, Ideal.ieee]

/-- The word `64.0` denotes the real `64`. -/
theorem ofBits_64 : Ideal.ofBits .f32 0x42800000#32 = ((64 : ℝ) : EReal) := by
  simp [Ideal.ofBits, Ideal.ieee, -EReal.coe_mul]; norm_num

/-- The word `0.125` denotes the real `1/8`. -/
theorem ofBits_eighth : Ideal.ofBits .f32 0x3E000000#32 = ((1 / 8 : ℝ) : EReal) := by
  simp [Ideal.ofBits, Ideal.ieee, -EReal.coe_mul]; norm_num

/-- Dividing by the square root of `64.0` is multiplying by `0.125`, on every extended real. -/
theorem div_sqrt64 (x : EReal) :
    Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8, Ideal.div_coe (by norm_num)]

/-! ## Indices of the intermediate arrays, by coordinates -/

/-- Two rank-2 indices with the same two coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

/-! ## The scaled features -/

/-- A row's sum of squares, as the reference's first sum computes it. -/
theorem sumSq_at (f : (⟨S12288x256, .f32⟩ : BufTy).Contents (Elt Ideal)) (i : Fin 12288) :
    val_main_call0_v1 (F := Ideal) f (ix1 i) = Spec.sumSq (mat f) i := by
  rw [val_main_call0_v1_apply, val_main_call0_cst_apply, Ideal.ofBits_def, ofBits_zero, zero_add]
  unfold Spec.sumSq mat
  refine Finset.sum_congr rfl fun k _ => ?_
  rw [val_main_call0_v0_apply, Ideal.mulf_def, show idx_main_call0_v1 (ix1 i) k = ix2 i k by idx2]

/-- The scaled features: a row over (its norm plus eps). -/
theorem featN_at (f : (⟨S12288x256, .f32⟩ : BufTy).Contents (Elt Ideal)) (i : Fin 12288) (d : Fin 256) :
    val_main_v4 (F := Ideal) f (ix2 i d) = Spec.featN (mat f) i d := by
  rw [val_main_v4_apply, val_main_v3_apply, val_main_v2_apply, val_main_v0_apply, val_main_call0_v2_apply,
    val_main_v1_apply, val_main_cst_apply,
    show idx_main_call0_v2 (idx_main_v3 (ix2 i d)) = ix1 i by idx1, sumSq_at]
  rfl

/-! ## The normalized coordinates -/

/-- The clamped coordinates over the stride. -/
theorem coordsN_at (co : (⟨S12288x3, .i32⟩ : BufTy).Contents (Elt Ideal)) (ts : (⟨S3, .f32⟩ : BufTy).Contents (Elt Ideal))
    (i : Fin 12288) (a : Fin 3) :
    val_main_v11 (F := Ideal) co ts (ix2 i a) = Spec.coordsN (imat co) (vec ts) i a := by
  rw [val_main_v11_apply, val_main_call1_v4_apply, val_main_call1_v3_apply, val_main_cst_2_apply,
    val_main_call1_v2_apply, val_main_call1_v1_apply, val_main_call1_v0_apply, val_main_cst_1_apply,
    val_main_v10_apply, val_main_v7_apply, val_main_v9_apply, val_main_v8_apply, val_main_v6_apply,
    val_main_v5_apply, val_main_cst_0_apply,
    show idx_main_v8 (idx_main_v9 (ix2 i a)) = ix1 a by idx1]
  rfl

/-! ## A point's 259 entries and their affine images -/

/-- A sum over 259 entries splits where the 256 features end and the 3 coordinates begin. -/
theorem sum_259 (g : Fin 259 → EReal) :
    ∑ r : Fin 259, g r = ∑ d : Fin 256, g ⟨d.val, by omega⟩ + ∑ a : Fin 3, g ⟨256 + a.val, by omega⟩ :=
  Fin.sum_univ_add (a := 256) (b := 3) g

/-- The first 256 entries of a point are its scaled features. -/
theorem concat_left (f : (⟨S12288x256, .f32⟩ : BufTy).Contents (Elt Ideal)) (co : (⟨S12288x3, .i32⟩ : BufTy).Contents (Elt Ideal))
    (ts : (⟨S3, .f32⟩ : BufTy).Contents (Elt Ideal)) (i : Fin 12288) (d : Fin 256) :
    val_main_v12 (F := Ideal) f co ts (ix2 i (⟨d.val, by omega⟩ : Fin 259)) = Spec.featN (mat f) i d := by
  rw [← featN_at]
  unfold val_main_v12
  generalize val_main_v4 (F := Ideal) f = y4
  generalize val_main_v11 (F := Ideal) co ts = y11
  exact concatenate_pair_apply_left (t := S12288x259) 1 y4 y11 concatenates_S12288x256_S12288x3_S12288x259_d1
    (ix2 i (⟨d.val, by omega⟩ : Fin 259)) rfl (ix2 i d)
    (fun b => by match b with | ⟨0, _⟩ => rfl | ⟨1, _⟩ => rfl)

/-- The last 3 entries of a point are its normalized coordinates. -/
theorem concat_right (f : (⟨S12288x256, .f32⟩ : BufTy).Contents (Elt Ideal)) (co : (⟨S12288x3, .i32⟩ : BufTy).Contents (Elt Ideal))
    (ts : (⟨S3, .f32⟩ : BufTy).Contents (Elt Ideal)) (i : Fin 12288) (a : Fin 3) :
    val_main_v12 (F := Ideal) f co ts (ix2 i (⟨256 + a.val, by omega⟩ : Fin 259)) = Spec.coordsN (imat co) (vec ts) i a := by
  rw [← coordsN_at]
  unfold val_main_v12
  generalize val_main_v4 (F := Ideal) f = y4
  generalize val_main_v11 (F := Ideal) co ts = y11
  exact concatenate_pair_apply_right (t := S12288x259) 1 y4 y11 concatenates_S12288x256_S12288x3_S12288x259_d1
    (ix2 i (⟨256 + a.val, by omega⟩ : Fin 259)) rfl rfl (ix2 i a)
    (fun b hb => by match b with | ⟨0, _⟩ => rfl | ⟨1, _⟩ => exact absurd rfl hb)
    (Nat.add_comm a.val 256)

/-- A point against a 259-row weight matrix, plus the bias, is the affine image the specification names. -/
theorem proj_sum {n : Nat} (f : (⟨S12288x256, .f32⟩ : BufTy).Contents (Elt Ideal)) (co : (⟨S12288x3, .i32⟩ : BufTy).Contents (Elt Ideal))
    (ts : (⟨S3, .f32⟩ : BufTy).Contents (Elt Ideal)) (W : (⟨⟨2, ![259, n]⟩, .f32⟩ : BufTy).Contents (Elt Ideal))
    (b : (⟨⟨1, ![n]⟩, .f32⟩ : BufTy).Contents (Elt Ideal)) (i : Fin 12288) (c : Fin n) :
    (∑ k : Fin 259, val_main_v12 (F := Ideal) f co ts (ix2 i k) * W (ix2 k c)) + b (ix1 c) = projOf f co ts W b i c := by
  rw [sum_259]
  simp only [concat_left, concat_right]
  rfl

/-- The query rows. -/
theorem q_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (i : Fin 12288) (c : Fin 64) :
    val_main_v16 (F := Ideal) f co ts Wq bq (ix2 i c) = projOf f co ts Wq bq i c := by
  rw [val_main_v16_apply, val_main_v13_apply, val_main_v15_apply, val_main_v14_apply, Ideal.addf_def,
    show idx_main_v14 (idx_main_v15 (ix2 i c)) = ix1 c by idx1]
  refine (congrArg (· + bq (ix1 c)) (Finset.sum_congr rfl fun k _ => ?_)).trans (proj_sum f co ts Wq bq i c)
  rw [show lidx_main_v13 (ix2 i c) k = ix2 i k by idx2, show ridx_main_v13 (ix2 i c) k = ix2 k c by idx2]

/-- The key rows. -/
theorem k_at (f : (⟨S12288x256, .f32⟩ : BufTy).Contents (Elt Ideal)) (co : (⟨S12288x3, .i32⟩ : BufTy).Contents (Elt Ideal))
    (ts : (⟨S3, .f32⟩ : BufTy).Contents (Elt Ideal)) (Wk : (⟨S259x64, .f32⟩ : BufTy).Contents (Elt Ideal))
    (bk : (⟨S64, .f32⟩ : BufTy).Contents (Elt Ideal)) (i : Fin 12288) (c : Fin 64) :
    val_main_v20 (F := Ideal) f co ts Wk bk (ix2 i c) = projOf f co ts Wk bk i c := by
  rw [val_main_v20_apply, val_main_v17_apply, val_main_v19_apply, val_main_v18_apply, Ideal.addf_def,
    show idx_main_v18 (idx_main_v19 (ix2 i c)) = ix1 c by idx1]
  refine (congrArg (· + bk (ix1 c)) (Finset.sum_congr rfl fun k _ => ?_)).trans (proj_sum f co ts Wk bk i c)
  rw [show lidx_main_v17 (ix2 i c) k = ix2 i k by idx2, show ridx_main_v17 (ix2 i c) k = ix2 k c by idx2]

/-- The value rows. -/
theorem v_at (f : (⟨S12288x256, .f32⟩ : BufTy).Contents (Elt Ideal)) (co : (⟨S12288x3, .i32⟩ : BufTy).Contents (Elt Ideal))
    (ts : (⟨S3, .f32⟩ : BufTy).Contents (Elt Ideal)) (Wv : (⟨S259x256, .f32⟩ : BufTy).Contents (Elt Ideal))
    (bv : (⟨S256, .f32⟩ : BufTy).Contents (Elt Ideal)) (i : Fin 12288) (c : Fin 256) :
    val_main_v24 (F := Ideal) f co ts Wv bv (ix2 i c) = projOf f co ts Wv bv i c := by
  rw [val_main_v24_apply, val_main_v21_apply, val_main_v23_apply, val_main_v22_apply, Ideal.addf_def,
    show idx_main_v22 (idx_main_v23 (ix2 i c)) = ix1 c by idx1]
  refine (congrArg (· + bv (ix1 c)) (Finset.sum_congr rfl fun k _ => ?_)).trans (proj_sum f co ts Wv bv i c)
  rw [show lidx_main_v21 (ix2 i c) k = ix2 i k by idx2, show ridx_main_v21 (ix2 i c) k = ix2 k c by idx2]

/-! ## Scores, weights and the result -/

/-- A fold of `max` from `⊥` is the supremum. -/
theorem fold_max_bot {ι : Type} (s : Finset ι) (g : ι → EReal) : s.fold max ⊥ g = s.sup g := by
  classical
  induction s using Finset.induction_on with
  | empty => simp
  | insert a s ha ih => rw [Finset.fold_insert ha, Finset.sup_insert, ih]

/-- The clamped score of a pair of points. -/
theorem score_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (i j : Fin 12288) :
    val_main_v30 (F := Ideal) f co ts Wq bq Wk bk (ix2 i j) = scoreOf f co ts Wq bq Wk bk i j := by
  rw [val_main_v30_apply, val_main_call2_v4_apply, val_main_call2_v3_apply, val_main_cst_5_apply,
    val_main_call2_v2_apply, val_main_call2_v1_apply, val_main_call2_v0_apply, val_main_cst_4_apply,
    val_main_v29_apply, val_main_v28_apply, val_main_v27_apply, val_main_cst_3_apply, val_main_v26_apply]
  simp only [Ideal.hostDivf_def, Ideal.hostUnary_sqrt_def, Ideal.ofBits_def, Ideal.minimumf_def, Ideal.maximumf_def,
    div_sqrt64]
  unfold scoreOf Spec.score Spec.clamp
  refine congrArg (fun s => min Spec.hi (max Spec.lo (s * s8))) (Finset.sum_congr rfl fun k _ => ?_)
  rw [val_main_v25_apply, show lidx_main_v26 (ix2 i j) k = ix2 i k by idx2,
    show idx_main_v25 (ridx_main_v26 (ix2 i j) k) = ix2 j k by idx2, q_at, k_at]

/-- A row's largest score: the reference's maximum from minus infinity over the row. -/
theorem rowMax_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (i : Fin 12288) :
    val_main_v31 (F := Ideal) f co ts Wq bq Wk bk (ix1 i) = Spec.rowMax (scoreOf f co ts Wq bq Wk bk) i := by
  have hS : ∀ j : Fin 12288, val_main_v30 (F := Ideal) f co ts Wq bq Wk bk (ix2 i j) = scoreOf f co ts Wq bq Wk bk i j :=
    fun j => score_at f co ts Wq bq Wk bk i j
  unfold val_main_v31
  generalize val_main_v30 (F := Ideal) f co ts Wq bq Wk bk = y at hS ⊢
  have h : S12288x12288.Reduces [1] S12288 := by decide
  refine (Host.reduce_eq_fold_single (FloatOps.maximumf (F := Ideal) (φ := .f32)) y _ reducesTo_S12288x12288_S12288_d1 h h_S_ (ix1 i)).trans ?_
  have hlift : ∀ k : Fin 12288, h.lift (ix1 i) k = ix2 i k := fun k => by
    funext c; apply Fin.ext; fin_cases c <;> rfl
  have hf : (y ∘ h.lift (ix1 i)) = fun k : Fin 12288 => scoreOf f co ts Wq bq Wk bk i k :=
    funext fun k => (congrArg y (hlift k)).trans (hS k)
  refine (congrArg (fun g => Finset.fold max (Ideal.ofBits .f32 0xFF800000#32) g (Finset.univ : Finset (Fin 12288))) hf).trans ?_
  rw [ofBits_ninf]
  exact fold_max_bot _ _

/-- The unnormalized weight of a pair of points. -/
theorem ew_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (i j : Fin 12288) :
    val_main_v35 (F := Ideal) f co ts Wq bq Wk bk (ix2 i j) = Spec.ew (scoreOf f co ts Wq bq Wk bk) i j := by
  rw [val_main_v35_apply, val_main_v34_apply, val_main_v33_apply, val_main_v32_apply, score_at,
    show idx_main_v32 (idx_main_v33 (ix2 i j)) = ix1 i by idx1, rowMax_at]
  rfl

/-- A row's normalizer. -/
theorem den_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (i : Fin 12288) :
    val_main_v39 (F := Ideal) f co ts Wq bq Wk bk (ix2 i (0 : Fin 1)) = Spec.den (scoreOf f co ts Wq bq Wk bk) i := by
  rw [val_main_v39_apply, val_main_v37_apply, val_main_v36_apply, val_main_v38_apply, val_main_cst_8_apply,
    val_main_cst_7_apply]
  simp only [Ideal.ofBits_def, Ideal.addf_def, ofBits_zero, zero_add]
  unfold Spec.den
  refine congrArg (· + Spec.eps) (Finset.sum_congr rfl fun k _ => ?_)
  rw [show idx_main_v36 (idx_main_v37 (ix2 i (0 : Fin 1))) k = ix2 i k by idx2, ew_at]

/-- The result at a point and a feature. -/
theorem out_at (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (Wv : (⟨S259x256, .f32⟩ : BufTy).Contents (Elt Ideal))
    (bv : (⟨S256, .f32⟩ : BufTy).Contents (Elt Ideal)) (i : Fin 12288) (d : Fin 256) :
    val_main_v43 (F := Ideal) f co ts Wq bq Wk bk Wv bv (ix2 i d) = refOut f co ts Wq bq Wk bk Wv bv i d := by
  rw [val_main_v43_apply, val_main_v42_apply, Ideal.addf_def]
  unfold refOut Spec.out mat
  refine congrArg (· + f (ix2 i d)) (Finset.sum_congr rfl fun k _ => ?_)
  rw [val_main_v41_apply, val_main_v40_apply, Ideal.hostDivf_def,
    show lidx_main_v42 (ix2 i d) k = ix2 i k by idx2, show ridx_main_v42 (ix2 i d) k = ix2 k d by idx2,
    show idx_main_v40 (ix2 i k) = ix2 i (0 : Fin 1) by idx2, ew_at, den_at, v_at]

/-- The reference's last stage is `refOut` of the arguments, index by index. -/
theorem ref_eq (f : (⟨S12288x256, .f32⟩ : BufTy).Contents (Elt Ideal)) (co : (⟨S12288x3, .i32⟩ : BufTy).Contents (Elt Ideal))
    (ts : (⟨S3, .f32⟩ : BufTy).Contents (Elt Ideal)) (Wq : (⟨S259x64, .f32⟩ : BufTy).Contents (Elt Ideal))
    (bq : (⟨S64, .f32⟩ : BufTy).Contents (Elt Ideal)) (Wk : (⟨S259x64, .f32⟩ : BufTy).Contents (Elt Ideal))
    (bk : (⟨S64, .f32⟩ : BufTy).Contents (Elt Ideal)) (Wv : (⟨S259x256, .f32⟩ : BufTy).Contents (Elt Ideal))
    (bv : (⟨S256, .f32⟩ : BufTy).Contents (Elt Ideal)) :
    val_main_v43 (F := Ideal) f co ts Wq bq Wk bk Wv bv = fun idx => refOut f co ts Wq bq Wk bk Wv bv (idx 0) (idx 1) := by
  funext idx
  exact (congrArg (val_main_v43 (F := Ideal) f co ts Wq bq Wk bk Wv bv) (eq_ix2 idx)).trans
    (out_at f co ts Wq bq Wk bk Wv bv (idx 0) (idx 1))

/-- Every weakly fair execution of the reference terminates with its result buffer at `refOut` of the argument
    arrays, the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = (fun idx => refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (idx 0) (idx 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun _ h c => ?_) (Cert.ReferenceIdeal.Value.run (F := Ideal) m ρ)
  obtain ⟨h0, hrest⟩ := h c
  refine ⟨?_, hrest⟩
  rw [h0, val_main_v43_eq]
  exact ref_eq _ _ _ _ _ _ _ _ _

end Cert.ReferenceIdeal.RefValue

end
-- ==== Proof.KernelRef.lean ====
/-
  The idealized kernel's result array is the reference's function of the arguments.

  The attention region reads four arrays: the query, key and value arrays the projection region wrote, and the
  features. Whatever it is entered with, its output array ends at the attention function of those four
  (the online weighting law). The three projected arrays are, index by index, the affine images of the
  normalized point (the projection region's twelve row blocks tile them), and the host operations before the
  regions hand the projection region exactly the normalized coordinates, the weight matrices' first 256 and
  last 3 rows, and the biases. Put together, the result is the reference's function.
-/
import proofs.«174622_j3590592660316_1_alg».proof.Proof.KernelOut
import proofs.«174622_j3590592660316_1_alg».proof.Proof.RunBoth
import proofs.«174622_j3590592660316_1_alg».proof.Proof.Region0
import proofs.«174622_j3590592660316_1_alg».proof.Proof.ProjArrays
import proofs.«174622_j3590592660316_1_alg».proof.Proof.RefValue

noncomputable section

namespace Cert.KernelIdeal.KernelRef

open Cert.KernelIdeal Cert.KernelIdeal.Gen Idealize.ShloMosaic Idealize.ShloMosaic.TcCoe Idealize.ShloMosaic.ValueIdx Cert
open Cert.KernelIdeal.RunBoth

/-- The projection region's proof data, as a family over the contents it is entered with. -/
abbrev D0 : RunBoth.Env (F := Ideal) → (c : Dev nD) → Pipeline.Dat τ (Elt Ideal) Unit ℕ (UR sig nD τ) ℕ cfg0 c :=
  fun V c => Reg0.dat0 (F := Ideal) V c

/-- The result array of the run, as the reference's function of the nine argument arrays. -/
theorem kernel_out (m : (ℓ : Loc nD τ sig) → Buf (Elt Ideal) ℓ) (c : Dev nD) :
    (Reg1.dat1 (F := Ideal) (Vin1 m D0) c).arrAt 4 cfg1.N
      = fun idx => Cert.ReferenceIdeal.RefValue.refOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (idx 0) (idx 1) := by
  rw [KernelOut.attn_final]
  have h0 : Vin1 m D0 c (Pipeline.arrRef spec1 0) = ProjValue.qArr (Vin0 m) c :=
    (Vin1_v22_0 m D0 c).trans (ProjValue.final_q (Vin0 m) c)
  have h1 : Vin1 m D0 c (Pipeline.arrRef spec1 1) = ProjValue.kArr (Vin0 m) c :=
    (Vin1_v22_1 m D0 c).trans (ProjValue.final_k (Vin0 m) c)
  have h2 : Vin1 m D0 c (Pipeline.arrRef spec1 2) = ProjValue.vArr (Vin0 m) c :=
    (Vin1_v22_2 m D0 c).trans (ProjValue.final_v (Vin0 m) c)
  have h3 : Vin1 m D0 c (Pipeline.arrRef spec1 3) = m ((c : Thread nD τ).loc main_arg0) :=
    (Vin1_of m D0 c main_arg0 (by decide)).trans (ProjValue.V3_feat m c)
  rw [h0, h1, h2, h3, ProjValue.qArr_args, ProjValue.kArr_args, ProjValue.vArr_args]
  rfl

end Cert.KernelIdeal.KernelRef

end
-- ==== Proof.lean ====
/-
  The kernel computes softmax-style attention with an online (tile by tile) normalization; the reference computes
  it in one pass. Over the extended reals, with every float operation exact, the two agree on every input.

  Both programs L2-normalize each point's features (dividing by the norm plus eps), clamp the scaled integer
  coordinates, and form queries, keys and values as affine images of the 259 entries of a point. The kernel
  forms them in one launch, twelve row blocks, each affine image as two matrix products (the 256 feature
  entries and the 3 coordinate entries) — a sum split in two, which changes nothing. The scores are clamped to
  [-100, 100] after a scaling that the kernel writes as a product with one eighth and the reference as a quotient
  by the square root of 64: the same function of every extended real. The reference subtracts each row's largest
  score, exponentiates, divides every weight by (the row's sum plus eps) and multiplies by the value matrix. The
  kernel walks a row's keys in twelve tiles, keeping the largest score so far and the sums rescaled to it, and
  divides at the end; since the clamped scores are reals, rescaling by exp of a difference of maxima is exact,
  and a nonnegative real factor distributes over any sum of extended reals, so the two agree whatever the
  values are — no finiteness of the inputs is used. The residual features are added on both sides.

  The three frames: the two kernel programs (word level and idealized) run through their host operations and
  their two launches, the second launch's running maximum, sum and accumulator carried between grid points as an
  invariant of the launch; the reference is a straight line of host operations. The idealization rewrote
  nothing, so the kernel program is its own idealization.
-/
import proofs.«174622_j3590592660316_1_alg».proof.Defs
import proofs.«174622_j3590592660316_1_alg».proof.Proof.Gen.Kernel
import proofs.«174622_j3590592660316_1_alg».proof.Proof.Gen.KernelIdeal
import proofs.«174622_j3590592660316_1_alg».proof.Proof.Gen.ReferenceIdeal
import proofs.«174622_j3590592660316_1_alg».proof.Proof.Gen.Pre_finite_inputs
import proofs.«174622_j3590592660316_1_alg».proof.Proof.RunBothInst
import proofs.«174622_j3590592660316_1_alg».proof.Proof.RunBothInstBits
import proofs.«174622_j3590592660316_1_alg».proof.Proof.KernelRef
import proofs.«174622_j3590592660316_1_alg».proof.Proof.RefValue
import Idealize.ShloMosaic.Adequacy
import Idealize.ShloMosaic.Init

noncomputable section

namespace Cert.Proof

open Idealize.ShloMosaic Idealize.SL.Sem

/-- The word-level kernel program runs to its end, faults nowhere and leaves its arguments unchanged. -/
theorem frame_k : Cert.frame_Kernel := fun m ρ _ => Cert.Kernel.RunBothInst.frame_inst (F := Bits) m ρ

/-- So does the idealized kernel program. -/
theorem frame_ki : Cert.frame_KernelIdeal := fun m ρ _ => Cert.KernelIdeal.RunBothInst.frame_inst (F := Ideal) m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array: the
    reference's function of the nine arguments. -/
theorem algebraic : Cert.algebraic_KernelIdeal_ReferenceIdeal := by
  intro m ρ m' ρ' _ hagree
  refine ⟨fun c idx => Cert.ReferenceIdeal.RefValue.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (idx 0) (idx 1), ?_, ?_⟩
  · exact (θ_run Cert.KernelIdeal.defs _ _).mono
      (fun r h c => ⟨(h c).1.trans (Cert.KernelIdeal.KernelRef.kernel_out m c), (h c).2⟩)
      (Cert.KernelIdeal.RunBothInst.run_value_inst (F := Ideal) m ρ)
  · refine (θ_run Cert.ReferenceIdeal.defs _ _).mono (fun r h c => ⟨?_, (h c).2⟩)
      (Cert.ReferenceIdeal.RefValue.ref_run m' ρ')
    obtain ⟨e0, e1, e2, e3, e4, e5, e6, e7, e8⟩ := hagree c
    rw [(h c).1, e0, e1, e2, e3, e4, e5, e6, e7, e8]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
